-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x4096x64 : Shape := ⟨4, ![2, 4, 4096, 64]⟩
abbrev S1x4096x4096 : Shape := ⟨3, ![1, 4096, 4096]⟩
abbrev S_ : Shape := ⟨0, ![]⟩

class Facts : Prop where
  bcast_S_S2x4x4096x64 : S_.BroadcastsInDim S2x4x4096x64 (![] : Fin 0 → Fin S2x4x4096x64.rank)
  reducesTo_S2x4x4096x64_S_d0_1_2_3 : S2x4x4096x64.ReducesTo [0, 1, 2, 3] S_
  h_S_ : 0 < S_.numel

variable [Facts]

def fn {F : FTy → Type} [FloatOps F] (main_arg0 : FVec F S2x4x4096x64 .f32) (main_arg1 : FVec F S2x4x4096x64 .f32) (main_arg2 : FVec F S2x4x4096x64 .f32) (main_arg3 : IVec S1x4096x4096 32) : IVec S_ 1 :=
  let main_v0 : FVec F S2x4x4096x64 .f32 := Host.absf main_arg0
  let main_cst : FVec F S_ .f32 := constant S_ .f32 0x7F800000#32
  let main_v1 : FVec F S2x4x4096x64 .f32 := broadcastInDim S2x4x4096x64 ![] bcast_S_S2x4x4096x64 main_cst
  let main_v2 : IVec S2x4x4096x64 1 := cmpf .olt main_v0 main_v1
  let main_c : IVec S_ 1 := constantI S_ 1 1#1
  let main_v3 : IVec S_ 1 := (fun x v => Host.reduce IntOp.andi x v reducesTo_S2x4x4096x64_S_d0_1_2_3 h_S_) main_v2 main_c
  let main_v4 : FVec F S2x4x4096x64 .f32 := Host.absf main_arg1
  let main_cst_0 : FVec F S_ .f32 := constant S_ .f32 0x7F800000#32
  let main_v5 : FVec F S2x4x4096x64 .f32 := broadcastInDim S2x4x4096x64 ![] bcast_S_S2x4x4096x64 main_cst_0
  let main_v6 : IVec S2x4x4096x64 1 := cmpf .olt main_v4 main_v5
  let main_c_1 : IVec S_ 1 := constantI S_ 1 1#1
  let main_v7 : IVec S_ 1 := (fun x v => Host.reduce IntOp.andi x v reducesTo_S2x4x4096x64_S_d0_1_2_3 h_S_) main_v6 main_c_1
  let main_v8 : IVec S_ 1 := andi main_v3 main_v7
  let main_v9 : FVec F S2x4x4096x64 .f32 := Host.absf main_arg2
  let main_cst_2 : FVec F S_ .f32 := constant S_ .f32 0x7F800000#32
  let main_v10 : FVec F S2x4x4096x64 .f32 := broadcastInDim S2x4x4096x64 ![] bcast_S_S2x4x4096x64 main_cst_2
  let main_v11 : IVec S2x4x4096x64 1 := cmpf .olt main_v9 main_v10
  let main_c_3 : IVec S_ 1 := constantI S_ 1 1#1
  let main_v12 : IVec S_ 1 := (fun x v => Host.reduce IntOp.andi x v reducesTo_S2x4x4096x64_S_d0_1_2_3 h_S_) main_v11 main_c_3
  let main_v13 : IVec S_ 1 := andi main_v8 main_v12
  main_v13
-- ==== Kernel.lean ====
abbrev S2x4x4096x64 : Shape := ⟨4, ![2, 4, 4096, 64]⟩
abbrev S1x4096x4096 : Shape := ⟨3, ![1, 4096, 4096]⟩
abbrev S2x4x4096x4096 : Shape := ⟨4, ![2, 4, 4096, 4096]⟩
abbrev S2x4x512x64 : Shape := ⟨4, ![2, 4, 512, 64]⟩
abbrev S2x4x256x64 : Shape := ⟨4, ![2, 4, 256, 64]⟩
abbrev S1x512x256 : Shape := ⟨3, ![1, 512, 256]⟩
abbrev S2x4x512x256 : Shape := ⟨4, ![2, 4, 512, 256]⟩
abbrev S512x256 : Shape := ⟨2, ![512, 256]⟩
abbrev S2x1x512x64 : Shape := ⟨4, ![2, 1, 512, 64]⟩
abbrev S2x512x64 : Shape := ⟨3, ![2, 512, 64]⟩
abbrev S2x1x256x64 : Shape := ⟨4, ![2, 1, 256, 64]⟩
abbrev S2x256x64 : Shape := ⟨3, ![2, 256, 64]⟩
abbrev S2x512x256 : Shape := ⟨3, ![2, 512, 256]⟩
abbrev S1x1x512x256 : Shape := ⟨4, ![1, 1, 512, 256]⟩
abbrev S1x256x64 : Shape := ⟨3, ![1, 256, 64]⟩
abbrev S256x64 : Shape := ⟨2, ![256, 64]⟩
abbrev S512x64 : Shape := ⟨2, ![512, 64]⟩
abbrev S1x1x512x64 : Shape := ⟨4, ![1, 1, 512, 64]⟩

abbrev nBuf : Space → Nat
  | .hbm => 6
  | .vmem => 13
  | .smem => 0
  | _ => 0

abbrev bufTy : (tb : Table) → Fin (tcTables nBuf tb) → BufTy
  | .hbm, ⟨0, _⟩ => ⟨S2x4x4096x64, .f32⟩
  | .hbm, ⟨1, _⟩ => ⟨S2x4x4096x64, .f32⟩
  | .hbm, ⟨2, _⟩ => ⟨S2x4x4096x64, .f32⟩
  | .hbm, ⟨3, _⟩ => ⟨S1x4096x4096, .i32⟩
  | .hbm, ⟨4, _⟩ => ⟨S2x4x4096x64, .f32⟩
  | .hbm, ⟨5, _⟩ => ⟨S2x4x4096x4096, .f32⟩
  | .local _ .vmem, ⟨0, _⟩ => ⟨S2x4x512x64, .f32⟩
  | .local _ .vmem, ⟨1, _⟩ => ⟨S2x4x512x64, .f32⟩
  | .local _ .vmem, ⟨2, _⟩ => ⟨S2x4x256x64, .f32⟩
  | .local _ .vmem, ⟨3, _⟩ => ⟨S2x4x256x64, .f32⟩
  | .local _ .vmem, ⟨4, _⟩ => ⟨S2x4x256x64, .f32⟩
  | .local _ .vmem, ⟨5, _⟩ => ⟨S2x4x256x64, .f32⟩
  | .local _ .vmem, ⟨6, _⟩ => ⟨S1x512x256, .i32⟩
  | .local _ .vmem, ⟨7, _⟩ => ⟨S1x512x256, .i32⟩
  | .local _ .vmem, ⟨8, _⟩ => ⟨S2x4x512x64, .f32⟩
  | .local _ .vmem, ⟨9, _⟩ => ⟨S2x4x512x64, .f32⟩
  | .local _ .vmem, ⟨10, _⟩ => ⟨S2x4x512x256, .f32⟩
  | .local _ .vmem, ⟨11, _⟩ => ⟨S2x4x512x256, .f32⟩
  | .local _ .vmem, ⟨12, _⟩ => ⟨S2x4x512x64, .f32⟩
  | _, _ => ⟨S2x4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v210 : BitVec 1 := Scalar.cmpi .eq arg1 c15_i32
  let v211 : BitVec 32 := Scalar.extui v210
  let c0_i32_136 : BitVec 32 := 0#32
  let v212 : BitVec 1 := Scalar.cmpi .ne v211 c0_i32_136
  v212

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

abbrev stage0_0 : Fin 2 → Memref sig .tc .vmem S2x4x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x4x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x4x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x4x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x4x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S2x4x512x64_S2x4x512x64_0_0_0_0 : ∀ a, (![0, 0, 0, 0] : Fin 4 → Nat) a + S2x4x512x64.size a ≤ S2x4x512x64.size a
  h_S2x4x512x64 : 0 < S2x4x512x64.numel
  shapeCasts_S2x4x512x64_S2x4x512x64 : S2x4x512x64.ShapeCasts S2x4x512x64
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S2x4x256x64_S2x4x256x64_0_0_0_0 : ∀ a, (![0, 0, 0, 0] : Fin 4 → Nat) a + S2x4x256x64.size a ≤ S2x4x256x64.size a
  h_S2x4x256x64 : 0 < S2x4x256x64.numel
  slices_S2x4x512x64_o0_0_0_0_S2x1x512x64 : S2x4x512x64.Slices ![0, 0, 0, 0] S2x1x512x64
  shapeCasts_S2x1x512x64_S2x512x64 : S2x1x512x64.ShapeCasts S2x512x64
  bitsLt_bf16_f32 : FTy.bits .bf16 < FTy.bits .f32
  slices_S2x4x256x64_o0_0_0_0_S2x1x256x64 : S2x4x256x64.Slices ![0, 0, 0, 0] S2x1x256x64
  shapeCasts_S2x1x256x64_S2x256x64 : S2x1x256x64.ShapeCasts S2x256x64
  slices_S2x512x256_o0_0_0_S1x512x256 : S2x512x256.Slices ![0, 0, 0] S1x512x256
  slices_S2x512x256_o1_0_0_S1x512x256 : S2x512x256.Slices ![1, 0, 0] S1x512x256
  inb_S2x4x512x256_S1x1x512x256_0_0_0_0 : ∀ a, (![0, 0, 0, 0] : Fin 4 → Nat) a + S1x1x512x256.size a ≤ S2x4x512x256.size a
  h_S1x1x512x256 : 0 < S1x1x512x256.numel
  shapeCasts_S1x1x512x256_S512x256 : S1x1x512x256.ShapeCasts S512x256
  shapeCasts_S512x256_S1x1x512x256 : S512x256.ShapeCasts S1x1x512x256
  inb_S2x4x512x256_S1x1x512x256_1_0_0_0 : ∀ a, (![1, 0, 0, 0] : Fin 4 → Nat) a + S1x1x512x256.size a ≤ S2x4x512x256.size a
  slices_S2x256x64_o0_0_0_S1x256x64 : S2x256x64.Slices ![0, 0, 0] S1x256x64
  shapeCasts_S1x256x64_S256x64 : S1x256x64.ShapeCasts S256x64
  slices_S2x256x64_o1_0_0_S1x256x64 : S2x256x64.Slices ![1, 0, 0] S1x256x64
  inb_S2x4x512x64_S1x1x512x64_0_0_0_0 : ∀ a, (![0, 0, 0, 0] : Fin 4 → Nat) a + S1x1x512x64.size a ≤ S2x4x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  inb_S2x4x512x64_S1x1x512x64_1_0_0_0 : ∀ a, (![1, 0, 0, 0] : Fin 4 → Nat) a + S1x1x512x64.size a ≤ S2x4x512x64.size a
  slices_S2x4x512x64_o0_1_0_0_S2x1x512x64 : S2x4x512x64.Slices ![0, 1, 0, 0] S2x1x512x64
  slices_S2x4x256x64_o0_1_0_0_S2x1x256x64 : S2x4x256x64.Slices ![0, 1, 0, 0] S2x1x256x64
  inb_S2x4x512x256_S1x1x512x256_0_1_0_0 : ∀ a, (![0, 1, 0, 0] : Fin 4 → Nat) a + S1x1x512x256.size a ≤ S2x4x512x256.size a
  inb_S2x4x512x256_S1x1x512x256_1_1_0_0 : ∀ a, (![1, 1, 0, 0] : Fin 4 → Nat) a + S1x1x512x256.size a ≤ S2x4x512x256.size a
  inb_S2x4x512x64_S1x1x512x64_0_1_0_0 : ∀ a, (![0, 1, 0, 0] : Fin 4 → Nat) a + S1x1x512x64.size a ≤ S2x4x512x64.size a
  inb_S2x4x512x64_S1x1x512x64_1_1_0_0 : ∀ a, (![1, 1, 0, 0] : Fin 4 → Nat) a + S1x1x512x64.size a ≤ S2x4x512x64.size a
  slices_S2x4x512x64_o0_2_0_0_S2x1x512x64 : S2x4x512x64.Slices ![0, 2, 0, 0] S2x1x512x64
  slices_S2x4x256x64_o0_2_0_0_S2x1x256x64 : S2x4x256x64.Slices ![0, 2, 0, 0] S2x1x256x64
  inb_S2x4x512x256_S1x1x512x256_0_2_0_0 : ∀ a, (![0, 2, 0, 0] : Fin 4 → Nat) a + S1x1x512x256.size a ≤ S2x4x512x256.size a
  inb_S2x4x512x256_S1x1x512x256_1_2_0_0 : ∀ a, (![1, 2, 0, 0] : Fin 4 → Nat) a + S1x1x512x256.size a ≤ S2x4x512x256.size a
  inb_S2x4x512x64_S1x1x512x64_0_2_0_0 : ∀ a, (![0, 2, 0, 0] : Fin 4 → Nat) a + S1x1x512x64.size a ≤ S2x4x512x64.size a
  inb_S2x4x512x64_S1x1x512x64_1_2_0_0 : ∀ a, (![1, 2, 0, 0] : Fin 4 → Nat) a + S1x1x512x64.size a ≤ S2x4x512x64.size a
  slices_S2x4x512x64_o0_3_0_0_S2x1x512x64 : S2x4x512x64.Slices ![0, 3, 0, 0] S2x1x512x64
  slices_S2x4x256x64_o0_3_0_0_S2x1x256x64 : S2x4x256x64.Slices ![0, 3, 0, 0] S2x1x256x64
  inb_S2x4x512x256_S1x1x512x256_0_3_0_0 : ∀ a, (![0, 3, 0, 0] : Fin 4 → Nat) a + S1x1x512x256.size a ≤ S2x4x512x256.size a
  inb_S2x4x512x256_S1x1x512x256_1_3_0_0 : ∀ a, (![1, 3, 0, 0] : Fin 4 → Nat) a + S1x1x512x256.size a ≤ S2x4x512x256.size a
  inb_S2x4x512x64_S1x1x512x64_0_3_0_0 : ∀ a, (![0, 3, 0, 0] : Fin 4 → Nat) a + S1x1x512x64.size a ≤ S2x4x512x64.size a
  inb_S2x4x512x64_S1x1x512x64_1_3_0_0 : ∀ a, (![1, 3, 0, 0] : Fin 4 → Nat) a + S1x1x512x64.size a ≤ S2x4x512x64.size a
  dot_S2x512x64_S2x256x64_S2x512x256_2_2_1_1_0_0_wf : DotDims.WF S2x512x64 S2x256x64 S2x512x256 [2] [2] [1] [1] [0] [0]
  dot_S512x256_S256x64_S512x64_1_0_0_1_n_n_wf : DotDims.WF S512x256 S256x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4x512x64.size a ≤ S2x4x4096x64.size a
  hwx0_0 : ∀ i : grid0.Coords, EltTy.bits .f32 = 32 ∨ (Rect.block (s := S2x4x4096x64) S2x4x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4x256x64.size a ≤ S2x4x4096x64.size a
  hwx0_1 : ∀ i : grid0.Coords, EltTy.bits .f32 = 32 ∨ (Rect.block (s := S2x4x4096x64) S2x4x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x4x256x64.size a ≤ S2x4x4096x64.size a
  hwx0_2 : ∀ i : grid0.Coords, EltTy.bits .f32 = 32 ∨ (Rect.block (s := S2x4x4096x64) S2x4x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S1x4096x4096.size a
  hwx0_3 : ∀ i : grid0.Coords, EltTy.bits .i32 = 32 ∨ (Rect.block (s := S1x4096x4096) S1x512x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x4x512x64.size a ≤ S2x4x4096x64.size a
  hwx0_4 : ∀ i : grid0.Coords, EltTy.bits .f32 = 32 ∨ (Rect.block (s := S2x4x4096x64) S2x4x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x4x512x256.size a ≤ S2x4x4096x4096.size a
  hwx0_5 : ∀ i : grid0.Coords, EltTy.bits .f32 = 32 ∨ (Rect.block (s := S2x4x4096x4096) S2x4x512x256.size (cc0_transform_5 i) (hinb0_5 i)).WholeWords (EltTy.packing .f32)

variable [Facts₀]

def dot_S2x512x64_S2x256x64_S2x512x256_2_2_1_1_0_0 : DotDims S2x512x64 S2x256x64 S2x512x256 where
  lhsContracting := [2]
  rhsContracting := [2]
  lhsNonContracting := [1]
  rhsNonContracting := [1]
  lhsBatch := [0]
  rhsBatch := [0]
  wf := dot_S2x512x64_S2x256x64_S2x512x256_2_2_1_1_0_0_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf

abbrev win0_0 : Pipeline.Window sig grid0 :=
  Pipeline.Window.ofSpec (Memref.whole main_arg0) S2x4x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x4x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x4x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2x4x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2x4x512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun _ => false | ⟨_ + 6, h⟩ => absurd h (Nat.not_lt.2 (Nat.le_add_left _ _))

class Facts : Prop extends Facts₀ where

variable [Facts]
-- ==== ReferenceIdeal.lean ====
abbrev S2x4x4096x64 : Shape := ⟨4, ![2, 4, 4096, 64]⟩
abbrev S1x4096x4096 : Shape := ⟨3, ![1, 4096, 4096]⟩
abbrev S2x4x4096x4096 : Shape := ⟨4, ![2, 4, 4096, 4096]⟩
abbrev S_ : Shape := ⟨0, ![]⟩
abbrev S1x1x4096x4096 : Shape := ⟨4, ![1, 1, 4096, 4096]⟩
abbrev S4x4096x4096 : Shape := ⟨3, ![4, 4096, 4096]⟩
abbrev S1x4x4096x4096 : Shape := ⟨4, ![1, 4, 4096, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2x4x4096x64, .f32⟩
  | .hbm, ⟨1, _⟩ => ⟨S2x4x4096x64, .f32⟩
  | .hbm, ⟨2, _⟩ => ⟨S2x4x4096x64, .f32⟩
  | .hbm, ⟨3, _⟩ => ⟨S1x4096x4096, .i32⟩
  | .hbm, ⟨4, _⟩ => ⟨S2x4x4096x4096, .f32⟩
  | .hbm, ⟨5, _⟩ => ⟨S_, .f32⟩
  | .hbm, ⟨6, _⟩ => ⟨S_, .f32⟩
  | .hbm, ⟨7, _⟩ => ⟨S2x4x4096x4096, .f32⟩
  | .hbm, ⟨8, _⟩ => ⟨S2x4x4096x4096, .f32⟩
  | .hbm, ⟨9, _⟩ => ⟨S_, .i32⟩
  | .hbm, ⟨10, _⟩ => ⟨S1x4096x4096, .i32⟩
  | .hbm, ⟨11, _⟩ => ⟨S1x4096x4096, .i1⟩
  | .hbm, ⟨12, _⟩ => ⟨S1x4096x4096, .i1⟩
  | .hbm, ⟨13, _⟩ => ⟨S1x1x4096x4096, .i1⟩
  | .hbm, ⟨14, _⟩ => ⟨S2x4x4096x4096, .i1⟩
  | .hbm, ⟨15, _⟩ => ⟨S_, .f32⟩
  | .hbm, ⟨16, _⟩ => ⟨S2x4x4096x4096, .f32⟩
  | .hbm, ⟨17, _⟩ => ⟨S2x4x4096x4096, .f32⟩
  | .hbm, ⟨18, _⟩ => ⟨S_, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S1x4x4096x4096, .f32⟩
  | .hbm, ⟨24, _⟩ => ⟨S2x4x4096x4096, .f32⟩
  | .hbm, ⟨25, _⟩ => ⟨S2x4x4096x4096, .f32⟩
  | .hbm, ⟨26, _⟩ => ⟨S2x4x4096x4096, .f32⟩
  | .hbm, ⟨27, _⟩ => ⟨S_, .f32⟩
  | .hbm, ⟨28, _⟩ => ⟨S4x4096x4096, .f32⟩
  | .hbm, ⟨29, _⟩ => ⟨S1x4x4096x4096, .f32⟩
  | .hbm, ⟨30, _⟩ => ⟨S2x4x4096x4096, .f32⟩
  | .hbm, ⟨31, _⟩ => ⟨S2x4x4096x4096, .f32⟩
  | .hbm, ⟨32, _⟩ => ⟨S2x4x4096x64, .f32⟩
  | _, _ => ⟨S2x4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_call0_v0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S2x4x4096x4096 : S_.BroadcastsInDim S2x4x4096x4096 (![] : Fin 0 → Fin S2x4x4096x4096.rank)
  bcast_S_S1x4096x4096 : S_.BroadcastsInDim S1x4096x4096 (![] : Fin 0 → Fin S1x4096x4096.rank)
  bcast_S1x4096x4096_S1x1x4096x4096_0_2_3 : S1x4096x4096.BroadcastsInDim S1x1x4096x4096 (![0, 2, 3] : Fin 3 → Fin S1x1x4096x4096.rank)
  bcast_S1x1x4096x4096_S2x4x4096x4096_0_1_2_3 : S1x1x4096x4096.BroadcastsInDim S2x4x4096x4096 (![0, 1, 2, 3] : Fin 4 → Fin S2x4x4096x4096.rank)
  reducesTo_S2x4x4096x4096_S4x4096x4096_d0 : S2x4x4096x4096.ReducesTo [0] S4x4096x4096
  h_S_ : 0 < S_.numel
  bcast_S_S4x4096x4096 : S_.BroadcastsInDim S4x4096x4096 (![] : Fin 0 → Fin S4x4096x4096.rank)
  bcast_S4x4096x4096_S1x4x4096x4096_1_2_3 : S4x4096x4096.BroadcastsInDim S1x4x4096x4096 (![1, 2, 3] : Fin 3 → Fin S1x4x4096x4096.rank)
  bcast_S1x4x4096x4096_S2x4x4096x4096_0_1_2_3 : S1x4x4096x4096.BroadcastsInDim S2x4x4096x4096 (![0, 1, 2, 3] : Fin 4 → Fin S2x4x4096x4096.rank)
  dot_S2x4x4096x64_S2x4x4096x64_S2x4x4096x4096_3_3_2_2_01_01_wf : DotDims.WF S2x4x4096x64 S2x4x4096x64 S2x4x4096x4096 [3] [3] [2] [2] [0, 1] [0, 1]
  dot_S2x4x4096x4096_S2x4x4096x64_S2x4x4096x64_3_2_2_3_01_01_wf : DotDims.WF S2x4x4096x4096 S2x4x4096x64 S2x4x4096x64 [3] [2] [2] [3] [0, 1] [0, 1]

variable [Facts₀]

def dot_S2x4x4096x64_S2x4x4096x64_S2x4x4096x4096_3_3_2_2_01_01 : DotDims S2x4x4096x64 S2x4x4096x64 S2x4x4096x4096 where
  lhsContracting := [3]
  rhsContracting := [3]
  lhsNonContracting := [2]
  rhsNonContracting := [2]
  lhsBatch := [0, 1]
  rhsBatch := [0, 1]
  wf := dot_S2x4x4096x64_S2x4x4096x64_S2x4x4096x4096_3_3_2_2_01_01_wf
def dot_S2x4x4096x4096_S2x4x4096x64_S2x4x4096x64_3_2_2_3_01_01 : DotDims S2x4x4096x4096 S2x4x4096x64 S2x4x4096x64 where
  lhsContracting := [3]
  rhsContracting := [2]
  lhsNonContracting := [2]
  rhsNonContracting := [3]
  lhsBatch := [0, 1]
  rhsBatch := [0, 1]
  wf := dot_S2x4x4096x4096_S2x4x4096x64_S2x4x4096x64_3_2_2_3_01_01_wf

class Facts : Prop extends Facts₀ where

variable [Facts]
-- ==== Proof.AttnSpec.lean ====
/-
  Two-way softmax attention, stated on the extended reals with no program in sight.

  For a batch of two, heads h, query rows s, key rows t and feature columns d:
    qk b h s t   = ∑ d, q[b,h,s,d] · k[b,h,t,d]                       (the raw score)
    z  b h s t   = −10⁹ where mask[0,s,t] ≠ 0, else qk b h s t · 1/8    (scaled, masked)
  The softmax runs over the BATCH axis, whose extent is two, so it has the closed form
    attn 0 h s t = logistic (z 0 − z 1),      attn 1 h s t = 1 − logistic (z 0 − z 1),
  and the output is the probability-weighted sum of value rows,
    out b h s d  = ∑ t, attn b h s t · v[b,h,t,d].
-/
import Idealize.ShloMosaic.PureOps.Ideal
import Idealize.ShloMosaic.Lib.ValueIdx

noncomputable section

namespace Cert.AttnSpec

open Idealize.ShloMosaic Idealize.ShloMosaic.ValueIdx

/-- The shape of q, k, v and of the output: batch 2, heads 4, rows 4096, features 64. -/
abbrev SQ : Shape := ⟨4, ![2, 4, 4096, 64]⟩
/-- The shape of the mask: one plane of query rows by key rows. -/
abbrev SM : Shape := ⟨3, ![1, 4096, 4096]⟩
/-- The shape of the probabilities: batch, heads, query rows, key rows. -/
abbrev SA : Shape := ⟨4, ![2, 4, 4096, 4096]⟩

/-- The fill value −10⁹ of a masked score. -/
def negBig : EReal := Ideal.ofBits .f32 0xCE6E6B28#32
/-- The scale 1/8 = 1/√64. -/
def eighth : EReal := Ideal.ofBits .f32 0x3E000000#32
/-- The number one. -/
def one : EReal := Ideal.ofBits .f32 0x3F800000#32

/-- The raw score of query row `s` against key row `t`: the inner product over the 64 features. -/
def qk (q k : SQ.Idx → EReal) (b : Fin 2) (h : Fin 4) (s t : Fin 4096) : EReal :=
  ∑ d : Fin 64, q (ix4 b h s d) * k (ix4 b h t d)

/-- Whether the pair (s, t) is masked: the mask word there is not zero. -/
def masked (mask : SM.Idx → BitVec 32) (s t : Fin 4096) : BitVec 1 :=
  IntOp.cmpi .ne (mask (ix3 (0 : Fin 1) s t)) 0#32

/-- The scaled, masked score. -/
def z (q k : SQ.Idx → EReal) (mask : SM.Idx → BitVec 32) (b : Fin 2) (h : Fin 4) (s t : Fin 4096) : EReal :=
  Scalar.select (masked mask s t) negBig (qk q k b h s t * eighth)

/-- The probability of batch entry 0: the logistic function of the difference of the two scores. -/
def p0 (q k : SQ.Idx → EReal) (mask : SM.Idx → BitVec 32) (h : Fin 4) (s t : Fin 4096) : EReal :=
  Ideal.logistic (z q k mask 0 h s t - z q k mask 1 h s t)

/-- The two-way softmax over the batch axis, in closed form. -/
def attn (q k : SQ.Idx → EReal) (mask : SM.Idx → BitVec 32) (b : Fin 2) (h : Fin 4) (s t : Fin 4096) : EReal :=
  if b.val = 0 then p0 q k mask h s t else one - p0 q k mask h s t

/-- The probabilities as one array. -/
def attnG (q k : SQ.Idx → EReal) (mask : SM.Idx → BitVec 32) : SA.Idx → EReal :=
  fun i => attn q k mask (i 0) (i 1) (i 2) (i 3)

/-- The output as one array: the probability-weighted sum of value rows. -/
def outG (q k v : SQ.Idx → EReal) (mask : SM.Idx → BitVec 32) : SQ.Idx → EReal :=
  fun i => ∑ t : Fin 4096, attn q k mask (i 0) (i 1) (i 2) t * v (ix4 (i 0) (i 1) t (i 3))

end Cert.AttnSpec

end
-- ==== Proof.RefMath.lean ====
/-
  The real-number facts behind the reference's softmax over a batch of two.

  The constants: the word 0x3E000000 is 1/8, the word 0x42800000 is 64 (so dividing by its square root is
  multiplying by 1/8), the fill value of a masked score is a real number, the word 0xFF800000 is −∞.
  A finite sum of products of reals is a real. The maximum of two entries from −∞ is their maximum.
  For reals x₀ x₁ with M = max x₀ x₁:
    exp(x₀−M) / (0 + (exp(x₀−M) + exp(x₁−M))) = 1 / (1 + exp(−(x₀−x₁))),
    exp(x₁−M) / (0 + (exp(x₀−M) + exp(x₁−M))) = 1 − 1 / (1 + exp(−(x₀−x₁))).
-/
import Idealize.ShloMosaic.PureOps.Ideal
import Idealize.ShloMosaic.PureOps.Ideal.Laws
import Idealize.ShloMosaic.Lib.ValueIdx
import Idealize.ShloMosaic.Lib.IdealHost

noncomputable section

namespace Cert.RefMath

open Idealize.ShloMosaic
open scoped BigOperators

/-- The word 0x3E000000 is one eighth. -/
theorem eighth_eq : Ideal.ofBits .f32 0x3E000000#32 = (((1 : ℝ) / 8 : ℝ) : EReal) := by
  simp [Ideal.ofBits, Ideal.ieee, -EReal.coe_mul]; norm_num

/-- The word 0x42800000 is sixty-four. -/
theorem sixtyfour_eq : Ideal.ofBits .f32 0x42800000#32 = ((64 : ℝ) : EReal) := by
  simp [Ideal.ofBits, Ideal.ieee, -EReal.coe_mul]; norm_num

/-- The fill value of a masked score is a real number. -/
theorem negBig_real : ∃ r : ℝ, Ideal.ofBits .f32 0xCE6E6B28#32 = (r : EReal) := by
  refine ⟨-1000000000, ?_⟩
  simp [Ideal.ofBits, Ideal.ieee, -EReal.coe_mul, -EReal.coe_neg]; norm_num

/-- The word 0xFF800000 is −∞. -/
theorem negInf_eq : Ideal.ofBits .f32 0xFF800000#32 = ⊥ := by
  simp [Ideal.ofBits, Ideal.ieee]

/-- The square root of sixty-four is eight. -/
theorem sqrt64 : Real.sqrt 64 = 8 := by
  rw [show (64 : ℝ) = 8 ^ 2 by norm_num, Real.sqrt_sq (by norm_num)]

/-- Dividing by √64 is multiplying by one eighth, at every extended real. -/
theorem div_sqrt64 (x : EReal) :
    Ideal.div x (Ideal.sqrt (Ideal.ofBits .f32 0x42800000#32)) = x * Ideal.ofBits .f32 0x3E000000#32 := by
  rw [sixtyfour_eq, Ideal.sqrt_coe, if_neg (by norm_num), sqrt64, Ideal.div_coe (by norm_num), eighth_eq]

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of products of reals is a real. -/
theorem sum_mul_real {ι : Type} [Fintype ι] (f g : ι → EReal) (hf : ∀ i, ∃ r : ℝ, f i = (r : EReal))
    (hg : ∀ i, ∃ r : ℝ, g i = (r : EReal)) : ∃ r : ℝ, ∑ i, f i * g i = (r : EReal) := by
  choose a ha using hf
  choose b hb using hg
  refine ⟨∑ i, a i * b i, ?_⟩
  rw [coe_sum]
  refine Finset.sum_congr rfl fun i _ => ?_
  rw [ha, hb, EReal.coe_mul]

/-- The maximum over two entries, from −∞. -/
theorem fold_max_two (f : Fin 2 → EReal) :
    (Finset.univ : Finset (Fin 2)).fold max ⊥ f = max (f 0) (f 1) := by
  have e : (Finset.univ : Finset (Fin 2)) = insert 0 {1} := by decide
  rw [e, Finset.fold_insert (by decide), Finset.fold_singleton, max_eq_left (bot_le : (⊥ : EReal) ≤ f 1)]

/-- Two-way softmax, first entry: exp(x₀−M)/(0 + (exp(x₀−M) + exp(x₁−M))) with M = max x₀ x₁ is the logistic
    function of x₀ − x₁. -/
theorem softmax2_fst (x0 x1 : ℝ) :
    Ideal.div (Ideal.exp ((x0 : EReal) - max ⊥ (max (x0 : EReal) (x1 : EReal))))
        (0 + (Ideal.exp ((x0 : EReal) - max ⊥ (max (x0 : EReal) (x1 : EReal)))
          + Ideal.exp ((x1 : EReal) - max ⊥ (max (x0 : EReal) (x1 : EReal)))))
      = Ideal.logistic ((x0 : EReal) - (x1 : EReal)) := by
  have hm : max (x0 : EReal) (x1 : EReal) = ((max x0 x1 : ℝ) : EReal) := (EReal.coe_strictMono.monotone.map_max).symm
  rw [max_eq_right (bot_le : (⊥ : EReal) ≤ _), hm, ← EReal.coe_sub, ← EReal.coe_sub, ← EReal.coe_sub,
    Ideal.exp_coe, Ideal.exp_coe, Ideal.logistic_coe, zero_add, ← EReal.coe_add]
  have hpos : (0 : ℝ) < Real.exp (x0 - max x0 x1) + Real.exp (x1 - max x0 x1) := by positivity
  rw [Ideal.div_coe hpos.ne', ← EReal.coe_mul]
  congr 1
  have h0 : Real.exp (x0 - max x0 x1) ≠ 0 := (Real.exp_pos _).ne'
  have e : Real.exp (-(x0 - x1)) = Real.exp (x1 - max x0 x1) / Real.exp (x0 - max x0 x1) := by
    rw [← Real.exp_sub]; congr 1; ring
  rw [e]
  field_simp

/-- Two-way softmax, second entry: the complement of the first. -/
theorem softmax2_snd (x0 x1 : ℝ) :
    Ideal.div (Ideal.exp ((x1 : EReal) - max ⊥ (max (x0 : EReal) (x1 : EReal))))
        (0 + (Ideal.exp ((x0 : EReal) - max ⊥ (max (x0 : EReal) (x1 : EReal)))
          + Ideal.exp ((x1 : EReal) - max ⊥ (max (x0 : EReal) (x1 : EReal)))))
      = 1 - Ideal.logistic ((x0 : EReal) - (x1 : EReal)) := by
  have hm : max (x0 : EReal) (x1 : EReal) = ((max x0 x1 : ℝ) : EReal) := (EReal.coe_strictMono.monotone.map_max).symm
  rw [max_eq_right (bot_le : (⊥ : EReal) ≤ _), hm, ← EReal.coe_sub, ← EReal.coe_sub, ← EReal.coe_sub,
    Ideal.exp_coe, Ideal.exp_coe, Ideal.logistic_coe, zero_add, ← EReal.coe_add]
  have hpos : (0 : ℝ) < Real.exp (x0 - max x0 x1) + Real.exp (x1 - max x0 x1) := by positivity
  rw [Ideal.div_coe hpos.ne', ← EReal.coe_mul, ← EReal.coe_one, ← EReal.coe_sub]
  congr 1
  have h0 : Real.exp (x0 - max x0 x1) ≠ 0 := (Real.exp_pos _).ne'
  have e : Real.exp (-(x0 - x1)) = Real.exp (x1 - max x0 x1) / Real.exp (x0 - max x0 x1) := by
    rw [← Real.exp_sub]; congr 1; ring
  rw [e]
  field_simp
  ring

end Cert.RefMath

end
-- ==== Proof.RefAttn.lean ====
/-
  The reference program's probabilities are the two-way softmax of the specification.

  Stage by stage at an index (b, h, s, t): the masked, scaled score is z b h s t (dividing by √64 is multiplying
  by 1/8); the maximum over the batch axis from −∞ is max (z 0) (z 1); the exponentials of the two differences
  are summed from 0 over the batch axis; the quotient is the logistic function of z 0 − z 1 at b = 0 and its
  complement at b = 1, because both scores are real numbers when q and k are.
-/
import proofs.«177084_j29996051595373_1_alg».proof.Proof.Gen.ReferenceIdeal.Read
import proofs.«177084_j29996051595373_1_alg».proof.Proof.AttnSpec
import proofs.«177084_j29996051595373_1_alg».proof.Proof.RefMath

noncomputable section

namespace Cert.RefAttn

open Cert.ReferenceIdeal Cert.ReferenceIdeal.Gen Cert.ReferenceIdeal.Read Cert.RefMath
open Idealize.ShloMosaic Idealize.ShloMosaic.ValueIdx Idealize.ShloMosaic.StableHlo
open scoped BigOperators

/-- With real q and k every scaled, masked score is a real number. -/
theorem z_real (q k : AttnSpec.SQ.Idx → EReal) (mask : AttnSpec.SM.Idx → BitVec 32)
    (hq : ∀ i, ∃ r : ℝ, q i = (r : EReal)) (hk : ∀ i, ∃ r : ℝ, k i = (r : EReal))
    (b : Fin 2) (h : Fin 4) (s t : Fin 4096) : ∃ r : ℝ, AttnSpec.z q k mask b h s t = (r : EReal) := by
  unfold AttnSpec.z Scalar.select
  split
  · exact negBig_real
  · obtain ⟨r, hr⟩ := sum_mul_real (fun d : Fin 64 => q (ix4 b h s d)) (fun d : Fin 64 => k (ix4 b h t d))
      (fun d => hq _) (fun d => hk _)
    refine ⟨r * (1 / 8), ?_⟩
    unfold AttnSpec.qk AttnSpec.eighth
    rw [hr, eighth_eq, EReal.coe_mul]

/-- The reference's masked, scaled score at an index is the specification's. -/
theorem v9_apply (q k : AttnSpec.SQ.Idx → EReal) (mask : AttnSpec.SM.Idx → BitVec 32) (i : S2x4x4096x4096.Idx) :
    val_main_v9 (F := Ideal) q k mask i = AttnSpec.z q k mask (i 0) (i 1) (i 2) (i 3) := by
  rw [val_main_v9_apply, val_main_v8_apply, val_main_v7_apply, val_main_v6_apply, val_main_v5_apply,
    val_main_v4_apply, val_main_c_apply, val_main_call0_v0_apply, val_main_cst_0_apply, val_main_v3_apply,
    val_main_v0_apply, val_main_v2_apply, val_main_v1_apply, val_main_cst_apply]
  simp only [Ideal.hostDivf_def, Ideal.hostUnary_sqrt_def, Ideal.ofBits_def]
  rw [div_sqrt64]
  have em : idx_main_v7 (idx_main_v8 i) = ix3 (0 : Fin 1) (i 2) (i 3) :=
    funext fun a => Fin.ext (by match a with | ⟨0, _⟩ => rfl | ⟨1, _⟩ => rfl | ⟨2, _⟩ => rfl)
  have el : ∀ d : Fin 64, lidx_main_v0 i d = ix4 (i 0) (i 1) (i 2) d := fun d =>
    funext fun a => Fin.ext (by match a with | ⟨0, _⟩ => rfl | ⟨1, _⟩ => rfl | ⟨2, _⟩ => rfl | ⟨3, _⟩ => rfl)
  have er : ∀ d : Fin 64, ridx_main_v0 i d = ix4 (i 0) (i 1) (i 3) d := fun d =>
    funext fun a => Fin.ext (by match a with | ⟨0, _⟩ => rfl | ⟨1, _⟩ => rfl | ⟨2, _⟩ => rfl | ⟨3, _⟩ => rfl)
  simp only [em, el, er]
  rfl

/-- A reduced index with the batch coordinate put back. -/
theorem lift_eq (h : S2x4x4096x4096.Reduces [0] S4x4096x4096) (j : S4x4096x4096.Idx) (c : Fin 2) :
    h.lift j c = (ix4 c (j 0 : Fin 4) (j 1 : Fin 4096) (j 2 : Fin 4096) : S2x4x4096x4096.Idx) := by
  funext a; apply Fin.ext
  fin_cases a <;> rfl

/-- The maximum over the batch axis, from −∞, is the larger of the two scores. -/
theorem v10_apply (q k : AttnSpec.SQ.Idx → EReal) (mask : AttnSpec.SM.Idx → BitVec 32) (j : S4x4096x4096.Idx) :
    val_main_v10 (F := Ideal) q k mask j
      = max (AttnSpec.z q k mask 0 (j 0) (j 1) (j 2)) (AttnSpec.z q k mask 1 (j 0) (j 1) (j 2)) := by
  have h : S2x4x4096x4096.Reduces [0] S4x4096x4096 := by decide
  unfold val_main_v10
  rw [Host.reduce_eq_fold_single FloatOps.maximumf _ _ reducesTo_S2x4x4096x4096_S4x4096x4096_d0 h h_S_ j,
    val_main_cst_1_apply]
  refine Eq.trans ?_ ((fold_max_two (fun c : Fin 2 => val_main_v9 (F := Ideal) q k mask (h.lift j c))).trans ?_)
  · show Finset.fold max (Ideal.ofBits .f32 0xFF800000#32) _ _ = _
    rw [negInf_eq]
    rfl
  · show max (val_main_v9 (F := Ideal) q k mask (h.lift j (0 : Fin 2)))
      (val_main_v9 (F := Ideal) q k mask (h.lift j (1 : Fin 2))) = _
    rw [lift_eq, lift_eq, v9_apply, v9_apply]

/-- The exponential of a score's distance from the batch maximum. -/
theorem v16_apply (q k : AttnSpec.SQ.Idx → EReal) (mask : AttnSpec.SM.Idx → BitVec 32) (i : S2x4x4096x4096.Idx) :
    val_main_v16 (F := Ideal) q k mask i
      = Ideal.exp (AttnSpec.z q k mask (i 0) (i 1) (i 2) (i 3)
          - max ⊥ (max (AttnSpec.z q k mask 0 (i 1) (i 2) (i 3)) (AttnSpec.z q k mask 1 (i 1) (i 2) (i 3)))) := by
  rw [val_main_v16_apply, val_main_v15_apply, val_main_v14_apply, val_main_v13_apply, val_main_v12_apply,
    val_main_v11_apply, val_main_cst_2_apply, v10_apply, v9_apply]
  simp only [Ideal.hostUnary_exp_def, Ideal.subf_def, Ideal.maximumf_def, Ideal.ofBits_def, negInf_eq]
  rfl

/-- The reference's probabilities are the specification's two-way softmax. -/
theorem attn_eq (q k : AttnSpec.SQ.Idx → EReal) (mask : AttnSpec.SM.Idx → BitVec 32)
    (hq : ∀ i, ∃ r : ℝ, q i = (r : EReal)) (hk : ∀ i, ∃ r : ℝ, k i = (r : EReal)) :
    val_main_v20 (F := Ideal) q k mask = AttnSpec.attnG q k mask := by
  funext i
  rw [val_main_v20_apply, val_main_v19_apply, val_main_v18_apply, val_main_v17_apply, val_main_cst_3_apply,
    Fin.sum_univ_two]
  simp only [v16_apply, Ideal.hostDivf_def, Ideal.ofBits_def, Ideal.ofBits_zero_f32]
  obtain ⟨x0, h0⟩ := z_real q k mask hq hk 0 (i 1) (i 2) (i 3)
  obtain ⟨x1, h1⟩ := z_real q k mask hq hk 1 (i 1) (i 2) (i 3)
  show Ideal.div (Ideal.exp (AttnSpec.z q k mask (i 0) (i 1) (i 2) (i 3)
        - max ⊥ (max (AttnSpec.z q k mask 0 (i 1) (i 2) (i 3)) (AttnSpec.z q k mask 1 (i 1) (i 2) (i 3)))))
      (0 + (Ideal.exp (AttnSpec.z q k mask 0 (i 1) (i 2) (i 3)
          - max ⊥ (max (AttnSpec.z q k mask 0 (i 1) (i 2) (i 3)) (AttnSpec.z q k mask 1 (i 1) (i 2) (i 3))))
        + Ideal.exp (AttnSpec.z q k mask 1 (i 1) (i 2) (i 3)
          - max ⊥ (max (AttnSpec.z q k mask 0 (i 1) (i 2) (i 3)) (AttnSpec.z q k mask 1 (i 1) (i 2) (i 3))))))
    = AttnSpec.attn q k mask (i 0) (i 1) (i 2) (i 3)
  unfold AttnSpec.attn AttnSpec.p0
  by_cases hb : (i 0).val = 0
  · have e : i 0 = (0 : Fin 2) := Fin.ext hb
    rw [if_pos hb, e, h0, h1, softmax2_fst]
  · have e : i 0 = (1 : Fin 2) := Fin.ext (by have hlt : (i 0).val < 2 := (i 0).isLt; show (i 0).val = 1; omega)
    have one_eq : AttnSpec.one = 1 := Ideal.ofBits_one_f32
    rw [if_neg hb, e, h0, h1, softmax2_snd, one_eq]

/-- The reference's output is the probability-weighted sum of value rows. -/
theorem out_eq (q k v : AttnSpec.SQ.Idx → EReal) (mask : AttnSpec.SM.Idx → BitVec 32)
    (hq : ∀ i, ∃ r : ℝ, q i = (r : EReal)) (hk : ∀ i, ∃ r : ℝ, k i = (r : EReal)) :
    val_main_v21 (F := Ideal) q k v mask = AttnSpec.outG q k v mask := by
  funext i
  rw [val_main_v21_apply, attn_eq q k mask hq hk]
  unfold AttnSpec.outG AttnSpec.attnG
  refine Finset.sum_congr rfl fun t _ => ?_
  have er : ridx_main_v21 i t = ix4 (i 0) (i 1) t (i 3) :=
    funext fun a => Fin.ext (by match a with | ⟨0, _⟩ => rfl | ⟨1, _⟩ => rfl | ⟨2, _⟩ => rfl | ⟨3, _⟩ => rfl)
  rw [er]
  rfl

end Cert.RefAttn

end
-- ==== Proof.FiniteInputs.lean ====
import proofs.«177084_j29996051595373_1_alg».proof.Defs
import proofs.«177084_j29996051595373_1_alg».proof.Proof.Gen.Pre_finite_inputs
import Idealize.ShloMosaic.Lib.ReduceAll
import Idealize.ShloMosaic.Lib.ValueIdx

/-!
# From the precondition to real-valued inputs

The precondition of the claim is the conjunction of three tests `all (|x| < +∞)`, one for each of
the three float arguments. At the ideal instance a float is an extended real and `|x|` is
`max x (-x)`; an extended real whose absolute value is strictly below `⊤` is neither `⊤` nor
`⊥`, so it is (the image of) a real number. Hence every entry of the three float arguments is a
real number.
-/

noncomputable section

namespace Cert.FiniteInputs

open Idealize.ShloMosaic Idealize.SL.Sem

/-- An extended real `x` whose absolute value `max x (-x)` compares strictly below the value of
the f32 pattern `0x7F800000` (which is `⊤`) is a real number: `x = ⊤` and `x = ⊥` both give
`max x (-x) = ⊤`, which is not below `⊤`. -/
theorem real_of_abs_lt_inf (x : EReal)
    (h : Ideal.cmp .olt (max x (-x)) (Ideal.ofBits .f32 0x7F800000#32) = 1#1) :
    ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

/-- The rank-0 shape has exactly one index. -/
instance : Subsingleton Cert.Pre_finite_inputs.S_.Idx := ⟨fun a b => funext fun d => d.elim0⟩

/-- Under the precondition, on every device, every entry of each of the three float arguments
is a real number. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have e := congrFun (h c) ValueIdx.ix0
  dsimp only [Cert.Pre_finite_inputs.fn] at e
  change IntOp.andi (IntOp.andi _ _) _ = 1#1 at e
  rw [IntOp.andi_eq_one, IntOp.andi_eq_one] at e
  obtain ⟨⟨e0, e1⟩, e2⟩ := e
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i)⟩

end Cert.FiniteInputs

end
-- ==== Proof.BlockSpec.lean ====
/-
  One grid point's share of the attention, as functions of the blocks the point sees.

  A point holds 512 query rows (block x0 of q), 256 key rows (block x1 of k, block x2 of v) and the 512 × 256 tile x3 of the
  mask. Within the point, for batch entry b, head h, query row s, key row t, feature d:
    zb b h s t = −10⁹ where x3[0,s,t] ≠ 0, else (∑ d, x0[b,h,s,d] · x1[b,h,t,d]) · 1/8
    pb h s t   = logistic (zb 0 h s t − zb 1 h s t)
    ab 0 h s t = pb h s t,   ab 1 h s t = 1 − pb h s t                    (the tile of probabilities)
    mb b h s d = ∑ t, ab b h s t · x2[b,h,t,d]                            (the tile's share of the output sum)
-/
import proofs.«177084_j29996051595373_1_alg».proof.KernelIdeal
import proofs.«177084_j29996051595373_1_alg».proof.Proof.AttnSpec

noncomputable section

namespace Cert.KernelIdeal.BlockSpec

open Idealize.ShloMosaic Idealize.ShloMosaic.ValueIdx Cert.KernelIdeal Cert.AttnSpec

variable (x0 : S2x4x512x64.Idx → EReal) (x1 x2 : S2x4x256x64.Idx → EReal) (x3 : S1x512x256.Idx → BitVec 32)

/-- The scaled, masked score inside a point. -/
def zb (b : Fin 2) (h : Fin 4) (s : Fin 512) (t : Fin 256) : EReal :=
  Scalar.select (IntOp.cmpi .ne (x3 (ix3 (0 : Fin 1) s t)) 0#32) negBig
    ((∑ d : Fin 64, x0 (ix4 b h s d) * x1 (ix4 b h t d)) * eighth)

/-- The probability of batch entry 0 inside a point. -/
def pb (h : Fin 4) (s : Fin 512) (t : Fin 256) : EReal :=
  Ideal.logistic (zb x0 x1 x3 0 h s t - zb x0 x1 x3 1 h s t)

/-- The tile of probabilities a point computes. -/
def ab (b : Fin 2) (h : Fin 4) (s : Fin 512) (t : Fin 256) : EReal :=
  if b.val = 0 then pb x0 x1 x3 h s t else one - pb x0 x1 x3 h s t

/-- The point's share of the output: its probabilities against its 256 value rows. -/
def mb (b : Fin 2) (h : Fin 4) (s : Fin 512) (d : Fin 64) : EReal :=
  ∑ t : Fin 256, ab x0 x1 x3 b h s t * x2 (ix4 b h t d)

/-- The tile of probabilities as one block. -/
def attnBlk : S2x4x512x256.Idx → EReal := fun y => ab x0 x1 x3 (y 0) (y 1) (y 2) (y 3)

/-- The share of the output as one block. -/
def outBlk : S2x4x512x64.Idx → EReal := fun y => mb x0 x1 x2 x3 (y 0) (y 1) (y 2) (y 3)

end Cert.KernelIdeal.BlockSpec

end
-- ==== Proof.TilePlaces.lean ====
/-
  Where a store of one (batch entry, head) tile sits inside a point's block: the store's own index x, of shape
  [1, 1, 512, n], names the block's index (b, h, x 2, x 3).
-/
import proofs.«177084_j29996051595373_1_alg».proof.Proof.BlockSpec
import Idealize.ShloMosaic.Lib.Pipeline.Value

noncomputable section

namespace Cert.KernelIdeal.TilePlaces

open Idealize.ShloMosaic Cert.KernelIdeal Cert.KernelIdeal.BlockSpec

theorem hz4 : (![0, 0, 0, 0] : Fin 4 → Nat) = fun _ => 0 := funext fun a => by fin_cases a <;> rfl
theorem hz3 : (![0, 0, 0] : Fin 3 → Nat) = fun _ => 0 := funext fun a => by fin_cases a <;> rfl

variable (x0 : S2x4x512x64.Idx → EReal) (x1 x2 : S2x4x256x64.Idx → EReal) (x3 : S1x512x256.Idx → BitVec 32)

/-- The tile of probabilities at the place a store of batch entry b and head h names: the store's own index x sits at
    (b, h, x 2, x 3) of the block. -/
theorem attnBlk_at (b h : Nat) (hb : b < 2) (hh : h < 4)
    (inb : ∀ a, (![b, h, 0, 0] : Fin 4 → Nat) a + (![1, 1, 512, 256] : Fin 4 → Nat) a ≤ S2x4x512x256.size a) (x : (⟨4, ![1, 1, 512, 256]⟩ : Shape).Idx) :
    attnBlk x0 x1 x3 ((Rect.unit (s := S2x4x512x256) ![b, h, 0, 0] ![1, 1, 512, 256] inb).emb x) = ab x0 x1 x3 ⟨b, hb⟩ ⟨h, hh⟩ (x 2) (x 3) := by
  have h0 : (x 0).val < 1 := (x 0).isLt
  have h1 : (x 1).val < 1 := (x 1).isLt
  have e0 : (Rect.unit (s := S2x4x512x256) ![b, h, 0, 0] ![1, 1, 512, 256] inb).emb x 0 = (⟨b, hb⟩ : Fin 2) :=
    Fin.ext (by show b + 1 * (x 0).val = b; omega)
  have e1 : (Rect.unit (s := S2x4x512x256) ![b, h, 0, 0] ![1, 1, 512, 256] inb).emb x 1 = (⟨h, hh⟩ : Fin 4) :=
    Fin.ext (by show h + 1 * (x 1).val = h; omega)
  have e2 : (Rect.unit (s := S2x4x512x256) ![b, h, 0, 0] ![1, 1, 512, 256] inb).emb x 2 = x 2 :=
    Fin.ext (by show 0 + 1 * (x 2).val = (x 2).val; omega)
  have e3 : (Rect.unit (s := S2x4x512x256) ![b, h, 0, 0] ![1, 1, 512, 256] inb).emb x 3 = x 3 :=
    Fin.ext (by show 0 + 1 * (x 3).val = (x 3).val; omega)
  unfold attnBlk
  rw [e0, e1, e2, e3]

/-- The share of the output at the place a store of batch entry b and head h names: the store's own index x sits at
    (b, h, x 2, x 3) of the block. -/
theorem outBlk_at (b h : Nat) (hb : b < 2) (hh : h < 4)
    (inb : ∀ a, (![b, h, 0, 0] : Fin 4 → Nat) a + (![1, 1, 512, 64] : Fin 4 → Nat) a ≤ S2x4x512x64.size a) (x : (⟨4, ![1, 1, 512, 64]⟩ : Shape).Idx) :
    outBlk x0 x1 x2 x3 ((Rect.unit (s := S2x4x512x64) ![b, h, 0, 0] ![1, 1, 512, 64] inb).emb x) = mb x0 x1 x2 x3 ⟨b, hb⟩ ⟨h, hh⟩ (x 2) (x 3) := by
  have h0 : (x 0).val < 1 := (x 0).isLt
  have h1 : (x 1).val < 1 := (x 1).isLt
  have e0 : (Rect.unit (s := S2x4x512x64) ![b, h, 0, 0] ![1, 1, 512, 64] inb).emb x 0 = (⟨b, hb⟩ : Fin 2) :=
    Fin.ext (by show b + 1 * (x 0).val = b; omega)
  have e1 : (Rect.unit (s := S2x4x512x64) ![b, h, 0, 0] ![1, 1, 512, 64] inb).emb x 1 = (⟨h, hh⟩ : Fin 4) :=
    Fin.ext (by show h + 1 * (x 1).val = h; omega)
  have e2 : (Rect.unit (s := S2x4x512x64) ![b, h, 0, 0] ![1, 1, 512, 64] inb).emb x 2 = x 2 :=
    Fin.ext (by show 0 + 1 * (x 2).val = (x 2).val; omega)
  have e3 : (Rect.unit (s := S2x4x512x64) ![b, h, 0, 0] ![1, 1, 512, 64] inb).emb x 3 = x 3 :=
    Fin.ext (by show 0 + 1 * (x 3).val = (x 3).val; omega)
  unfold outBlk
  rw [e0, e1, e2, e3]

end Cert.KernelIdeal.TilePlaces

end
-- ==== Proof.HeadOps.lean ====
/-
  The kernel's layout operations and its two matrix products, read at an index.

  Each head of the kernel's block is cut out of a [2, 4, rows, 64] array by a slice along the head axis
  followed by a cast that drops the unit axis; each batch entry of a [2, rows, cols] array by a slice along
  the batch axis followed by the same kind of cast; a [rows, cols] result is stored through a cast that adds
  two unit axes. All of them read ONE element of their operand, named here by its coordinates. The two
  matrix products, into a zero accumulator, are the sums of the operands' products over the 64 features and
  over the 256 key rows.
-/
import proofs.«177084_j29996051595373_1_alg».proof.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HeadOps

open Idealize.ShloMosaic Idealize.ShloMosaic.ValueIdx Cert.KernelIdeal
open Facts₀ Facts

variable [Cert.KernelIdeal.Facts]
variable {α : Type}

/-! ## One head of a block -/

/-- Head h of a [2, 4, 512, 64] array, its unit axis dropped: (b, s, d) reads (b, h, s, d). -/
theorem head_rows_q (X : S2x4x512x64.Idx → α) (h : Fin 4) (off : Fin 4 → Nat) (hoff : off = ![0, h.val, 0, 0])
    (hs : S2x4x512x64.Slices off S2x1x512x64) (b : Fin 2) (s : Fin 512) (d : Fin 64) :
    shapeCast S2x512x64 (extractStridedSlice S2x1x512x64 off X hs) shapeCasts_S2x1x512x64_S2x512x64 (ix3 b s d)
      = X (ix4 b h s d) := by
  subst hoff
  refine (shapeCast_apply _ _ (ix3 b s d) (ix4 b (0 : Fin 1) s d) ?_).trans ?_
  · rw [Shape.rowMajor_val_four, Shape.rowMajor_val_three]
    show ((b.val * 1 + 0) * 512 + s.val) * 64 + d.val = (b.val * 512 + s.val) * 64 + d.val
    omega
  · refine extractStridedSlice_apply _ X hs _ (ix4 b h s d) fun a => ?_
    match a with
    | ⟨0, _⟩ => show b.val = 0 + b.val; omega
    | ⟨1, _⟩ => show h.val = h.val + 0; omega
    | ⟨2, _⟩ => show s.val = 0 + s.val; omega
    | ⟨3, _⟩ => show d.val = 0 + d.val; omega

/-- Head h of a [2, 4, 256, 64] array, the slice alone: y reads (y₀, h, y₂, y₃). -/
theorem head_rows_kv_slice (X : S2x4x256x64.Idx → α) (h : Fin 4) (off : Fin 4 → Nat) (hoff : off = ![0, h.val, 0, 0])
    (hs : S2x4x256x64.Slices off S2x1x256x64) (y : S2x1x256x64.Idx) :
    extractStridedSlice S2x1x256x64 off X hs y = X (ix4 (y 0) h (y 2) (y 3)) := by
  subst hoff
  refine extractStridedSlice_apply _ X hs y (ix4 (y 0) h (y 2) (y 3)) fun a => ?_
  have h1 : (y 1).val < 1 := (y 1).isLt
  match a with
  | ⟨0, _⟩ => show (y 0).val = 0 + (y 0).val; omega
  | ⟨1, _⟩ => show h.val = h.val + (y 1).val; omega
  | ⟨2, _⟩ => show (y 2).val = 0 + (y 2).val; omega
  | ⟨3, _⟩ => show (y 3).val = 0 + (y 3).val; omega

/-- Head h of a [2, 4, 256, 64] array, its unit axis dropped: (b, u, d) reads (b, h, u, d). -/
theorem head_rows_kv (X : S2x4x256x64.Idx → α) (h : Fin 4) (off : Fin 4 → Nat) (hoff : off = ![0, h.val, 0, 0])
    (hs : S2x4x256x64.Slices off S2x1x256x64) (b : Fin 2) (u : Fin 256) (d : Fin 64) :
    shapeCast S2x256x64 (extractStridedSlice S2x1x256x64 off X hs) shapeCasts_S2x1x256x64_S2x256x64 (ix3 b u d)
      = X (ix4 b h u d) := by
  refine (shapeCast_apply _ _ (ix3 b u d) (ix4 b (0 : Fin 1) u d) ?_).trans ?_
  · rw [Shape.rowMajor_val_four, Shape.rowMajor_val_three]
    show ((b.val * 1 + 0) * 256 + u.val) * 64 + d.val = (b.val * 256 + u.val) * 64 + d.val
    omega
  · exact head_rows_kv_slice X h off hoff hs _

end Cert.KernelIdeal.HeadOps

end
-- ==== Proof.HeadLayout.lean ====
import proofs.«177084_j29996051595373_1_alg».proof.KernelIdeal
import Idealize.ShloMosaic.Lib.Pipeline.Value
import Idealize.ShloMosaic.Lib.ValueIdx
import Idealize.ShloMosaic.Lib.ValueLayout

/-!
# Head and batch selections read at an index

The kernel selects one head of a `[2, 4, n, 64]` block by a unit-width slice along axis 1 followed
by a cast that drops that axis (the cast alone is read here), selects one batch entry of a `[2, n, m]` array by a unit-width
slice along axis 0 followed by a cast that drops it, and moves `[n, m]` tiles to and from
`[1, 1, n, m]`. Each lemma below reads one such composite at an index given by coordinates and
names the operand's index it reads: a unit axis contributes coordinate `0` and nothing to the
row-major position, and a slice adds its offset on the cut axis.
-/

namespace Cert.KernelIdeal.HeadOps

open Idealize.ShloMosaic Idealize.ShloMosaic.ValueIdx Cert.KernelIdeal

variable [Cert.KernelIdeal.Facts]
open Facts₀ Facts

variable {α : Type}

/-- A `[2, 1, 256, 64]` array with its unit axis dropped: entry `(b, u, d)` is the operand's entry
`(b, 0, u, d)`. -/
theorem head_rows_kv_cast (Y : S2x1x256x64.Idx → α) (b : Fin 2) (u : Fin 256) (d : Fin 64) :
    shapeCast S2x256x64 Y shapeCasts_S2x1x256x64_S2x256x64 (ix3 b u d) = Y (ix4 b (0 : Fin 1) u d) := by
  refine shapeCast_apply _ _ (ix3 b u d) (ix4 b (0 : Fin 1) u d) ?_
  rw [Shape.rowMajor_val_four, Shape.rowMajor_val_three]
  show ((b.val * 1 + 0) * 256 + u.val) * 64 + d.val = (b.val * 256 + u.val) * 64 + d.val
  omega

/-- Batch entry `b` of a `[2, 512, 256]` array, as a `[512, 256]` tile: entry `(s, t)` is the
array's entry `(b, s, t)`. -/
theorem batch_plane (Y : S2x512x256.Idx → α) (b : Fin 2) (off : Fin 3 → Nat) (hoff : off = ![b.val, 0, 0])
    (hs : S2x512x256.Slices off S1x512x256) (s : Fin 512) (t : Fin 256) :
    shapeCast S512x256 (extractStridedSlice S1x512x256 off Y hs) shapeCasts_S1x512x256_S512x256 (ix2 s t)
      = Y (ix3 b s t) := by
  subst hoff
  refine (shapeCast_1ab_ab_apply _ _ s t).trans ?_
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

/-- Batch entry `b` of a `[2, 256, 64]` array, as a `[256, 64]` tile: entry `(u, d)` is the
array's entry `(b, u, d)`. -/
theorem batch_rows (W : S2x256x64.Idx → α) (b : Fin 2) (off : Fin 3 → Nat) (hoff : off = ![b.val, 0, 0])
    (hs : S2x256x64.Slices off S1x256x64) (u : Fin 256) (d : Fin 64) :
    shapeCast S256x64 (extractStridedSlice S1x256x64 off W hs) shapeCasts_S1x256x64_S256x64 (ix2 u d)
      = W (ix3 b u d) := by
  subst hoff
  refine (shapeCast_1ab_ab_apply _ _ u d).trans ?_
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

/-- A `[1, 512, 256]` array with its unit axis dropped: entry `(s, t)` is the operand's entry
`(0, s, t)`. -/
theorem mask_plane (M : S1x512x256.Idx → α) (s : Fin 512) (t : Fin 256) :
    shapeCast S512x256 M shapeCasts_S1x512x256_S512x256 (ix2 s t) = M (ix3 (0 : Fin 1) s t) :=
  shapeCast_1ab_ab_apply M _ s t

/-- A `[512, 256]` tile given two leading unit axes: the entry at `x` is the tile's entry at
`x`'s last two coordinates. -/
theorem lift_probs (P : S512x256.Idx → α) (x : S1x1x512x256.Idx) :
    shapeCast S1x1x512x256 P shapeCasts_S512x256_S1x1x512x256 x = P (ix2 (x 2) (x 3)) := by
  refine shapeCast_apply _ _ x (ix2 (x 2) (x 3)) ?_
  have h0 : (x 0).val < 1 := (x 0).isLt
  have h1 : (x 1).val < 1 := (x 1).isLt
  rw [Shape.rowMajor_val_four, Shape.rowMajor_val_two]
  show (x 2).val * 256 + (x 3).val = (((x 0).val * 1 + (x 1).val) * 512 + (x 2).val) * 256 + (x 3).val
  omega

/-- A `[512, 64]` tile given two leading unit axes: the entry at `x` is the tile's entry at
`x`'s last two coordinates. -/
theorem lift_acc (A : S512x64.Idx → α) (x : S1x1x512x64.Idx) :
    shapeCast S1x1x512x64 A shapeCasts_S512x64_S1x1x512x64 x = A (ix2 (x 2) (x 3)) := by
  refine shapeCast_apply _ _ x (ix2 (x 2) (x 3)) ?_
  have h0 : (x 0).val < 1 := (x 0).isLt
  have h1 : (x 1).val < 1 := (x 1).isLt
  rw [Shape.rowMajor_val_four, Shape.rowMajor_val_two]
  show (x 2).val * 64 + (x 3).val = (((x 0).val * 1 + (x 1).val) * 512 + (x 2).val) * 64 + (x 3).val
  omega

/-- A `[1, 1, 512, 64]` array with its two unit axes dropped: entry `(s, d)` is the operand's
entry `(0, 0, s, d)`. -/
theorem drop_acc (A : S1x1x512x64.Idx → α) (s : Fin 512) (d : Fin 64) :
    shapeCast S512x64 A shapeCasts_S1x1x512x64_S512x64 (ix2 s d) = A (ix4 (0 : Fin 1) (0 : Fin 1) s d) := by
  refine shapeCast_apply _ _ (ix2 s d) (ix4 (0 : Fin 1) (0 : Fin 1) s d) ?_
  rw [Shape.rowMajor_val_four, Shape.rowMajor_val_two]
  show ((0 * 1 + 0) * 512 + s.val) * 64 + d.val = s.val * 64 + d.val
  omega

end Cert.KernelIdeal.HeadOps
-- ==== Proof.HeadDots.lean ====
/-
  The kernel's two matrix products, read at an index.

  Into a zero accumulator a product is the sum of its operands' products over the contracted axis:
  the batched score product contracts the 64 features of a query row and a key row of the same batch
  entry, the plain product contracts the 256 key rows of a probability row and a value column.
-/
import proofs.«177084_j29996051595373_1_alg».proof.KernelIdeal
import Idealize.ShloMosaic.Lib.ValueIdx
import Idealize.ShloMosaic.PureOps.Ideal.Laws

noncomputable section

namespace Cert.KernelIdeal.HeadOps

open Idealize.ShloMosaic Idealize.ShloMosaic.ValueIdx Cert.KernelIdeal
open Facts₀ Facts

variable [Cert.KernelIdeal.Facts]

/-! ## The score product: batch axis 0, rows on axis 1, the 64 features contracted -/

/-- The left operand's batch coordinate is the result's. -/
theorem score_lhs_0 (i : S2x512x256.Idx) (q : dot_S2x512x64_S2x256x64_S2x512x256_2_2_1_1_0_0.contr.Idx) : (dot_S2x512x64_S2x256x64_S2x512x256_2_2_1_1_0_0.lhsIdx i q 0).val = (i 0).val := by
  unfold DotDims.lhsIdx
  rw [dif_pos (show (0 : Fin S2x512x64.rank) ∈ dot_S2x512x64_S2x256x64_S2x512x256_2_2_1_1_0_0.lhsBatch from List.mem_singleton.mpr rfl)]
  rfl
/-- The left operand's row is the result's row. -/
theorem score_lhs_1 (i : S2x512x256.Idx) (q : dot_S2x512x64_S2x256x64_S2x512x256_2_2_1_1_0_0.contr.Idx) : (dot_S2x512x64_S2x256x64_S2x512x256_2_2_1_1_0_0.lhsIdx i q 1).val = (i 1).val := by
  unfold DotDims.lhsIdx
  rw [dif_neg (show ¬(1 : Fin S2x512x64.rank) ∈ dot_S2x512x64_S2x256x64_S2x512x256_2_2_1_1_0_0.lhsBatch from fun hm => absurd (List.mem_singleton.mp hm) (by decide)),
    dif_pos (show (1 : Fin S2x512x64.rank) ∈ dot_S2x512x64_S2x256x64_S2x512x256_2_2_1_1_0_0.lhsNonContracting from List.mem_singleton.mpr rfl)]
  rfl
/-- The left operand's feature is the contraction position. -/
theorem score_lhs_2 (i : S2x512x256.Idx) (q : dot_S2x512x64_S2x256x64_S2x512x256_2_2_1_1_0_0.contr.Idx) : (dot_S2x512x64_S2x256x64_S2x512x256_2_2_1_1_0_0.lhsIdx i q 2).val = (q ⟨0, Nat.one_pos⟩).val :=
  dot_S2x512x64_S2x256x64_S2x512x256_2_2_1_1_0_0.lhsIdx_val_of_single rfl i q
/-- The right operand's batch coordinate is the result's. -/
theorem score_rhs_0 (i : S2x512x256.Idx) (q : dot_S2x512x64_S2x256x64_S2x512x256_2_2_1_1_0_0.contr.Idx) : (dot_S2x512x64_S2x256x64_S2x512x256_2_2_1_1_0_0.rhsIdx i q 0).val = (i 0).val := by
  unfold DotDims.rhsIdx
  rw [dif_pos (show (0 : Fin S2x256x64.rank) ∈ dot_S2x512x64_S2x256x64_S2x512x256_2_2_1_1_0_0.rhsBatch from List.mem_singleton.mpr rfl)]
  rfl
/-- The right operand's row is the result's column. -/
theorem score_rhs_1 (i : S2x512x256.Idx) (q : dot_S2x512x64_S2x256x64_S2x512x256_2_2_1_1_0_0.contr.Idx) : (dot_S2x512x64_S2x256x64_S2x512x256_2_2_1_1_0_0.rhsIdx i q 1).val = (i 2).val := by
  unfold DotDims.rhsIdx
  rw [dif_neg (show ¬(1 : Fin S2x256x64.rank) ∈ dot_S2x512x64_S2x256x64_S2x512x256_2_2_1_1_0_0.rhsBatch from fun hm => absurd (List.mem_singleton.mp hm) (by decide)),
    dif_pos (show (1 : Fin S2x256x64.rank) ∈ dot_S2x512x64_S2x256x64_S2x512x256_2_2_1_1_0_0.rhsNonContracting from List.mem_singleton.mpr rfl)]
  rfl
/-- The right operand's feature is the contraction position. -/
theorem score_rhs_2 (i : S2x512x256.Idx) (q : dot_S2x512x64_S2x256x64_S2x512x256_2_2_1_1_0_0.contr.Idx) : (dot_S2x512x64_S2x256x64_S2x512x256_2_2_1_1_0_0.rhsIdx i q 2).val = (q ⟨0, Nat.one_pos⟩).val :=
  dot_S2x512x64_S2x256x64_S2x512x256_2_2_1_1_0_0.rhsIdx_val_of_single rfl i q

/-- The score of query row s against key row t in batch entry b: the inner product over the 64 features. -/
theorem score_dot (Q : FVec Ideal S2x512x64 .bf16) (K : FVec Ideal S2x256x64 .bf16) (b : Fin 2) (s : Fin 512) (t : Fin 256) :
    matmul (F := Ideal) dot_S2x512x64_S2x256x64_S2x512x256_2_2_1_1_0_0 none Q K (constant (F := Ideal) S2x512x256 .f32 0x00000000#32) (ix3 b s t)
      = ∑ d : Fin 64, Q (ix3 b s d) * K (ix3 b t d) := by
  show FloatOps.matmul dot_S2x512x64_S2x256x64_S2x512x256_2_2_1_1_0_0 none Q K (constant (F := Ideal) S2x512x256 .f32 0x00000000#32) (ix3 b s t) = _
  rw [Ideal.matmul_constant_zero_apply, ← Equiv.sum_comp (contrEquiv1 dot_S2x512x64_S2x256x64_S2x512x256_2_2_1_1_0_0 64 rfl rfl).symm]
  refine Finset.sum_congr rfl fun d _ => ?_
  have hd := contrEquiv1_symm_val dot_S2x512x64_S2x256x64_S2x512x256_2_2_1_1_0_0 64 rfl rfl d
  have el : dot_S2x512x64_S2x256x64_S2x512x256_2_2_1_1_0_0.lhsIdx (ix3 b s t) ((contrEquiv1 dot_S2x512x64_S2x256x64_S2x512x256_2_2_1_1_0_0 64 rfl rfl).symm d) = ix3 b s d := funext fun a => Fin.ext (by
    match a with
    | ⟨0, _⟩ => exact score_lhs_0 _ _
    | ⟨1, _⟩ => exact score_lhs_1 _ _
    | ⟨2, _⟩ => exact (score_lhs_2 _ _).trans hd)
  have er : dot_S2x512x64_S2x256x64_S2x512x256_2_2_1_1_0_0.rhsIdx (ix3 b s t) ((contrEquiv1 dot_S2x512x64_S2x256x64_S2x512x256_2_2_1_1_0_0 64 rfl rfl).symm d) = ix3 b t d := funext fun a => Fin.ext (by
    match a with
    | ⟨0, _⟩ => exact score_rhs_0 _ _
    | ⟨1, _⟩ => exact score_rhs_1 _ _
    | ⟨2, _⟩ => exact (score_rhs_2 _ _).trans hd)
  rw [el, er]

/-! ## The value product: rows by columns, the 256 key rows contracted -/

/-- The left operand's row is the result's row. -/
theorem probs_lhs_0 (i : S512x64.Idx) (q : dot_S512x256_S256x64_S512x64_1_0_0_1_n_n.contr.Idx) : (dot_S512x256_S256x64_S512x64_1_0_0_1_n_n.lhsIdx i q 0).val = (i 0).val := by
  unfold DotDims.lhsIdx
  rw [dif_neg (show ¬(0 : Fin S512x256.rank) ∈ dot_S512x256_S256x64_S512x64_1_0_0_1_n_n.lhsBatch from List.not_mem_nil),
    dif_pos (show (0 : Fin S512x256.rank) ∈ dot_S512x256_S256x64_S512x64_1_0_0_1_n_n.lhsNonContracting from List.mem_singleton.mpr rfl)]
  rfl
/-- The left operand's column is the contraction position. -/
theorem probs_lhs_1 (i : S512x64.Idx) (q : dot_S512x256_S256x64_S512x64_1_0_0_1_n_n.contr.Idx) : (dot_S512x256_S256x64_S512x64_1_0_0_1_n_n.lhsIdx i q 1).val = (q ⟨0, Nat.one_pos⟩).val :=
  dot_S512x256_S256x64_S512x64_1_0_0_1_n_n.lhsIdx_val_of_single rfl i q
/-- The right operand's row is the contraction position. -/
theorem probs_rhs_0 (i : S512x64.Idx) (q : dot_S512x256_S256x64_S512x64_1_0_0_1_n_n.contr.Idx) : (dot_S512x256_S256x64_S512x64_1_0_0_1_n_n.rhsIdx i q 0).val = (q ⟨0, Nat.one_pos⟩).val :=
  dot_S512x256_S256x64_S512x64_1_0_0_1_n_n.rhsIdx_val_of_single rfl i q
/-- The right operand's column is the result's column. -/
theorem probs_rhs_1 (i : S512x64.Idx) (q : dot_S512x256_S256x64_S512x64_1_0_0_1_n_n.contr.Idx) : (dot_S512x256_S256x64_S512x64_1_0_0_1_n_n.rhsIdx i q 1).val = (i 1).val := by
  unfold DotDims.rhsIdx
  rw [dif_neg (show ¬(1 : Fin S256x64.rank) ∈ dot_S512x256_S256x64_S512x64_1_0_0_1_n_n.rhsBatch from List.not_mem_nil),
    dif_pos (show (1 : Fin S256x64.rank) ∈ dot_S512x256_S256x64_S512x64_1_0_0_1_n_n.rhsNonContracting from List.mem_singleton.mpr rfl)]
  rfl

/-- Row s of the probabilities against column d of the values: the sum over the 256 key rows. -/
theorem probs_dot (P : FVec Ideal S512x256 .bf16) (V : FVec Ideal S256x64 .bf16) (s : Fin 512) (d : Fin 64) :
    matmul (F := Ideal) dot_S512x256_S256x64_S512x64_1_0_0_1_n_n none P V (constant (F := Ideal) S512x64 .f32 0x00000000#32) (ix2 s d)
      = ∑ u : Fin 256, P (ix2 s u) * V (ix2 u d) := by
  show FloatOps.matmul dot_S512x256_S256x64_S512x64_1_0_0_1_n_n none P V (constant (F := Ideal) S512x64 .f32 0x00000000#32) (ix2 s d) = _
  rw [Ideal.matmul_constant_zero_apply, ← Equiv.sum_comp (contrEquiv1 dot_S512x256_S256x64_S512x64_1_0_0_1_n_n 256 rfl rfl).symm]
  refine Finset.sum_congr rfl fun u _ => ?_
  have hu := contrEquiv1_symm_val dot_S512x256_S256x64_S512x64_1_0_0_1_n_n 256 rfl rfl u
  have el : dot_S512x256_S256x64_S512x64_1_0_0_1_n_n.lhsIdx (ix2 s d) ((contrEquiv1 dot_S512x256_S256x64_S512x64_1_0_0_1_n_n 256 rfl rfl).symm u) = ix2 s u := funext fun a => Fin.ext (by
    match a with
    | ⟨0, _⟩ => exact probs_lhs_0 _ _
    | ⟨1, _⟩ => exact (probs_lhs_1 _ _).trans hu)
  have er : dot_S512x256_S256x64_S512x64_1_0_0_1_n_n.rhsIdx (ix2 s d) ((contrEquiv1 dot_S512x256_S256x64_S512x64_1_0_0_1_n_n 256 rfl rfl).symm u) = ix2 u d := funext fun a => Fin.ext (by
    match a with
    | ⟨0, _⟩ => exact (probs_rhs_0 _ _).trans hu
    | ⟨1, _⟩ => exact probs_rhs_1 _ _)
  rw [el, er]

end Cert.KernelIdeal.HeadOps

end
-- ==== Proof.PayHead01.lean ====
/-
  The values the kernel stores for heads 0 and 1, read at an index.

  For a head h the kernel forms the scores of its 512 query rows against its 256 key rows for both batch
  entries at once, scales and masks them, and takes the logistic function of their difference: the probability
  of batch entry 0, whose complement to one is that of batch entry 1. Each probability tile is stored, and its
  product with the head's 256 value rows is added to the accumulator tile loaded from the output block.
  Here each stored value is identified with the block-level specification: the tile of probabilities is ab,
  the accumulator's increment is mb.
-/
import proofs.«177084_j29996051595373_1_alg».proof.Proof.Gen.KernelIdeal.Skeleton
import proofs.«177084_j29996051595373_1_alg».proof.Proof.BlockSpec
import proofs.«177084_j29996051595373_1_alg».proof.Proof.HeadOps
import proofs.«177084_j29996051595373_1_alg».proof.Proof.HeadLayout
import proofs.«177084_j29996051595373_1_alg».proof.Proof.HeadDots
import Idealize.ShloMosaic.Lib.ValueIdx
import Idealize.ShloMosaic.PureOps.Ideal

noncomputable section

namespace Cert.KernelIdeal.Payloads

open Idealize.ShloMosaic Idealize.ShloMosaic.ValueIdx Cert.KernelIdeal Cert.KernelIdeal.Gen Cert.KernelIdeal.BlockSpec
  Cert.KernelIdeal.HeadOps Cert.AttnSpec

/-! ## The pieces, over any operands -/

/-- The mask bit at (s, t): whether the mask word there is not zero. -/
theorem mask_bit (x3 : Vec Ideal S1x512x256 .i32) (s : Fin 512) (t : Fin 256) :
    k0_pay3 (F := Ideal) x3 (ix2 s t) = IntOp.cmpi .ne (x3 (ix3 (0 : Fin 1) s t)) 0#32 := by
  unfold k0_pay3
  exact congrArg (fun w => IntOp.cmpi .ne w 0#32) (mask_plane x3 s t)

/-- The scaled score of batch entry b at (s, t): the inner product over the features, times 1/8. -/
theorem scaled_score (Q : FVec Ideal S2x512x64 .bf16) (K : FVec Ideal S2x256x64 .bf16) (b : Fin 2) (s : Fin 512) (t : Fin 256) :
    mulf (matmul (F := Ideal) dot_S2x512x64_S2x256x64_S2x512x256_2_2_1_1_0_0 none Q K (constant (F := Ideal) S2x512x256 .f32 0x00000000#32))
        (broadcast S2x512x256 (Scalar.ofBits (F := Ideal) .f32 0x3E000000#32)) (ix3 b s t)
      = (∑ d : Fin 64, Q (ix3 b s d) * K (ix3 b t d)) * eighth :=
  congrArg (· * eighth) (score_dot Q K b s t)

/-- Batch entry b's plane of a [2, 512, 256] array, masked: the fill value where the bit is set. -/
theorem masked_plane (m : IVec S512x256 1) (Z : FVec Ideal S2x512x256 .f32) (b : Fin 2) (off : Fin 3 → Nat)
    (hoff : off = ![b.val, 0, 0]) (hs : S2x512x256.Slices off S1x512x256) (c : Ideal .f32) (s : Fin 512) (t : Fin 256) :
    select m (broadcast S512x256 c) (shapeCast S512x256 (extractStridedSlice S1x512x256 off Z hs) shapeCasts_S1x512x256_S512x256) (ix2 s t)
      = Scalar.select (m (ix2 s t)) c (Z (ix3 b s t)) :=
  congrArg (Scalar.select (m (ix2 s t)) c) (batch_plane Z b off hoff hs s t)

/-- The logistic payload at (s, t), over any mask bits, query rows and (uncast) key rows. -/
theorem logit_apply (m : IVec S512x256 1) (Q : FVec Ideal S2x512x64 .bf16) (K1 : FVec Ideal S2x1x256x64 .f32) (s : Fin 512) (t : Fin 256) :
    k0_pay14 (F := Ideal) m Q K1 (ix2 s t)
      = Ideal.logistic
          (Scalar.select (m (ix2 s t)) negBig ((∑ d : Fin 64, Q (ix3 (0 : Fin 2) s d) * K1 (ix4 (0 : Fin 2) (0 : Fin 1) t d)) * eighth)
            - Scalar.select (m (ix2 s t)) negBig ((∑ d : Fin 64, Q (ix3 (1 : Fin 2) s d) * K1 (ix4 (1 : Fin 2) (0 : Fin 1) t d)) * eighth)) := by
  have hA : ∀ (b : Fin 2) (off : Fin 3 → Nat) (hoff : off = ![b.val, 0, 0]) (hs : S2x512x256.Slices off S1x512x256),
      select m (broadcast S512x256 (Scalar.ofBits (F := Ideal) .f32 0xCE6E6B28#32))
          (shapeCast S512x256 (extractStridedSlice S1x512x256 off
            (mulf (matmul (F := Ideal) dot_S2x512x64_S2x256x64_S2x512x256_2_2_1_1_0_0 none Q
                (truncf .bf16 (shapeCast S2x256x64 K1 shapeCasts_S2x1x256x64_S2x256x64) bitsLt_bf16_f32)
                (constant (F := Ideal) S2x512x256 .f32 0x00000000#32))
              (broadcast S2x512x256 (Scalar.ofBits (F := Ideal) .f32 0x3E000000#32))) hs) shapeCasts_S1x512x256_S512x256) (ix2 s t)
        = Scalar.select (m (ix2 s t)) negBig ((∑ d : Fin 64, Q (ix3 b s d) * K1 (ix4 b (0 : Fin 1) t d)) * eighth) :=
    fun b off hoff hs =>
      (masked_plane m _ b off hoff hs _ s t).trans
        (congrArg (Scalar.select (m (ix2 s t)) negBig)
          ((scaled_score Q _ b s t).trans
            (congrArg (· * eighth)
              (Finset.sum_congr rfl fun d _ => congrArg (Q (ix3 b s d) * ·) (head_rows_kv_cast K1 b t d)))))
  unfold k0_pay14
  exact congrArg Ideal.logistic (congrArg₂ (· - ·) (hA 0 _ rfl _) (hA 1 _ rfl _))

/-- The complement payload: one minus the logistic payload. -/
theorem colog_apply (m : IVec S512x256 1) (Q : FVec Ideal S2x512x64 .bf16) (K1 : FVec Ideal S2x1x256x64 .f32) (i : S512x256.Idx) :
    k0_pay15 (F := Ideal) m Q K1 i = one - k0_pay14 (F := Ideal) m Q K1 i := rfl

/-- A probability row against batch entry b's value rows: the sum over the 256 key rows. -/
theorem weighted_rows (W : FVec Ideal S2x256x64 .bf16) (P : FVec Ideal S512x256 .f32) (b : Fin 2) (off : Fin 3 → Nat)
    (hoff : off = ![b.val, 0, 0]) (hs : S2x256x64.Slices off S1x256x64) (s : Fin 512) (d : Fin 64) :
    matmul (F := Ideal) dot_S512x256_S256x64_S512x64_1_0_0_1_n_n none (truncf .bf16 P bitsLt_bf16_f32)
        (shapeCast S256x64 (extractStridedSlice S1x256x64 off W hs) shapeCasts_S1x256x64_S256x64)
        (constant (F := Ideal) S512x64 .f32 0x00000000#32) (ix2 s d)
      = ∑ u : Fin 256, P (ix2 s u) * W (ix3 b u d) :=
  (probs_dot _ _ s d).trans
    (Finset.sum_congr rfl fun u _ => congrArg (P (ix2 s u) * ·) (batch_rows W b off hoff hs u d))

/-- An index of a tile with two leading unit axes is (0, 0, x₂, x₃). -/
theorem unit_idx (x : S1x1x512x64.Idx) : ix4 (0 : Fin 1) (0 : Fin 1) (x 2) (x 3) = x := by
  have h0 : (x 0).val < 1 := (x 0).isLt
  have h1 : (x 1).val < 1 := (x 1).isLt
  funext a
  match a with
  | ⟨0, _⟩ => exact Fin.ext (by show 0 = (x 0).val; omega)
  | ⟨1, _⟩ => exact Fin.ext (by show 0 = (x 1).val; omega)
  | ⟨2, _⟩ => rfl
  | ⟨3, _⟩ => rfl

/-- Adding a [512, 64] value to the loaded tile and storing it back: at x, the tile at x plus the value at (x₂, x₃). -/
theorem acc_store (A : FVec Ideal S512x64 .f32) (L : Vec Ideal S1x1x512x64 .f32) (x : S1x1x512x64.Idx) :
    shapeCast S1x1x512x64 (addf (shapeCast S512x64 L shapeCasts_S1x1x512x64_S512x64) A) shapeCasts_S512x64_S1x1x512x64 x
      = L x + A (ix2 (x 2) (x 3)) :=
  (lift_acc _ x).trans
    (congrArg (· + A (ix2 (x 2) (x 3))) ((drop_acc L (x 2) (x 3)).trans (congrArg L (unit_idx x))))

/-! ## The operands of heads 0 and 1 -/

section Head
variable (x0 : Vec Ideal S2x4x512x64 .f32) (x1 x2 : Vec Ideal S2x4x256x64 .f32) (x3 : Vec Ideal S1x512x256 .i32)

/-- Head 0's query rows, as the first payload forms them. -/
abbrev q0 : FVec Ideal S2x512x64 .bf16 :=
  truncf .bf16 (shapeCast S2x512x64 (extractStridedSlice S2x1x512x64 ![0, 0, 0, 0] x0 slices_S2x4x512x64_o0_0_0_0_S2x1x512x64)
    shapeCasts_S2x1x512x64_S2x512x64) bitsLt_bf16_f32
/-- Head 0's key rows, uncast. -/
abbrev k0 : FVec Ideal S2x1x256x64 .f32 :=
  extractStridedSlice S2x1x256x64 ![0, 0, 0, 0] x1 slices_S2x4x256x64_o0_0_0_0_S2x1x256x64

theorem q_rows0 (b : Fin 2) (s : Fin 512) (d : Fin 64) : q0 x0 (ix3 b s d) = x0 (ix4 b (0 : Fin 4) s d) :=
  head_rows_q x0 0 ![0, 0, 0, 0] rfl slices_S2x4x512x64_o0_0_0_0_S2x1x512x64 b s d
theorem k_rows0 (b : Fin 2) (t : Fin 256) (d : Fin 64) : k0 x1 (ix4 b (0 : Fin 1) t d) = x1 (ix4 b (0 : Fin 4) t d) :=
  head_rows_kv_slice x1 0 ![0, 0, 0, 0] rfl slices_S2x4x256x64_o0_0_0_0_S2x1x256x64 (ix4 b (0 : Fin 1) t d)
theorem v_rows0 (b : Fin 2) (u : Fin 256) (d : Fin 64) : k0_pay4 (F := Ideal) x2 (ix3 b u d) = x2 (ix4 b (0 : Fin 4) u d) := by
  unfold k0_pay4
  exact head_rows_kv x2 0 ![0, 0, 0, 0] rfl slices_S2x4x256x64_o0_0_0_0_S2x1x256x64 b u d
theorem q_rows1 (b : Fin 2) (s : Fin 512) (d : Fin 64) : k0_pay11 (F := Ideal) x0 (ix3 b s d) = x0 (ix4 b (1 : Fin 4) s d) := by
  unfold k0_pay11
  exact head_rows_q x0 1 ![0, 1, 0, 0] rfl slices_S2x4x512x64_o0_1_0_0_S2x1x512x64 b s d
theorem k_rows1 (b : Fin 2) (t : Fin 256) (d : Fin 64) : k0_pay12 (F := Ideal) x1 (ix4 b (0 : Fin 1) t d) = x1 (ix4 b (1 : Fin 4) t d) := by
  unfold k0_pay12
  exact head_rows_kv_slice x1 1 ![0, 1, 0, 0] rfl slices_S2x4x256x64_o0_1_0_0_S2x1x256x64 (ix4 b (0 : Fin 1) t d)
theorem v_rows1 (b : Fin 2) (u : Fin 256) (d : Fin 64) : k0_pay13 (F := Ideal) x2 (ix3 b u d) = x2 (ix4 b (1 : Fin 4) u d) := by
  unfold k0_pay13
  exact head_rows_kv x2 1 ![0, 1, 0, 0] rfl slices_S2x4x256x64_o0_1_0_0_S2x1x256x64 b u d

/-- Head 0's logistic payload is the general one at head 0's operands. -/
theorem pay5_eq : k0_pay5 (F := Ideal) x3 x0 x1 = k0_pay14 (F := Ideal) (k0_pay3 x3) (q0 x0) (k0 x1) := rfl

/-! ## The probabilities -/

/-- From operands that read head h's rows, the logistic payload is the probability of batch entry 0. -/
theorem pb_of (h : Fin 4) (m : IVec S512x256 1) (Q : FVec Ideal S2x512x64 .bf16) (K1 : FVec Ideal S2x1x256x64 .f32)
    (hm : ∀ (s : Fin 512) (t : Fin 256), m (ix2 s t) = IntOp.cmpi .ne (x3 (ix3 (0 : Fin 1) s t)) 0#32)
    (hQ : ∀ (b : Fin 2) (s : Fin 512) (d : Fin 64), Q (ix3 b s d) = x0 (ix4 b h s d))
    (hK : ∀ (b : Fin 2) (t : Fin 256) (d : Fin 64), K1 (ix4 b (0 : Fin 1) t d) = x1 (ix4 b h t d))
    (s : Fin 512) (t : Fin 256) :
    k0_pay14 (F := Ideal) m Q K1 (ix2 s t) = pb x0 x1 x3 h s t := by
  have hsum : ∀ b : Fin 2, (∑ d : Fin 64, Q (ix3 b s d) * K1 (ix4 b (0 : Fin 1) t d))
      = ∑ d : Fin 64, x0 (ix4 b h s d) * x1 (ix4 b h t d) :=
    fun b => Finset.sum_congr rfl fun d _ => by rw [hQ, hK]
  rw [logit_apply, hm, hsum 0, hsum 1]
  rfl

theorem ab_zero (h : Fin 4) (s : Fin 512) (t : Fin 256) : ab x0 x1 x3 0 h s t = pb x0 x1 x3 h s t := if_pos rfl
theorem ab_one (h : Fin 4) (s : Fin 512) (t : Fin 256) : ab x0 x1 x3 1 h s t = one - pb x0 x1 x3 h s t :=
  if_neg (show ¬(1 : Fin 2).val = 0 by decide)

theorem prob0_0 (s : Fin 512) (t : Fin 256) : k0_pay5 (F := Ideal) x3 x0 x1 (ix2 s t) = ab x0 x1 x3 0 0 s t :=
  ((congrFun (pay5_eq x0 x1 x3) (ix2 s t)).trans
    (pb_of x0 x1 x3 0 _ _ _ (mask_bit x3) (q_rows0 x0) (k_rows0 x1) s t)).trans (ab_zero x0 x1 x3 0 s t).symm
theorem prob1_0 (s : Fin 512) (t : Fin 256) : k0_pay6 (F := Ideal) x3 x0 x1 (ix2 s t) = ab x0 x1 x3 1 0 s t :=
  (congrArg (one - ·) (((congrFun (pay5_eq x0 x1 x3) (ix2 s t)).trans
    (pb_of x0 x1 x3 0 _ _ _ (mask_bit x3) (q_rows0 x0) (k_rows0 x1) s t)))).trans (ab_one x0 x1 x3 0 s t).symm
theorem prob0_1 (s : Fin 512) (t : Fin 256) :
    k0_pay14 (F := Ideal) (k0_pay3 x3) (k0_pay11 x0) (k0_pay12 x1) (ix2 s t) = ab x0 x1 x3 0 1 s t :=
  (pb_of x0 x1 x3 1 _ _ _ (mask_bit x3) (q_rows1 x0) (k_rows1 x1) s t).trans (ab_zero x0 x1 x3 1 s t).symm
theorem prob1_1 (s : Fin 512) (t : Fin 256) :
    k0_pay15 (F := Ideal) (k0_pay3 x3) (k0_pay11 x0) (k0_pay12 x1) (ix2 s t) = ab x0 x1 x3 1 1 s t :=
  (congrArg (one - ·) (pb_of x0 x1 x3 1 _ _ _ (mask_bit x3) (q_rows1 x0) (k_rows1 x1) s t)).trans (ab_one x0 x1 x3 1 s t).symm

/-! ## The stored probability tiles -/

theorem attn0_0 (x : S1x1x512x256.Idx) : k0_pay7 (F := Ideal) (k0_pay5 x3 x0 x1) x = ab x0 x1 x3 0 0 (x 2) (x 3) := by
  unfold k0_pay7
  exact (lift_probs _ x).trans (prob0_0 x0 x1 x3 (x 2) (x 3))
theorem attn1_0 (x : S1x1x512x256.Idx) : k0_pay8 (F := Ideal) (k0_pay6 x3 x0 x1) x = ab x0 x1 x3 1 0 (x 2) (x 3) := by
  unfold k0_pay8
  exact (lift_probs _ x).trans (prob1_0 x0 x1 x3 (x 2) (x 3))
theorem attn0_1 (x : S1x1x512x256.Idx) :
    k0_pay16 (F := Ideal) (k0_pay3 x3) (k0_pay11 x0) (k0_pay12 x1) x = ab x0 x1 x3 0 1 (x 2) (x 3) := by
  unfold k0_pay16
  exact (lift_probs _ x).trans (prob0_1 x0 x1 x3 (x 2) (x 3))
theorem attn1_1 (x : S1x1x512x256.Idx) :
    k0_pay17 (F := Ideal) (k0_pay3 x3) (k0_pay11 x0) (k0_pay12 x1) x = ab x0 x1 x3 1 1 (x 2) (x 3) := by
  unfold k0_pay17
  exact (lift_probs _ x).trans (prob1_1 x0 x1 x3 (x 2) (x 3))

/-! ## The accumulator tiles -/

/-- The increment of batch entry b, head h: the probabilities against the head's value rows. -/
theorem mb_of (b : Fin 2) (h : Fin 4) (P : FVec Ideal S512x256 .f32) (W : FVec Ideal S2x256x64 .bf16)
    (hP : ∀ (s : Fin 512) (t : Fin 256), P (ix2 s t) = ab x0 x1 x3 b h s t)
    (hW : ∀ (u : Fin 256) (d : Fin 64), W (ix3 b u d) = x2 (ix4 b h u d)) (s : Fin 512) (d : Fin 64) :
    (∑ u : Fin 256, P (ix2 s u) * W (ix3 b u d)) = mb x0 x1 x2 x3 b h s d :=
  Finset.sum_congr rfl fun u _ => by rw [hP, hW]

theorem acc0_0 (L : Vec Ideal S1x1x512x64 .f32) (x : S1x1x512x64.Idx) :
    k0_pay9 (F := Ideal) (k0_pay4 x2) (k0_pay5 x3 x0 x1) L x = L x + mb x0 x1 x2 x3 0 0 (x 2) (x 3) := by
  unfold k0_pay9
  exact (acc_store _ L x).trans (congrArg (L x + ·)
    ((weighted_rows (k0_pay4 x2) (k0_pay5 x3 x0 x1) 0 ![0, 0, 0] rfl slices_S2x256x64_o0_0_0_S1x256x64 (x 2) (x 3)).trans
      (mb_of x0 x1 x2 x3 0 0 _ _ (prob0_0 x0 x1 x3) (v_rows0 x2 0) (x 2) (x 3))))
theorem acc1_0 (L : Vec Ideal S1x1x512x64 .f32) (x : S1x1x512x64.Idx) :
    k0_pay10 (F := Ideal) (k0_pay4 x2) (k0_pay6 x3 x0 x1) L x = L x + mb x0 x1 x2 x3 1 0 (x 2) (x 3) := by
  unfold k0_pay10
  exact (acc_store _ L x).trans (congrArg (L x + ·)
    ((weighted_rows (k0_pay4 x2) (k0_pay6 x3 x0 x1) 1 ![1, 0, 0] rfl slices_S2x256x64_o1_0_0_S1x256x64 (x 2) (x 3)).trans
      (mb_of x0 x1 x2 x3 1 0 _ _ (prob1_0 x0 x1 x3) (v_rows0 x2 1) (x 2) (x 3))))
theorem acc0_1 (L : Vec Ideal S1x1x512x64 .f32) (x : S1x1x512x64.Idx) :
    k0_pay20 (F := Ideal) (k0_pay19 (k0_pay3 x3) x2 (k0_pay11 x0) (k0_pay12 x1) L) x = L x + mb x0 x1 x2 x3 0 1 (x 2) (x 3) := by
  unfold k0_pay20 k0_pay19
  exact (acc_store _ L x).trans (congrArg (L x + ·)
    ((weighted_rows (k0_pay13 x2) (k0_pay14 (k0_pay3 x3) (k0_pay11 x0) (k0_pay12 x1)) 0 ![0, 0, 0] rfl slices_S2x256x64_o0_0_0_S1x256x64 (x 2) (x 3)).trans
      (mb_of x0 x1 x2 x3 0 1 _ _ (prob0_1 x0 x1 x3) (v_rows1 x2 0) (x 2) (x 3))))
theorem acc1_1 (L : Vec Ideal S1x1x512x64 .f32) (x : S1x1x512x64.Idx) :
    k0_pay21 (F := Ideal) (k0_pay18 (k0_pay3 x3) x2 (k0_pay11 x0) (k0_pay12 x1)) L x = L x + mb x0 x1 x2 x3 1 1 (x 2) (x 3) := by
  unfold k0_pay21 k0_pay18
  exact (acc_store _ L x).trans (congrArg (L x + ·)
    ((weighted_rows (k0_pay13 x2) (k0_pay15 (k0_pay3 x3) (k0_pay11 x0) (k0_pay12 x1)) 1 ![1, 0, 0] rfl slices_S2x256x64_o1_0_0_S1x256x64 (x 2) (x 3)).trans
      (mb_of x0 x1 x2 x3 1 1 _ _ (prob1_1 x0 x1 x3) (v_rows1 x2 1) (x 2) (x 3))))

end Head

end Cert.KernelIdeal.Payloads

end
-- ==== Proof.PayHead23.lean ====
import proofs.«177084_j29996051595373_1_alg».proof.Proof.Gen.KernelIdeal.Skeleton
import proofs.«177084_j29996051595373_1_alg».proof.Proof.BlockSpec
import proofs.«177084_j29996051595373_1_alg».proof.Proof.HeadOps
import proofs.«177084_j29996051595373_1_alg».proof.Proof.HeadLayout
import proofs.«177084_j29996051595373_1_alg».proof.Proof.HeadDots
import Idealize.ShloMosaic.Lib.ValueIdx
import Idealize.ShloMosaic.PureOps.Ideal

/-!
# The stored tiles of heads 2 and 3, read at an index

For one grid point with query block `x0`, key block `x1`, value block `x2` and mask tile `x3`, the
tiles the kernel stores for heads 2 and 3 are, entry by entry, the point's probabilities
`ab b h s t` and the loaded accumulator plus the point's share `mb b h s d` of the output sum.
Each tile is a chain of selections of one head and one batch entry around two matrix products;
read at an index, the chain collapses to the closed forms of the block specification.
-/

noncomputable section

namespace Cert.KernelIdeal.Payloads

open Idealize.ShloMosaic Idealize.ShloMosaic.ValueIdx Cert.KernelIdeal Cert.KernelIdeal.Gen
  Cert.KernelIdeal.BlockSpec Cert.KernelIdeal.HeadOps Cert.AttnSpec

variable (x0 : Vec Ideal S2x4x512x64 .f32) (x1 x2 : Vec Ideal S2x4x256x64 .f32) (x3 : Vec Ideal S1x512x256 .i32)

/-! ## Building blocks -/

/-- A rank-4 index with two leading unit axes is determined by its last two coordinates. -/
theorem idx11_23 {n m : Nat} (x : (⟨4, ![1, 1, n, m]⟩ : Shape).Idx) :
    ix4 (0 : Fin 1) (0 : Fin 1) (x 2) (x 3) = x := by
  funext a
  have h0 : (x 0).val < 1 := (x 0).isLt
  have h1 : (x 1).val < 1 := (x 1).isLt
  match a with
  | ⟨0, _⟩ => exact Fin.ext (show 0 = (x 0).val by omega)
  | ⟨1, _⟩ => exact Fin.ext (show 0 = (x 1).val by omega)
  | ⟨2, _⟩ => rfl
  | ⟨3, _⟩ => rfl

/-- The mask test at `(s, t)`: the mask word there is not zero. -/
theorem maskbit_23 (s : Fin 512) (t : Fin 256) :
    k0_pay3 (F := Ideal) x3 (ix2 s t) = IntOp.cmpi .ne (x3 (ix3 (0 : Fin 1) s t)) 0#32 := by
  unfold k0_pay3
  show IntOp.cmpi .ne (shapeCast S512x256 x3 _ (ix2 s t)) 0#32 = _
  rw [mask_plane]

/-- Head `h` of the query block, narrowed: entry `(b, s, d)` is the block's entry `(b, h, s, d)`. -/
theorem headq_23 (h : Fin 4) (off : Fin 4 → Nat) (hoff : off = ![0, h.val, 0, 0])
    (hs : S2x4x512x64.Slices off S2x1x512x64) (b : Fin 2) (s : Fin 512) (d : Fin 64) :
    truncf (F := Ideal) .bf16 (shapeCast S2x512x64 (extractStridedSlice S2x1x512x64 off x0 hs) shapeCasts_S2x1x512x64_S2x512x64)
      bitsLt_bf16_f32 (ix3 b s d) = x0 (ix4 b h s d) :=
  head_rows_q x0 h off hoff hs b s d

/-- Head `h` of a key or value block, narrowed: entry `(b, u, d)` is the block's entry `(b, h, u, d)`. -/
theorem headkv_23 (h : Fin 4) (off : Fin 4 → Nat) (hoff : off = ![0, h.val, 0, 0])
    (hs : S2x4x256x64.Slices off S2x1x256x64) (b : Fin 2) (u : Fin 256) (d : Fin 64) :
    truncf (F := Ideal) .bf16 (shapeCast S2x256x64 (extractStridedSlice S2x1x256x64 off x1 hs) shapeCasts_S2x1x256x64_S2x256x64)
      bitsLt_bf16_f32 (ix3 b u d) = x1 (ix4 b h u d) :=
  head_rows_kv x1 h off hoff hs b u d

/-- The scaled score block of head `h`: at `(b, s, t)` the inner product of query row `s` and key
row `t` of batch entry `b` over the 64 features, times 1/8. -/
theorem scaled_23 (h : Fin 4) (off : Fin 4 → Nat) (hoff : off = ![0, h.val, 0, 0])
    (hq : S2x4x512x64.Slices off S2x1x512x64) (hk : S2x4x256x64.Slices off S2x1x256x64)
    (b : Fin 2) (s : Fin 512) (t : Fin 256) :
    mulf (F := Ideal)
      (matmul dot_S2x512x64_S2x256x64_S2x512x256_2_2_1_1_0_0 none
        (truncf .bf16 (shapeCast S2x512x64 (extractStridedSlice S2x1x512x64 off x0 hq) shapeCasts_S2x1x512x64_S2x512x64) bitsLt_bf16_f32)
        (truncf .bf16 (shapeCast S2x256x64 (extractStridedSlice S2x1x256x64 off x1 hk) shapeCasts_S2x1x256x64_S2x256x64) bitsLt_bf16_f32)
        (constant S2x512x256 .f32 0x00000000#32))
      (broadcast S2x512x256 (Scalar.ofBits .f32 0x3E000000#32)) (ix3 b s t)
      = (∑ d : Fin 64, x0 (ix4 b h s d) * x1 (ix4 b h t d)) * eighth := by
  rw [mulf_apply, score_dot]
  refine congrArg₂ (· * ·) (Finset.sum_congr rfl fun d _ => ?_) rfl
  rw [headq_23 x0 h off hoff hq, headkv_23 x1 h off hoff hk]

/-- The scaled score block of head 3 at `(b, s, t)`. -/
theorem pay30_apply_3 (b : Fin 2) (s : Fin 512) (t : Fin 256) :
    k0_pay30 (F := Ideal) x0 x1 (ix3 b s t) = (∑ d : Fin 64, x0 (ix4 b 3 s d) * x1 (ix4 b 3 t d)) * eighth := by
  unfold k0_pay30
  exact scaled_23 x0 x1 3 _ rfl _ _ b s t

/-- The probability tile of batch entry 0 from a mask test `c` and a scaled score block `Y`: the
logistic function of the difference of the two batch entries' masked scores. -/
theorem logit_23 (c : IVec S512x256 1) (Y : FVec Ideal S2x512x256 .f32) (s : Fin 512) (t : Fin 256) :
    k0_pay31 (F := Ideal) c Y (ix2 s t)
      = Ideal.logistic (Scalar.select (c (ix2 s t)) negBig (Y (ix3 (0 : Fin 2) s t))
          - Scalar.select (c (ix2 s t)) negBig (Y (ix3 (1 : Fin 2) s t))) := by
  unfold k0_pay31
  show Ideal.logistic (Scalar.select (c (ix2 s t)) negBig (shapeCast S512x256 (extractStridedSlice S1x512x256 ![0, 0, 0] Y _) _ (ix2 s t))
      - Scalar.select (c (ix2 s t)) negBig (shapeCast S512x256 (extractStridedSlice S1x512x256 ![1, 0, 0] Y _) _ (ix2 s t))) = _
  rw [batch_plane Y 0 ![0, 0, 0] rfl, batch_plane Y 1 ![1, 0, 0] rfl]

/-- The complementary tile: one minus the probability tile. -/
theorem colog_23 (c : IVec S512x256 1) (Y : FVec Ideal S2x512x256 .f32) (s : Fin 512) (t : Fin 256) :
    k0_pay32 (F := Ideal) c Y (ix2 s t) = one - k0_pay31 (F := Ideal) c Y (ix2 s t) := by
  unfold k0_pay32
  rfl

/-- Head 2's probability tile is the same function of its mask test and scaled score block as head 3's. -/
theorem pay23_eq_2 (c : IVec S512x256 1) :
    k0_pay23 (F := Ideal) c x0 x1
      = k0_pay31 (F := Ideal) c (mulf (F := Ideal)
          (matmul dot_S2x512x64_S2x256x64_S2x512x256_2_2_1_1_0_0 none
            (truncf .bf16 (shapeCast S2x512x64 (extractStridedSlice S2x1x512x64 ![0, 2, 0, 0] x0 slices_S2x4x512x64_o0_2_0_0_S2x1x512x64) shapeCasts_S2x1x512x64_S2x512x64) bitsLt_bf16_f32)
            (truncf .bf16 (shapeCast S2x256x64 (extractStridedSlice S2x1x256x64 ![0, 2, 0, 0] x1 slices_S2x4x256x64_o0_2_0_0_S2x1x256x64) shapeCasts_S2x1x256x64_S2x256x64) bitsLt_bf16_f32)
            (constant S2x512x256 .f32 0x00000000#32))
          (broadcast S2x512x256 (Scalar.ofBits .f32 0x3E000000#32))) := rfl

/-! ## The probability tiles -/

/-- Head 3's probability tile at `(s, t)` is the point's probability of batch entry 0. -/
theorem prob_3 (s : Fin 512) (t : Fin 256) :
    k0_pay31 (F := Ideal) (k0_pay3 x3) (k0_pay30 x0 x1) (ix2 s t) = pb x0 x1 x3 3 s t := by
  rw [logit_23, maskbit_23, pay30_apply_3, pay30_apply_3]
  rfl

/-- Head 2's probability tile at `(s, t)` is the point's probability of batch entry 0. -/
theorem prob_2 (s : Fin 512) (t : Fin 256) :
    k0_pay23 (F := Ideal) (k0_pay3 x3) x0 x1 (ix2 s t) = pb x0 x1 x3 2 s t := by
  rw [pay23_eq_2, logit_23, maskbit_23, scaled_23 x0 x1 2 ![0, 2, 0, 0] rfl, scaled_23 x0 x1 2 ![0, 2, 0, 0] rfl]
  rfl

/-- Head 2's complementary tile: one minus the probability tile. -/
theorem colog_2 (c : IVec S512x256 1) (s : Fin 512) (t : Fin 256) :
    k0_pay24 (F := Ideal) c x0 x1 (ix2 s t) = one - k0_pay23 (F := Ideal) c x0 x1 (ix2 s t) := by
  unfold k0_pay24
  rfl

/-- The probabilities of batch entry 0 are the probability tile … -/
theorem ab_zero_23 (h : Fin 4) (s : Fin 512) (t : Fin 256) : ab x0 x1 x3 0 h s t = pb x0 x1 x3 h s t := by
  unfold ab; exact if_pos rfl

/-- … and those of batch entry 1 its complement. -/
theorem ab_one_23 (h : Fin 4) (s : Fin 512) (t : Fin 256) : ab x0 x1 x3 1 h s t = one - pb x0 x1 x3 h s t := by
  unfold ab; exact if_neg (by decide)

/-- Head 2, batch entry 0: the probability tile is the point's probabilities. -/
theorem attn0_at_2 (s : Fin 512) (t : Fin 256) :
    k0_pay23 (F := Ideal) (k0_pay3 x3) x0 x1 (ix2 s t) = ab x0 x1 x3 0 2 s t := by
  rw [prob_2, ab_zero_23]

/-- Head 2, batch entry 1: the complementary tile is the point's probabilities. -/
theorem attn1_at_2 (s : Fin 512) (t : Fin 256) :
    k0_pay24 (F := Ideal) (k0_pay3 x3) x0 x1 (ix2 s t) = ab x0 x1 x3 1 2 s t := by
  rw [colog_2, prob_2, ab_one_23]

/-- Head 3, batch entry 0: the probability tile is the point's probabilities. -/
theorem attn0_at_3 (s : Fin 512) (t : Fin 256) :
    k0_pay31 (F := Ideal) (k0_pay3 x3) (k0_pay30 x0 x1) (ix2 s t) = ab x0 x1 x3 0 3 s t := by
  rw [prob_3, ab_zero_23]

/-- Head 3, batch entry 1: the complementary tile is the point's probabilities. -/
theorem attn1_at_3 (s : Fin 512) (t : Fin 256) :
    k0_pay32 (F := Ideal) (k0_pay3 x3) (k0_pay30 x0 x1) (ix2 s t) = ab x0 x1 x3 1 3 s t := by
  rw [colog_23, prob_3, ab_one_23]

/-- The stored probabilities of batch entry 0, head 2. -/
theorem attn0_2 (x : S1x1x512x256.Idx) :
    k0_pay25 (F := Ideal) (k0_pay3 x3) x0 x1 x = ab x0 x1 x3 0 2 (x 2) (x 3) := by
  unfold k0_pay25
  exact (lift_probs _ x).trans (attn0_at_2 x0 x1 x3 (x 2) (x 3))

/-- The stored probabilities of batch entry 1, head 2. -/
theorem attn1_2 (x : S1x1x512x256.Idx) :
    k0_pay26 (F := Ideal) (k0_pay24 (k0_pay3 x3) x0 x1) x = ab x0 x1 x3 1 2 (x 2) (x 3) := by
  unfold k0_pay26
  exact (lift_probs _ x).trans (attn1_at_2 x0 x1 x3 (x 2) (x 3))

/-- The stored probabilities of batch entry 0, head 3. -/
theorem attn0_3 (x : S1x1x512x256.Idx) :
    k0_pay33 (F := Ideal) (k0_pay3 x3) (k0_pay30 x0 x1) x = ab x0 x1 x3 0 3 (x 2) (x 3) := by
  unfold k0_pay33
  exact (lift_probs _ x).trans (attn0_at_3 x0 x1 x3 (x 2) (x 3))

/-- The stored probabilities of batch entry 1, head 3. -/
theorem attn1_3 (x : S1x1x512x256.Idx) :
    k0_pay34 (F := Ideal) (k0_pay3 x3) (k0_pay30 x0 x1) x = ab x0 x1 x3 1 3 (x 2) (x 3) := by
  unfold k0_pay34
  exact (lift_probs _ x).trans (attn1_at_3 x0 x1 x3 (x 2) (x 3))

/-! ## The accumulated output tiles -/

/-- Head 2 of the value block, narrowed. -/
theorem val_2 (b : Fin 2) (u : Fin 256) (d : Fin 64) : k0_pay22 (F := Ideal) x2 (ix3 b u d) = x2 (ix4 b 2 u d) := by
  unfold k0_pay22
  exact headkv_23 x2 2 _ rfl _ b u d

/-- Head 3 of the value block, narrowed. -/
theorem val_3 (b : Fin 2) (u : Fin 256) (d : Fin 64) : k0_pay29 (F := Ideal) x2 (ix3 b u d) = x2 (ix4 b 3 u d) := by
  unfold k0_pay29
  exact headkv_23 x2 3 _ rfl _ b u d

/-- A loaded accumulator tile `L` with its unit axes dropped, plus the product of a probability
tile `P` with batch entry `b` of a value array `V`: at `(s, d)` it is `L (0, 0, s, d)` plus the
sum over the 256 key rows of `P`'s row `s` times `V`'s column `d`. -/
theorem accum_at_23 (V : FVec Ideal S2x256x64 .bf16) (P : FVec Ideal S512x256 .f32) (L : Vec Ideal S1x1x512x64 .f32)
    (b : Fin 2) (off : Fin 3 → Nat) (hoff : off = ![b.val, 0, 0]) (hs : S2x256x64.Slices off S1x256x64)
    (s : Fin 512) (d : Fin 64) :
    addf (F := Ideal) (shapeCast S512x64 L shapeCasts_S1x1x512x64_S512x64)
        (matmul dot_S512x256_S256x64_S512x64_1_0_0_1_n_n none (truncf .bf16 P bitsLt_bf16_f32)
          (shapeCast S256x64 (extractStridedSlice S1x256x64 off V hs) shapeCasts_S1x256x64_S256x64)
          (constant S512x64 .f32 0x00000000#32)) (ix2 s d)
      = L (ix4 (0 : Fin 1) (0 : Fin 1) s d) + ∑ u : Fin 256, P (ix2 s u) * V (ix3 b u d) := by
  rw [addf_apply, drop_acc, probs_dot]
  refine congrArg (_ + ·) (Finset.sum_congr rfl fun u _ => ?_)
  rw [truncf_apply, batch_rows V b off hoff hs]

/-- The same, stored back with two leading unit axes and read at an index `x` of that shape: `L x`
plus the sum over the key rows. -/
theorem accum_23 (V : FVec Ideal S2x256x64 .bf16) (P : FVec Ideal S512x256 .f32) (L : Vec Ideal S1x1x512x64 .f32)
    (b : Fin 2) (off : Fin 3 → Nat) (hoff : off = ![b.val, 0, 0]) (hs : S2x256x64.Slices off S1x256x64)
    (x : S1x1x512x64.Idx) :
    shapeCast S1x1x512x64
      (addf (F := Ideal) (shapeCast S512x64 L shapeCasts_S1x1x512x64_S512x64)
        (matmul dot_S512x256_S256x64_S512x64_1_0_0_1_n_n none (truncf .bf16 P bitsLt_bf16_f32)
          (shapeCast S256x64 (extractStridedSlice S1x256x64 off V hs) shapeCasts_S1x256x64_S256x64)
          (constant S512x64 .f32 0x00000000#32)))
      shapeCasts_S512x64_S1x1x512x64 x
      = L x + ∑ u : Fin 256, P (ix2 (x 2) u) * V (ix3 b u (x 3)) :=
  ((lift_acc _ x).trans (accum_at_23 V P L b off hoff hs (x 2) (x 3))).trans
    (congrArg (fun y => L y + ∑ u : Fin 256, P (ix2 (x 2) u) * V (ix3 b u (x 3))) (idx11_23 x))

/-- Head 2, batch entry 0: the probability tile against the value rows is the point's share. -/
theorem share0_2 (s : Fin 512) (d : Fin 64) :
    ∑ u : Fin 256, k0_pay23 (F := Ideal) (k0_pay3 x3) x0 x1 (ix2 s u) * k0_pay22 (F := Ideal) x2 (ix3 0 u d)
      = mb x0 x1 x2 x3 0 2 s d := by
  unfold mb
  exact Finset.sum_congr rfl fun u _ => by rw [attn0_at_2, val_2]

/-- Head 2, batch entry 1. -/
theorem share1_2 (s : Fin 512) (d : Fin 64) :
    ∑ u : Fin 256, k0_pay24 (F := Ideal) (k0_pay3 x3) x0 x1 (ix2 s u) * k0_pay22 (F := Ideal) x2 (ix3 1 u d)
      = mb x0 x1 x2 x3 1 2 s d := by
  unfold mb
  exact Finset.sum_congr rfl fun u _ => by rw [attn1_at_2, val_2]

/-- Head 3, batch entry 0. -/
theorem share0_3 (s : Fin 512) (d : Fin 64) :
    ∑ u : Fin 256, k0_pay31 (F := Ideal) (k0_pay3 x3) (k0_pay30 x0 x1) (ix2 s u) * k0_pay29 (F := Ideal) x2 (ix3 0 u d)
      = mb x0 x1 x2 x3 0 3 s d := by
  unfold mb
  exact Finset.sum_congr rfl fun u _ => by rw [attn0_at_3, val_3]

/-- Head 3, batch entry 1. -/
theorem share1_3 (s : Fin 512) (d : Fin 64) :
    ∑ u : Fin 256, k0_pay32 (F := Ideal) (k0_pay3 x3) (k0_pay30 x0 x1) (ix2 s u) * k0_pay29 (F := Ideal) x2 (ix3 1 u d)
      = mb x0 x1 x2 x3 1 3 s d := by
  unfold mb
  exact Finset.sum_congr rfl fun u _ => by rw [attn1_at_3, val_3]

/-- The stored output tile of batch entry 0, head 2. -/
theorem acc0_2 (L : Vec Ideal S1x1x512x64 .f32) (x : S1x1x512x64.Idx) :
    k0_pay27 (F := Ideal) (k0_pay22 x2) (k0_pay23 (k0_pay3 x3) x0 x1) L x
      = L x + mb x0 x1 x2 x3 0 2 (x 2) (x 3) := by
  unfold k0_pay27
  exact (accum_23 _ _ L 0 ![0, 0, 0] rfl _ x).trans (congrArg (L x + ·) (share0_2 x0 x1 x2 x3 (x 2) (x 3)))

/-- The stored output tile of batch entry 1, head 2. -/
theorem acc1_2 (L : Vec Ideal S1x1x512x64 .f32) (x : S1x1x512x64.Idx) :
    k0_pay28 (F := Ideal) (k0_pay22 x2) (k0_pay24 (k0_pay3 x3) x0 x1) L x
      = L x + mb x0 x1 x2 x3 1 2 (x 2) (x 3) := by
  unfold k0_pay28
  exact (accum_23 _ _ L 1 ![1, 0, 0] rfl _ x).trans (congrArg (L x + ·) (share1_2 x0 x1 x2 x3 (x 2) (x 3)))

/-- The stored output tile of batch entry 0, head 3. -/
theorem acc0_3 (L : Vec Ideal S1x1x512x64 .f32) (x : S1x1x512x64.Idx) :
    k0_pay36 (F := Ideal) (k0_pay3 x3) (k0_pay29 x2) (k0_pay30 x0 x1) L x
      = L x + mb x0 x1 x2 x3 0 3 (x 2) (x 3) := by
  unfold k0_pay36
  exact (accum_23 _ _ L 0 ![0, 0, 0] rfl _ x).trans (congrArg (L x + ·) (share0_3 x0 x1 x2 x3 (x 2) (x 3)))

/-- The stored output tile of batch entry 1, head 3. -/
theorem acc1_3 (L : Vec Ideal S1x1x512x64 .f32) (x : S1x1x512x64.Idx) :
    k0_pay1 (F := Ideal) (k0_pay35 (k0_pay3 x3) (k0_pay29 x2) (k0_pay30 x0 x1)) L x
      = L x + mb x0 x1 x2 x3 1 3 (x 2) (x 3) := by
  unfold k0_pay1 k0_pay35
  exact (accum_23 _ _ L 1 ![1, 0, 0] rfl _ x).trans (congrArg (L x + ·) (share1_3 x0 x1 x2 x3 (x 2) (x 3)))

end Cert.KernelIdeal.Payloads

end
-- ==== Proof.ZeroedSum.lean ====
/-
  The first key tile of a query tile: the body zeroes the running sum, then for each (batch entry, head) tile loads it,
  adds the point's share and stores it back. A load of a tile made before that tile's store sees only the zero fill (the
  tiles stored so far are other tiles), so what the running sum ends holding is the point's share alone.
-/
import proofs.«177084_j29996051595373_1_alg».proof.Proof.Gen.KernelIdeal.Value
import proofs.«177084_j29996051595373_1_alg».proof.Proof.BlockSpec
import proofs.«177084_j29996051595373_1_alg».proof.Proof.TilePlaces
import proofs.«177084_j29996051595373_1_alg».proof.Proof.PayHead01
import proofs.«177084_j29996051595373_1_alg».proof.Proof.PayHead23
import Idealize.ShloMosaic.Lib.Pipeline.Value
import Idealize.ShloMosaic.PureOps.Ideal.Laws

set_option maxRecDepth 16384

noncomputable section

namespace Cert.KernelIdeal.ZeroedSum

open Idealize.ShloMosaic Idealize.ShloMosaic.TcCoe Idealize.SL.Sem
open Cert.KernelIdeal Cert.KernelIdeal.Gen Cert.KernelIdeal.BlockSpec Cert.KernelIdeal.TilePlaces

/-- A tile's number: batch entry b of head h is tile 2·h + b, the order in which the body stores them. -/
def tileNo (y : S2x4x512x64.Idx) : Nat := 2 * (y 1).val + (y 0).val

theorem tileNo_of_mem (b h : Nat) (sz : Fin 4 → Nat) (hsz : sz = ![1, 1, 512, 64]) (inb : ∀ a, (![b, h, 0, 0] : Fin 4 → Nat) a + sz a ≤ S2x4x512x64.size a)
    (y : S2x4x512x64.Idx) (hm : y ∈ (Rect.unit (s := S2x4x512x64) ![b, h, 0, 0] sz inb).set) : tileNo y = 2 * h + b := by
  subst hsz
  rw [Rect.mem_set_unit] at hm
  have m0 : b ≤ (y 0).val ∧ (y 0).val < b + 1 := hm 0
  have m1 : h ≤ (y 1).val ∧ (y 1).val < h + 1 := hm 1
  unfold tileNo; omega

theorem mem_of_tileNo (b h : Nat) (hb : b < 2) (sz : Fin 4 → Nat) (hsz : sz = ![1, 1, 512, 64]) (inb : ∀ a, (![b, h, 0, 0] : Fin 4 → Nat) a + sz a ≤ S2x4x512x64.size a)
    (y : S2x4x512x64.Idx) (ht : tileNo y = 2 * h + b) : y ∈ (Rect.unit (s := S2x4x512x64) ![b, h, 0, 0] sz inb).set := by
  subst hsz
  rw [Rect.mem_set_unit]
  have y0 : (y 0).val < 2 := (y 0).isLt
  have y2 : (y 2).val < 512 := (y 2).isLt
  have y3 : (y 3).val < 64 := (y 3).isLt
  unfold tileNo at ht
  intro a
  match a with
  | ⟨0, _⟩ => show b ≤ (y 0).val ∧ (y 0).val < b + 1; omega
  | ⟨1, _⟩ => show h ≤ (y 1).val ∧ (y 1).val < h + 1; omega
  | ⟨2, _⟩ => show 0 ≤ (y 2).val ∧ (y 2).val < 0 + 512; omega
  | ⟨3, _⟩ => show 0 ≤ (y 3).val ∧ (y 3).val < 0 + 64; omega

theorem tileNo_idx (b h : Nat) (sz : Fin 4 → Nat) (hsz : sz = ![1, 1, 512, 64]) (inb : ∀ a, (![b, h, 0, 0] : Fin 4 → Nat) a + sz a ≤ S2x4x512x64.size a)
    (j : (Rect.unit (s := S2x4x512x64) ![b, h, 0, 0] sz inb).shape.Idx) :
    tileNo ((Rect.unit (s := S2x4x512x64) ![b, h, 0, 0] sz inb).toLoadRect.idx j) = 2 * h + b := by
  subst hsz
  have h0 : (j 0).val < 1 := (j 0).isLt
  have h1 : (j 1).val < 1 := (j 1).isLt
  show 2 * (h + 1 * (j 1).val) + (b + 1 * (j 0).val) = 2 * h + b
  omega

/-- The fill the body starts a query tile with is zero everywhere. -/
theorem zero_blk (y : S2x4x512x64.Idx) : k0_pay2 (F := Ideal) y = 0 := by
  unfold k0_pay2
  rw [shapeCast_self]
  exact Ideal.ofBits_zero_f32

/-! ## Below the tiles stored so far, the zero fill shows through -/

theorem below_1 (y : S2x4x512x64.Idx) : View.canon (kernelRun0_A.sl.HS0_1 (F := Ideal)) y = k0_pay2 (F := Ideal) y := by
  unfold kernelRun0_A.sl.HS0_1
  exact congrFun (View.canon_unit_zero hz4 _ _) y

theorem below_2 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) (y : S2x4x512x64.Idx) (hy : 1 ≤ tileNo y) : View.canon (kernelRun0_A.sl.HS0_2 (F := Ideal) c arg2 harg2 arg3 harg3 arg4 harg4 arg5 harg5 arg8 x0 x1 x2 x3) y = k0_pay2 (F := Ideal) y := by
  unfold kernelRun0_A.sl.HS0_2
  rw [View.canon_cons_of_not_mem _ _ (fun hm => by have := tileNo_of_mem 0 0 S1x1x512x64.size rfl inb_S2x4x512x64_S1x1x512x64_0_0_0_0 y hm; omega)]
  exact below_1  y

theorem below_3 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) (y : S2x4x512x64.Idx) (hy : 2 ≤ tileNo y) : View.canon (kernelRun0_A.sl.HS0_3 (F := Ideal) c arg2 harg2 arg3 harg3 arg4 harg4 arg5 harg5 arg8 x0 x1 x2 x3) y = k0_pay2 (F := Ideal) y := by
  unfold kernelRun0_A.sl.HS0_3
  rw [View.canon_cons_of_not_mem _ _ (fun hm => by have := tileNo_of_mem 1 0 S1x1x512x64.size rfl inb_S2x4x512x64_S1x1x512x64_1_0_0_0 y hm; omega)]
  exact below_2 c arg2 harg2 arg3 harg3 arg4 harg4 arg5 harg5 arg8 x0 x1 x2 x3 y (by omega)

theorem below_4 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) (y : S2x4x512x64.Idx) (hy : 3 ≤ tileNo y) : View.canon (kernelRun0_A.sl.HS0_4 (F := Ideal) c arg2 harg2 arg3 harg3 arg4 harg4 arg5 harg5 arg8 x0 x1 x2 x3) y = k0_pay2 (F := Ideal) y := by
  unfold kernelRun0_A.sl.HS0_4
  rw [View.canon_cons_of_not_mem _ _ (fun hm => by have := tileNo_of_mem 0 1 S1x1x512x64.size rfl inb_S2x4x512x64_S1x1x512x64_0_1_0_0 y hm; omega)]
  exact below_3 c arg2 harg2 arg3 harg3 arg4 harg4 arg5 harg5 arg8 x0 x1 x2 x3 y (by omega)

theorem below_5 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) (y : S2x4x512x64.Idx) (hy : 4 ≤ tileNo y) : View.canon (kernelRun0_A.sl.HS0_5 (F := Ideal) c arg2 harg2 arg3 harg3 arg4 harg4 arg5 harg5 arg8 x0 x1 x2 x3) y = k0_pay2 (F := Ideal) y := by
  unfold kernelRun0_A.sl.HS0_5
  rw [View.canon_cons_of_not_mem _ _ (fun hm => by have := tileNo_of_mem 1 1 S1x1x512x64.size rfl inb_S2x4x512x64_S1x1x512x64_1_1_0_0 y hm; omega)]
  exact below_4 c arg2 harg2 arg3 harg3 arg4 harg4 arg5 harg5 arg8 x0 x1 x2 x3 y (by omega)

theorem below_6 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) (y : S2x4x512x64.Idx) (hy : 5 ≤ tileNo y) : View.canon (kernelRun0_A.sl.HS0_6 (F := Ideal) c arg2 harg2 arg3 harg3 arg4 harg4 arg5 harg5 arg8 x0 x1 x2 x3) y = k0_pay2 (F := Ideal) y := by
  unfold kernelRun0_A.sl.HS0_6
  rw [View.canon_cons_of_not_mem _ _ (fun hm => by have := tileNo_of_mem 0 2 S1x1x512x64.size rfl inb_S2x4x512x64_S1x1x512x64_0_2_0_0 y hm; omega)]
  exact below_5 c arg2 harg2 arg3 harg3 arg4 harg4 arg5 harg5 arg8 x0 x1 x2 x3 y (by omega)

theorem below_7 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) (y : S2x4x512x64.Idx) (hy : 6 ≤ tileNo y) : View.canon (kernelRun0_A.sl.HS0_7 (F := Ideal) c arg2 harg2 arg3 harg3 arg4 harg4 arg5 harg5 arg8 x0 x1 x2 x3) y = k0_pay2 (F := Ideal) y := by
  unfold kernelRun0_A.sl.HS0_7
  rw [View.canon_cons_of_not_mem _ _ (fun hm => by have := tileNo_of_mem 1 2 S1x1x512x64.size rfl inb_S2x4x512x64_S1x1x512x64_1_2_0_0 y hm; omega)]
  exact below_6 c arg2 harg2 arg3 harg3 arg4 harg4 arg5 harg5 arg8 x0 x1 x2 x3 y (by omega)

theorem below_8 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) (y : S2x4x512x64.Idx) (hy : 7 ≤ tileNo y) : View.canon (kernelRun0_A.sl.HS0_8 (F := Ideal) c arg2 harg2 arg3 harg3 arg4 harg4 arg5 harg5 arg8 x0 x1 x2 x3) y = k0_pay2 (F := Ideal) y := by
  unfold kernelRun0_A.sl.HS0_8
  rw [View.canon_cons_of_not_mem _ _ (fun hm => by have := tileNo_of_mem 0 3 S1x1x512x64.size rfl inb_S2x4x512x64_S1x1x512x64_0_3_0_0 y hm; omega)]
  exact below_7 c arg2 harg2 arg3 harg3 arg4 harg4 arg5 harg5 arg8 x0 x1 x2 x3 y (by omega)

/-! ## So each load of a tile, made before that tile's store, reads zeros -/

theorem load_0 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) : kernelRun0_A.sl.v48 (F := Ideal) c arg8 = fun j => k0_pay2 (F := Ideal) ((Rect.unit (s := S2x4x512x64) ![0, 0, 0, 0] S1x1x512x64.size inb_S2x4x512x64_S1x1x512x64_0_0_0_0).toLoadRect.idx j) := by
  unfold kernelRun0_A.sl.v48
  rw [View.readCov_eq_canon']
  funext j
  exact below_1  _

theorem load_1 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) : kernelRun0_A.sl.v54 (F := Ideal) c arg2 harg2 arg3 harg3 arg4 harg4 arg5 harg5 arg8 x0 x1 x2 x3 = fun j => k0_pay2 (F := Ideal) ((Rect.unit (s := S2x4x512x64) ![1, 0, 0, 0] S1x1x512x64.size inb_S2x4x512x64_S1x1x512x64_1_0_0_0).toLoadRect.idx j) := by
  unfold kernelRun0_A.sl.v54
  rw [View.readCov_eq_canon']
  funext j
  exact below_2 c arg2 harg2 arg3 harg3 arg4 harg4 arg5 harg5 arg8 x0 x1 x2 x3 _ (by rw [tileNo_idx 1 0 S1x1x512x64.size rfl inb_S2x4x512x64_S1x1x512x64_1_0_0_0])

theorem load_2 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) : kernelRun0_A.sl.v98 (F := Ideal) c arg2 harg2 arg3 harg3 arg4 harg4 arg5 harg5 arg8 x0 x1 x2 x3 = fun j => k0_pay2 (F := Ideal) ((Rect.unit (s := S2x4x512x64) ![0, 1, 0, 0] S1x1x512x64.size inb_S2x4x512x64_S1x1x512x64_0_1_0_0).toLoadRect.idx j) := by
  unfold kernelRun0_A.sl.v98
  rw [View.readCov_eq_canon']
  funext j
  exact below_3 c arg2 harg2 arg3 harg3 arg4 harg4 arg5 harg5 arg8 x0 x1 x2 x3 _ (by rw [tileNo_idx 0 1 S1x1x512x64.size rfl inb_S2x4x512x64_S1x1x512x64_0_1_0_0])

theorem load_3 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) : kernelRun0_A.sl.v104 (F := Ideal) c arg2 harg2 arg3 harg3 arg4 harg4 arg5 harg5 arg8 x0 x1 x2 x3 = fun j => k0_pay2 (F := Ideal) ((Rect.unit (s := S2x4x512x64) ![1, 1, 0, 0] S1x1x512x64.size inb_S2x4x512x64_S1x1x512x64_1_1_0_0).toLoadRect.idx j) := by
  unfold kernelRun0_A.sl.v104
  rw [View.readCov_eq_canon']
  funext j
  exact below_4 c arg2 harg2 arg3 harg3 arg4 harg4 arg5 harg5 arg8 x0 x1 x2 x3 _ (by rw [tileNo_idx 1 1 S1x1x512x64.size rfl inb_S2x4x512x64_S1x1x512x64_1_1_0_0])

theorem load_4 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) : kernelRun0_A.sl.v148 (F := Ideal) c arg2 harg2 arg3 harg3 arg4 harg4 arg5 harg5 arg8 x0 x1 x2 x3 = fun j => k0_pay2 (F := Ideal) ((Rect.unit (s := S2x4x512x64) ![0, 2, 0, 0] S1x1x512x64.size inb_S2x4x512x64_S1x1x512x64_0_2_0_0).toLoadRect.idx j) := by
  unfold kernelRun0_A.sl.v148
  rw [View.readCov_eq_canon']
  funext j
  exact below_5 c arg2 harg2 arg3 harg3 arg4 harg4 arg5 harg5 arg8 x0 x1 x2 x3 _ (by rw [tileNo_idx 0 2 S1x1x512x64.size rfl inb_S2x4x512x64_S1x1x512x64_0_2_0_0])

theorem load_5 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) : kernelRun0_A.sl.v154 (F := Ideal) c arg2 harg2 arg3 harg3 arg4 harg4 arg5 harg5 arg8 x0 x1 x2 x3 = fun j => k0_pay2 (F := Ideal) ((Rect.unit (s := S2x4x512x64) ![1, 2, 0, 0] S1x1x512x64.size inb_S2x4x512x64_S1x1x512x64_1_2_0_0).toLoadRect.idx j) := by
  unfold kernelRun0_A.sl.v154
  rw [View.readCov_eq_canon']
  funext j
  exact below_6 c arg2 harg2 arg3 harg3 arg4 harg4 arg5 harg5 arg8 x0 x1 x2 x3 _ (by rw [tileNo_idx 1 2 S1x1x512x64.size rfl inb_S2x4x512x64_S1x1x512x64_1_2_0_0])

theorem load_6 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) : kernelRun0_A.sl.v198 (F := Ideal) c arg2 harg2 arg3 harg3 arg4 harg4 arg5 harg5 arg8 x0 x1 x2 x3 = fun j => k0_pay2 (F := Ideal) ((Rect.unit (s := S2x4x512x64) ![0, 3, 0, 0] S1x1x512x64.size inb_S2x4x512x64_S1x1x512x64_0_3_0_0).toLoadRect.idx j) := by
  unfold kernelRun0_A.sl.v198
  rw [View.readCov_eq_canon']
  funext j
  exact below_7 c arg2 harg2 arg3 harg3 arg4 harg4 arg5 harg5 arg8 x0 x1 x2 x3 _ (by rw [tileNo_idx 0 3 S1x1x512x64.size rfl inb_S2x4x512x64_S1x1x512x64_0_3_0_0])

theorem load_7 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) : kernelRun0_A.sl.v204 (F := Ideal) c arg2 harg2 arg3 harg3 arg4 harg4 arg5 harg5 arg8 x0 x1 x2 x3 = fun j => k0_pay2 (F := Ideal) ((Rect.unit (s := S2x4x512x64) ![1, 3, 0, 0] S1x1x512x64.size inb_S2x4x512x64_S1x1x512x64_1_3_0_0).toLoadRect.idx j) := by
  unfold kernelRun0_A.sl.v204
  rw [View.readCov_eq_canon']
  funext j
  exact below_8 c arg2 harg2 arg3 harg3 arg4 harg4 arg5 harg5 arg8 x0 x1 x2 x3 _ (by rw [tileNo_idx 1 3 S1x1x512x64.size rfl inb_S2x4x512x64_S1x1x512x64_1_3_0_0])

/-! ## The tiles stored so far hold the point's share -/

theorem stored_1 (y : S2x4x512x64.Idx) (hy : tileNo y < 0) (G : S2x4x512x64.Idx → EReal) : View.canon (kernelRun0_A.sl.HS0_1 (F := Ideal)) y = G y := absurd hy (Nat.not_lt_zero _)

theorem stored_2 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) (y : S2x4x512x64.Idx) (hy : tileNo y < 1) : View.canon (kernelRun0_A.sl.HS0_2 (F := Ideal) c arg2 harg2 arg3 harg3 arg4 harg4 arg5 harg5 arg8 x0 x1 x2 x3) y = outBlk x0 x1 x2 x3 y := by
  unfold kernelRun0_A.sl.HS0_2
  by_cases hm : y ∈ (Rect.unit (s := S2x4x512x64) ![0, 0, 0, 0] S1x1x512x64.size inb_S2x4x512x64_S1x1x512x64_0_0_0_0).set
  · obtain ⟨x, rfl⟩ := (Rect.unit (s := S2x4x512x64) ![0, 0, 0, 0] S1x1x512x64.size inb_S2x4x512x64_S1x1x512x64_0_0_0_0).exists_idx_of_mem hm
    refine (View.canon_cons_emb (Rect.unit (s := S2x4x512x64) ![0, 0, 0, 0] S1x1x512x64.size inb_S2x4x512x64_S1x1x512x64_0_0_0_0) _ _ x).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, harg2.read_unread, harg3.read_unread, harg4.read_unread, harg5.read_unread, View.ld_unit_zero (S := S2x4x512x64) hz4, View.ld_unit_zero (S := S2x4x256x64) hz4, View.ld_unit_zero (S := S1x512x256) hz3]
    rw [load_0 c arg2 harg2 arg3 harg3 arg4 harg4 arg5 harg5 arg8 x0 x1 x2 x3]
    refine (Payloads.acc0_0 x0 x1 x2 x3 _ x).trans ?_
    show k0_pay2 (F := Ideal) _ + _ = _
    rw [zero_blk, zero_add]
    exact (outBlk_at x0 x1 x2 x3 0 0 (by decide) (by decide) inb_S2x4x512x64_S1x1x512x64_0_0_0_0 x).symm
  · have hn : tileNo y ≠ 0 := fun e => hm (mem_of_tileNo 0 0 (by decide) S1x1x512x64.size rfl inb_S2x4x512x64_S1x1x512x64_0_0_0_0 y (by rw [e]))
    rw [View.canon_cons_of_not_mem _ _ (by exact hm)]
    exact stored_1 y (by omega) _

theorem stored_3 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) (y : S2x4x512x64.Idx) (hy : tileNo y < 2) : View.canon (kernelRun0_A.sl.HS0_3 (F := Ideal) c arg2 harg2 arg3 harg3 arg4 harg4 arg5 harg5 arg8 x0 x1 x2 x3) y = outBlk x0 x1 x2 x3 y := by
  unfold kernelRun0_A.sl.HS0_3
  by_cases hm : y ∈ (Rect.unit (s := S2x4x512x64) ![1, 0, 0, 0] S1x1x512x64.size inb_S2x4x512x64_S1x1x512x64_1_0_0_0).set
  · obtain ⟨x, rfl⟩ := (Rect.unit (s := S2x4x512x64) ![1, 0, 0, 0] S1x1x512x64.size inb_S2x4x512x64_S1x1x512x64_1_0_0_0).exists_idx_of_mem hm
    refine (View.canon_cons_emb (Rect.unit (s := S2x4x512x64) ![1, 0, 0, 0] S1x1x512x64.size inb_S2x4x512x64_S1x1x512x64_1_0_0_0) _ _ x).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, harg2.read_unread, harg3.read_unread, harg4.read_unread, harg5.read_unread, View.ld_unit_zero (S := S2x4x512x64) hz4, View.ld_unit_zero (S := S2x4x256x64) hz4, View.ld_unit_zero (S := S1x512x256) hz3]
    rw [load_1 c arg2 harg2 arg3 harg3 arg4 harg4 arg5 harg5 arg8 x0 x1 x2 x3]
    refine (Payloads.acc1_0 x0 x1 x2 x3 _ x).trans ?_
    show k0_pay2 (F := Ideal) _ + _ = _
    rw [zero_blk, zero_add]
    exact (outBlk_at x0 x1 x2 x3 1 0 (by decide) (by decide) inb_S2x4x512x64_S1x1x512x64_1_0_0_0 x).symm
  · have hn : tileNo y ≠ 1 := fun e => hm (mem_of_tileNo 1 0 (by decide) S1x1x512x64.size rfl inb_S2x4x512x64_S1x1x512x64_1_0_0_0 y (by rw [e]))
    rw [View.canon_cons_of_not_mem _ _ (by exact hm)]
    exact stored_2 c arg2 harg2 arg3 harg3 arg4 harg4 arg5 harg5 arg8 x0 x1 x2 x3 y (by omega)

theorem stored_4 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) (y : S2x4x512x64.Idx) (hy : tileNo y < 3) : View.canon (kernelRun0_A.sl.HS0_4 (F := Ideal) c arg2 harg2 arg3 harg3 arg4 harg4 arg5 harg5 arg8 x0 x1 x2 x3) y = outBlk x0 x1 x2 x3 y := by
  unfold kernelRun0_A.sl.HS0_4
  by_cases hm : y ∈ (Rect.unit (s := S2x4x512x64) ![0, 1, 0, 0] S1x1x512x64.size inb_S2x4x512x64_S1x1x512x64_0_1_0_0).set
  · obtain ⟨x, rfl⟩ := (Rect.unit (s := S2x4x512x64) ![0, 1, 0, 0] S1x1x512x64.size inb_S2x4x512x64_S1x1x512x64_0_1_0_0).exists_idx_of_mem hm
    refine (View.canon_cons_emb (Rect.unit (s := S2x4x512x64) ![0, 1, 0, 0] S1x1x512x64.size inb_S2x4x512x64_S1x1x512x64_0_1_0_0) _ _ x).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, harg2.read_unread, harg3.read_unread, harg4.read_unread, harg5.read_unread, View.ld_unit_zero (S := S2x4x512x64) hz4, View.ld_unit_zero (S := S2x4x256x64) hz4, View.ld_unit_zero (S := S1x512x256) hz3]
    rw [load_2 c arg2 harg2 arg3 harg3 arg4 harg4 arg5 harg5 arg8 x0 x1 x2 x3]
    refine (Payloads.acc0_1 x0 x1 x2 x3 _ x).trans ?_
    show k0_pay2 (F := Ideal) _ + _ = _
    rw [zero_blk, zero_add]
    exact (outBlk_at x0 x1 x2 x3 0 1 (by decide) (by decide) inb_S2x4x512x64_S1x1x512x64_0_1_0_0 x).symm
  · have hn : tileNo y ≠ 2 := fun e => hm (mem_of_tileNo 0 1 (by decide) S1x1x512x64.size rfl inb_S2x4x512x64_S1x1x512x64_0_1_0_0 y (by rw [e]))
    rw [View.canon_cons_of_not_mem _ _ (by exact hm)]
    exact stored_3 c arg2 harg2 arg3 harg3 arg4 harg4 arg5 harg5 arg8 x0 x1 x2 x3 y (by omega)

theorem stored_5 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) (y : S2x4x512x64.Idx) (hy : tileNo y < 4) : View.canon (kernelRun0_A.sl.HS0_5 (F := Ideal) c arg2 harg2 arg3 harg3 arg4 harg4 arg5 harg5 arg8 x0 x1 x2 x3) y = outBlk x0 x1 x2 x3 y := by
  unfold kernelRun0_A.sl.HS0_5
  by_cases hm : y ∈ (Rect.unit (s := S2x4x512x64) ![1, 1, 0, 0] S1x1x512x64.size inb_S2x4x512x64_S1x1x512x64_1_1_0_0).set
  · obtain ⟨x, rfl⟩ := (Rect.unit (s := S2x4x512x64) ![1, 1, 0, 0] S1x1x512x64.size inb_S2x4x512x64_S1x1x512x64_1_1_0_0).exists_idx_of_mem hm
    refine (View.canon_cons_emb (Rect.unit (s := S2x4x512x64) ![1, 1, 0, 0] S1x1x512x64.size inb_S2x4x512x64_S1x1x512x64_1_1_0_0) _ _ x).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, harg2.read_unread, harg3.read_unread, harg4.read_unread, harg5.read_unread, View.ld_unit_zero (S := S2x4x512x64) hz4, View.ld_unit_zero (S := S2x4x256x64) hz4, View.ld_unit_zero (S := S1x512x256) hz3]
    rw [load_3 c arg2 harg2 arg3 harg3 arg4 harg4 arg5 harg5 arg8 x0 x1 x2 x3]
    refine (Payloads.acc1_1 x0 x1 x2 x3 _ x).trans ?_
    show k0_pay2 (F := Ideal) _ + _ = _
    rw [zero_blk, zero_add]
    exact (outBlk_at x0 x1 x2 x3 1 1 (by decide) (by decide) inb_S2x4x512x64_S1x1x512x64_1_1_0_0 x).symm
  · have hn : tileNo y ≠ 3 := fun e => hm (mem_of_tileNo 1 1 (by decide) S1x1x512x64.size rfl inb_S2x4x512x64_S1x1x512x64_1_1_0_0 y (by rw [e]))
    rw [View.canon_cons_of_not_mem _ _ (by exact hm)]
    exact stored_4 c arg2 harg2 arg3 harg3 arg4 harg4 arg5 harg5 arg8 x0 x1 x2 x3 y (by omega)

theorem stored_6 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) (y : S2x4x512x64.Idx) (hy : tileNo y < 5) : View.canon (kernelRun0_A.sl.HS0_6 (F := Ideal) c arg2 harg2 arg3 harg3 arg4 harg4 arg5 harg5 arg8 x0 x1 x2 x3) y = outBlk x0 x1 x2 x3 y := by
  unfold kernelRun0_A.sl.HS0_6
  by_cases hm : y ∈ (Rect.unit (s := S2x4x512x64) ![0, 2, 0, 0] S1x1x512x64.size inb_S2x4x512x64_S1x1x512x64_0_2_0_0).set
  · obtain ⟨x, rfl⟩ := (Rect.unit (s := S2x4x512x64) ![0, 2, 0, 0] S1x1x512x64.size inb_S2x4x512x64_S1x1x512x64_0_2_0_0).exists_idx_of_mem hm
    refine (View.canon_cons_emb (Rect.unit (s := S2x4x512x64) ![0, 2, 0, 0] S1x1x512x64.size inb_S2x4x512x64_S1x1x512x64_0_2_0_0) _ _ x).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, harg2.read_unread, harg3.read_unread, harg4.read_unread, harg5.read_unread, View.ld_unit_zero (S := S2x4x512x64) hz4, View.ld_unit_zero (S := S2x4x256x64) hz4, View.ld_unit_zero (S := S1x512x256) hz3]
    rw [load_4 c arg2 harg2 arg3 harg3 arg4 harg4 arg5 harg5 arg8 x0 x1 x2 x3]
    refine (Payloads.acc0_2 x0 x1 x2 x3 _ x).trans ?_
    show k0_pay2 (F := Ideal) _ + _ = _
    rw [zero_blk, zero_add]
    exact (outBlk_at x0 x1 x2 x3 0 2 (by decide) (by decide) inb_S2x4x512x64_S1x1x512x64_0_2_0_0 x).symm
  · have hn : tileNo y ≠ 4 := fun e => hm (mem_of_tileNo 0 2 (by decide) S1x1x512x64.size rfl inb_S2x4x512x64_S1x1x512x64_0_2_0_0 y (by rw [e]))
    rw [View.canon_cons_of_not_mem _ _ (by exact hm)]
    exact stored_5 c arg2 harg2 arg3 harg3 arg4 harg4 arg5 harg5 arg8 x0 x1 x2 x3 y (by omega)

theorem stored_7 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) (y : S2x4x512x64.Idx) (hy : tileNo y < 6) : View.canon (kernelRun0_A.sl.HS0_7 (F := Ideal) c arg2 harg2 arg3 harg3 arg4 harg4 arg5 harg5 arg8 x0 x1 x2 x3) y = outBlk x0 x1 x2 x3 y := by
  unfold kernelRun0_A.sl.HS0_7
  by_cases hm : y ∈ (Rect.unit (s := S2x4x512x64) ![1, 2, 0, 0] S1x1x512x64.size inb_S2x4x512x64_S1x1x512x64_1_2_0_0).set
  · obtain ⟨x, rfl⟩ := (Rect.unit (s := S2x4x512x64) ![1, 2, 0, 0] S1x1x512x64.size inb_S2x4x512x64_S1x1x512x64_1_2_0_0).exists_idx_of_mem hm
    refine (View.canon_cons_emb (Rect.unit (s := S2x4x512x64) ![1, 2, 0, 0] S1x1x512x64.size inb_S2x4x512x64_S1x1x512x64_1_2_0_0) _ _ x).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, harg2.read_unread, harg3.read_unread, harg4.read_unread, harg5.read_unread, View.ld_unit_zero (S := S2x4x512x64) hz4, View.ld_unit_zero (S := S2x4x256x64) hz4, View.ld_unit_zero (S := S1x512x256) hz3]
    rw [load_5 c arg2 harg2 arg3 harg3 arg4 harg4 arg5 harg5 arg8 x0 x1 x2 x3]
    refine (Payloads.acc1_2 x0 x1 x2 x3 _ x).trans ?_
    show k0_pay2 (F := Ideal) _ + _ = _
    rw [zero_blk, zero_add]
    exact (outBlk_at x0 x1 x2 x3 1 2 (by decide) (by decide) inb_S2x4x512x64_S1x1x512x64_1_2_0_0 x).symm
  · have hn : tileNo y ≠ 5 := fun e => hm (mem_of_tileNo 1 2 (by decide) S1x1x512x64.size rfl inb_S2x4x512x64_S1x1x512x64_1_2_0_0 y (by rw [e]))
    rw [View.canon_cons_of_not_mem _ _ (by exact hm)]
    exact stored_6 c arg2 harg2 arg3 harg3 arg4 harg4 arg5 harg5 arg8 x0 x1 x2 x3 y (by omega)

theorem stored_8 (c : Dev nD) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg8 : Memref sig .tc .vmem S2x4x512x64 .f32) (x0 : Vec Ideal S2x4x512x64 .f32) (x1 : Vec Ideal S2x4x256x64 .f32) (x2 : Vec Ideal S2x4x256x64 .f32) (x3 : Vec Ideal S1x512x256 .i32) (y : S2x4x512x64.Idx) (hy : tileNo y < 7) : View.canon (kernelRun0_A.sl.HS0_8 (F := Ideal) c arg2 harg2 arg3 harg3 arg4 harg4 arg5 harg5 arg8 x0 x1 x2 x3) y = outBlk x0 x1 x2 x3 y := by
  unfold kernelRun0_A.sl.HS0_8
  by_cases hm : y ∈ (Rect.unit (s := S2x4x512x64) ![0, 3, 0, 0] S1x1x512x64.size inb_S2x4x512x64_S1x1x512x64_0_3_0_0).set
  · obtain ⟨x, rfl⟩ := (Rect.unit (s := S2x4x512x64) ![0, 3, 0, 0] S1x1x512x64.size inb_S2x4x512x64_S1x1x512x64_0_3_0_0).exists_idx_of_mem hm
    refine (View.canon_cons_emb (Rect.unit (s := S2x4x512x64) ![0, 3, 0, 0] S1x1x512x64.size inb_S2x4x512x64_S1x1x512x64_0_3_0_0) _ _ x).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, harg2.read_unread, harg3.read_unread, harg4.read_unread, harg5.read_unread, View.ld_unit_zero (S := S2x4x512x64) hz4, View.ld_unit_zero (S := S2x4x256x64) hz4, View.ld_unit_zero (S := S1x512x256) hz3]
    rw [load_6 c arg2 harg2 arg3 harg3 arg4 harg4 arg5 harg5 arg8 x0 x1 x2 x3]
    refine (Payloads.acc0_3 x0 x1 x2 x3 _ x).trans ?_
    show k0_pay2 (F := Ideal) _ + _ = _
    rw [zero_blk, zero_add]
    exact (outBlk_at x0 x1 x2 x3 0 3 (by decide) (by decide) inb_S2x4x512x64_S1x1x512x64_0_3_0_0 x).symm
  · have hn : tileNo y ≠ 6 := fun e => hm (mem_of_tileNo 0 3 (by decide) S1x1x512x64.size rfl inb_S2x4x512x64_S1x1x512x64_0_3_0_0 y (by rw [e]))
    rw [View.canon_cons_of_not_mem _ _ (by exact hm)]
    exact stored_7 c arg2 harg2 arg3 harg3 arg4 harg4 arg5 harg5 arg8 x0 x1 x2 x3 y (by omega)

/-- At the first key tile of a query tile the running sum ends holding the point's share of the output sum. -/
theorem acc_A (c : Dev nD) (i : grid0.Coords) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg6 : Memref sig .tc .vmem S2x4x512x64 .f32) (harg6 : arg6.IsWhole) (arg7 : Memref sig .tc .vmem S2x4x512x256 .f32) (harg7 : arg7.IsWhole) (arg8 : Memref sig .tc .vmem S2x4x512x64 .f32) (harg8 : arg8.IsWhole) (hc0 : cond0_0 i) (hc1 : ¬cond0_1 i) (x0 : Vec Ideal S2x4x512x64 .f32) (x1 : Vec Ideal S2x4x256x64 .f32) (x2 : Vec Ideal S2x4x256x64 .f32) (x3 : Vec Ideal S1x512x256 .i32) :
    sout0_A_0 (F := Ideal) c i arg2 harg2 arg3 harg3 arg4 harg4 arg5 harg5 arg6 harg6 arg7 harg7 arg8 harg8 hc0 hc1 x0 x1 x2 x3 = outBlk x0 x1 x2 x3 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  funext y
  have hy : tileNo y < 8 := by
    have y0 : (y 0).val < 2 := (y 0).isLt
    have y1 : (y 1).val < 4 := (y 1).isLt
    unfold tileNo; omega
  by_cases hm : y ∈ (Rect.unit (s := S2x4x512x64) ![1, 3, 0, 0] S1x1x512x64.size inb_S2x4x512x64_S1x1x512x64_1_3_0_0).set
  · obtain ⟨x, rfl⟩ := (Rect.unit (s := S2x4x512x64) ![1, 3, 0, 0] S1x1x512x64.size inb_S2x4x512x64_S1x1x512x64_1_3_0_0).exists_idx_of_mem hm
    refine (View.canon_cons_emb (Rect.unit (s := S2x4x512x64) ![1, 3, 0, 0] S1x1x512x64.size inb_S2x4x512x64_S1x1x512x64_1_3_0_0) _ _ x).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, harg2.read_unread, harg3.read_unread, harg4.read_unread, harg5.read_unread, View.ld_unit_zero (S := S2x4x512x64) hz4, View.ld_unit_zero (S := S2x4x256x64) hz4, View.ld_unit_zero (S := S1x512x256) hz3]
    rw [load_7 c arg2 harg2 arg3 harg3 arg4 harg4 arg5 harg5 arg8 x0 x1 x2 x3]
    refine (Payloads.acc1_3 x0 x1 x2 x3 _ x).trans ?_
    show k0_pay2 (F := Ideal) _ + _ = _
    rw [zero_blk, zero_add]
    exact (outBlk_at x0 x1 x2 x3 1 3 (by decide) (by decide) inb_S2x4x512x64_S1x1x512x64_1_3_0_0 x).symm
  · have hn : tileNo y ≠ 7 := fun e => hm (mem_of_tileNo 1 3 (by decide) S1x1x512x64.size rfl inb_S2x4x512x64_S1x1x512x64_1_3_0_0 y (by rw [e]))
    rw [View.canon_cons_of_not_mem _ _ (by exact hm)]
    exact stored_8 c arg2 harg2 arg3 harg3 arg4 harg4 arg5 harg5 arg8 x0 x1 x2 x3 y (by omega)

end Cert.KernelIdeal.ZeroedSum

end
-- ==== Proof.LastTile.lean ====
/-
  The last key tile of a query tile: what the point leaves in the running sum, and what it copies to the output block.

  At the last key tile the body adds, for each batch entry and head, the point's share of the output sum to the
  running sum's tile of that batch entry and head — eight stores, each of one [1, 1, 512, 64] tile — and then copies
  the whole running sum to the output block. So both the running sum it leaves and the output block it writes are what
  it found in the running sum plus the point's share.
-/
import proofs.«177084_j29996051595373_1_alg».proof.Proof.Gen.KernelIdeal.Value
import proofs.«177084_j29996051595373_1_alg».proof.Proof.BlockSpec
import proofs.«177084_j29996051595373_1_alg».proof.Proof.TilePlaces
import proofs.«177084_j29996051595373_1_alg».proof.Proof.PayHead01
import proofs.«177084_j29996051595373_1_alg».proof.Proof.PayHead23
import Idealize.ShloMosaic.Lib.Pipeline.Value
import Idealize.ShloMosaic.Lib.Tactic

set_option maxRecDepth 16384

noncomputable section

namespace Cert.KernelIdeal.LastTile

open Idealize.ShloMosaic Idealize.ShloMosaic.TcCoe Idealize.SL.Sem
open Cert.KernelIdeal Cert.KernelIdeal.Gen Cert.KernelIdeal.BlockSpec Cert.KernelIdeal.TilePlaces

/-- The eight stores into the running sum leave, at every index, what the point found there plus the point's share:
    the store of batch entry b and head h holds exactly that on its tile, and the eight tiles cover the block. -/
theorem canon_stores (c : Dev nD) (i : grid0.Coords) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg6 : Memref sig .tc .vmem S2x4x512x64 .f32) (harg6 : arg6.IsWhole) (arg7 : Memref sig .tc .vmem S2x4x512x256 .f32) (harg7 : arg7.IsWhole) (arg8 : Memref sig .tc .vmem S2x4x512x64 .f32) (harg8 : arg8.IsWhole) (hc0 : ¬cond0_0 i) (hc1 : cond0_1 i) (x0 : Vec Ideal S2x4x512x64 .f32) (x1 : Vec Ideal S2x4x256x64 .f32) (x2 : Vec Ideal S2x4x256x64 .f32) (x3 : Vec Ideal S1x512x256 .i32) (xs0 : Vec Ideal S2x4x512x64 .f32) :
    View.canon (kernelRun0_C (F := Ideal) c i arg2 harg2 arg3 harg3 arg4 harg4 arg5 harg5 arg6 harg6 arg7 harg7 arg8 harg8 hc0 hc1 x0 x1 x2 x3 xs0).2.2.1 = fun y => xs0 y + outBlk x0 x1 x2 x3 y := by
  funext y
  refine View.canon_apply_of_pieces (fun y => xs0 y + outBlk x0 x1 x2 x3 y) _ ?_ y (scover0_C_0 c i arg2 harg2 arg3 harg3 arg4 harg4 arg5 harg5 arg6 harg6 arg7 harg7 arg8 harg8 hc0 hc1 x0 x1 x2 x3 xs0 y)
  unfold kernelRun0_C
  dsimp only
  sl_unfold_words
  simp only [View.readAt_eq_ld, harg2.read_unread, harg3.read_unread, harg4.read_unread, harg5.read_unread, harg8.read_unread, View.ld_unit_zero (S := S2x4x512x64) hz4, View.ld_unit_zero (S := S2x4x256x64) hz4, View.ld_unit_zero (S := S1x512x256) hz3]
  intro p hp
  simp only [List.mem_cons, List.mem_nil_iff, or_false] at hp
  rcases hp with rfl | rfl | rfl | rfl | rfl | rfl | rfl | rfl
  · intro x
    dsimp only
    refine (Payloads.acc1_3 x0 x1 x2 x3 _ x).trans ?_
    exact congrArg (_ + ·) (outBlk_at x0 x1 x2 x3 1 3 (by decide) (by decide) inb_S2x4x512x64_S1x1x512x64_1_3_0_0 x).symm
  · intro x
    dsimp only
    refine (Payloads.acc0_3 x0 x1 x2 x3 _ x).trans ?_
    exact congrArg (_ + ·) (outBlk_at x0 x1 x2 x3 0 3 (by decide) (by decide) inb_S2x4x512x64_S1x1x512x64_0_3_0_0 x).symm
  · intro x
    dsimp only
    refine (Payloads.acc1_2 x0 x1 x2 x3 _ x).trans ?_
    exact congrArg (_ + ·) (outBlk_at x0 x1 x2 x3 1 2 (by decide) (by decide) inb_S2x4x512x64_S1x1x512x64_1_2_0_0 x).symm
  · intro x
    dsimp only
    refine (Payloads.acc0_2 x0 x1 x2 x3 _ x).trans ?_
    exact congrArg (_ + ·) (outBlk_at x0 x1 x2 x3 0 2 (by decide) (by decide) inb_S2x4x512x64_S1x1x512x64_0_2_0_0 x).symm
  · intro x
    dsimp only
    refine (Payloads.acc1_1 x0 x1 x2 x3 _ x).trans ?_
    exact congrArg (_ + ·) (outBlk_at x0 x1 x2 x3 1 1 (by decide) (by decide) inb_S2x4x512x64_S1x1x512x64_1_1_0_0 x).symm
  · intro x
    dsimp only
    refine (Payloads.acc0_1 x0 x1 x2 x3 _ x).trans ?_
    exact congrArg (_ + ·) (outBlk_at x0 x1 x2 x3 0 1 (by decide) (by decide) inb_S2x4x512x64_S1x1x512x64_0_1_0_0 x).symm
  · intro x
    dsimp only
    refine (Payloads.acc1_0 x0 x1 x2 x3 _ x).trans ?_
    exact congrArg (_ + ·) (outBlk_at x0 x1 x2 x3 1 0 (by decide) (by decide) inb_S2x4x512x64_S1x1x512x64_1_0_0_0 x).symm
  · intro x
    dsimp only
    refine (Payloads.acc0_0 x0 x1 x2 x3 _ x).trans ?_
    exact congrArg (_ + ·) (outBlk_at x0 x1 x2 x3 0 0 (by decide) (by decide) inb_S2x4x512x64_S1x1x512x64_0_0_0_0 x).symm

theorem acc_C (c : Dev nD) (i : grid0.Coords) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg6 : Memref sig .tc .vmem S2x4x512x64 .f32) (harg6 : arg6.IsWhole) (arg7 : Memref sig .tc .vmem S2x4x512x256 .f32) (harg7 : arg7.IsWhole) (arg8 : Memref sig .tc .vmem S2x4x512x64 .f32) (harg8 : arg8.IsWhole) (hc0 : ¬cond0_0 i) (hc1 : cond0_1 i) (x0 : Vec Ideal S2x4x512x64 .f32) (x1 : Vec Ideal S2x4x256x64 .f32) (x2 : Vec Ideal S2x4x256x64 .f32) (x3 : Vec Ideal S1x512x256 .i32) (xs0 : Vec Ideal S2x4x512x64 .f32) :
    sout0_C_0 (F := Ideal) c i arg2 harg2 arg3 harg3 arg4 harg4 arg5 harg5 arg6 harg6 arg7 harg7 arg8 harg8 hc0 hc1 x0 x1 x2 x3 xs0 = fun y => xs0 y + outBlk x0 x1 x2 x3 y := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  exact canon_stores c i arg2 harg2 arg3 harg3 arg4 harg4 arg5 harg5 arg6 harg6 arg7 harg7 arg8 harg8 hc0 hc1 x0 x1 x2 x3 xs0

theorem out_C (c : Dev nD) (i : grid0.Coords) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg6 : Memref sig .tc .vmem S2x4x512x64 .f32) (harg6 : arg6.IsWhole) (arg7 : Memref sig .tc .vmem S2x4x512x256 .f32) (harg7 : arg7.IsWhole) (arg8 : Memref sig .tc .vmem S2x4x512x64 .f32) (harg8 : arg8.IsWhole) (hc0 : ¬cond0_0 i) (hc1 : cond0_1 i) (x0 : Vec Ideal S2x4x512x64 .f32) (x1 : Vec Ideal S2x4x256x64 .f32) (x2 : Vec Ideal S2x4x256x64 .f32) (x3 : Vec Ideal S1x512x256 .i32) (xs0 : Vec Ideal S2x4x512x64 .f32) :
    out0_C_4 (F := Ideal) c i arg2 harg2 arg3 harg3 arg4 harg4 arg5 harg5 arg6 harg6 arg7 harg7 arg8 harg8 hc0 hc1 x0 x1 x2 x3 xs0 = fun y => xs0 y + outBlk x0 x1 x2 x3 y := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  refine Eq.trans (?_ : _ = arg8.view.readCov (kernelRun0_C (F := Ideal) c i arg2 harg2 arg3 harg3 arg4 harg4 arg5 harg5 arg6 harg6 arg7 harg7 arg8 harg8 hc0 hc1 x0 x1 x2 x3 xs0).2.2.1
      (Rect.unit ![0, 0, 0, 0] S2x4x512x64.size inb_S2x4x512x64_S2x4x512x64_0_0_0_0).toLoadRect) ?_
  · unfold kernelRun0_C
    dsimp only
    rw [View.canon_unit_zero hz4]
    rfl
  · rw [View.readCov_eq_canon_ld _ _ _ (scover0_C_0 c i arg2 harg2 arg3 harg3 arg4 harg4 arg5 harg5 arg6 harg6 arg7 harg7 arg8 harg8 hc0 hc1 x0 x1 x2 x3 xs0), canon_stores c i arg2 harg2 arg3 harg3 arg4 harg4 arg5 harg5 arg6 harg6 arg7 harg7 arg8 harg8 hc0 hc1 x0 x1 x2 x3 xs0, View.ld_unit_zero (S := S2x4x512x64) hz4]

end Cert.KernelIdeal.LastTile

end
-- ==== Proof.PieceFacts.lean ====
/-
  What one grid point leaves behind, case by case.

  The body runs in three cases: at the first key tile of a query tile it zeroes the running sum before adding; at the
  middle key tiles it only adds; at the last key tile it adds and copies the running sum to the output block. In every
  case the probabilities' block it leaves is the point's tile of probabilities, and the running sum it leaves is what it
  found (zero, at the first key tile) plus the point's share of the output sum.

  Each block is written by eight stores, one per (batch entry, head) tile; a store's payload at its own index is the
  tile's entry there, and the store sits at that tile's place in the block, so the block is the tile function itself.
-/
import proofs.«177084_j29996051595373_1_alg».proof.Proof.Gen.KernelIdeal.Value
import proofs.«177084_j29996051595373_1_alg».proof.Proof.BlockSpec
import proofs.«177084_j29996051595373_1_alg».proof.Proof.TilePlaces
import proofs.«177084_j29996051595373_1_alg».proof.Proof.PayHead01
import proofs.«177084_j29996051595373_1_alg».proof.Proof.PayHead23
import proofs.«177084_j29996051595373_1_alg».proof.Proof.ZeroedSum
import proofs.«177084_j29996051595373_1_alg».proof.Proof.LastTile
import Idealize.ShloMosaic.Lib.Pipeline.Value
import Idealize.ShloMosaic.Lib.Pipeline.CanonAppend
import Idealize.ShloMosaic.Lib.Tactic

set_option maxRecDepth 16384

noncomputable section

namespace Cert.KernelIdeal.PieceFacts

open Idealize.ShloMosaic Idealize.ShloMosaic.TcCoe Idealize.SL.Sem
open Cert.KernelIdeal Cert.KernelIdeal.Gen Cert.KernelIdeal.BlockSpec Cert.KernelIdeal.TilePlaces

theorem attn_A (c : Dev nD) (i : grid0.Coords) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg6 : Memref sig .tc .vmem S2x4x512x64 .f32) (harg6 : arg6.IsWhole) (arg7 : Memref sig .tc .vmem S2x4x512x256 .f32) (harg7 : arg7.IsWhole) (arg8 : Memref sig .tc .vmem S2x4x512x64 .f32) (harg8 : arg8.IsWhole) (hc0 : cond0_0 i) (hc1 : ¬cond0_1 i) (x0 : Vec Ideal S2x4x512x64 .f32) (x1 : Vec Ideal S2x4x256x64 .f32) (x2 : Vec Ideal S2x4x256x64 .f32) (x3 : Vec Ideal S1x512x256 .i32) :
    out0_A_5 (F := Ideal) c i arg2 harg2 arg3 harg3 arg4 harg4 arg5 harg5 arg6 harg6 arg7 harg7 arg8 harg8 hc0 hc1 x0 x1 x2 x3 = attnBlk x0 x1 x3 := by
  unfold out0_A_5
  rw [View.read_writes_eq_canon _ _ _ (cover0_A_5 c i arg2 harg2 arg3 harg3 arg4 harg4 arg5 harg5 arg6 harg6 arg7 harg7 arg8 harg8 hc0 hc1 x0 x1 x2 x3)]
  funext y
  refine View.canon_apply_of_pieces (attnBlk x0 x1 x3) _ ?_ y (cover0_A_5 c i arg2 harg2 arg3 harg3 arg4 harg4 arg5 harg5 arg6 harg6 arg7 harg7 arg8 harg8 hc0 hc1 x0 x1 x2 x3 y)
  unfold kernelRun0_A
  dsimp only
  sl_unfold_words
  simp only [View.readAt_eq_ld, harg2.read_unread, harg3.read_unread, harg4.read_unread, harg5.read_unread, harg8.read_unread, View.ld_unit_zero (S := S2x4x512x64) hz4, View.ld_unit_zero (S := S2x4x256x64) hz4, View.ld_unit_zero (S := S1x512x256) hz3]
  intro p hp
  simp only [List.mem_cons, List.mem_nil_iff, or_false] at hp
  rcases hp with rfl | rfl | rfl | rfl | rfl | rfl | rfl | rfl
  · intro x
    exact (Payloads.attn1_3 x0 x1 x3 x).trans
      (attnBlk_at x0 x1 x3 1 3 (by decide) (by decide) inb_S2x4x512x256_S1x1x512x256_1_3_0_0 x).symm
  · intro x
    exact (Payloads.attn0_3 x0 x1 x3 x).trans
      (attnBlk_at x0 x1 x3 0 3 (by decide) (by decide) inb_S2x4x512x256_S1x1x512x256_0_3_0_0 x).symm
  · intro x
    exact (Payloads.attn1_2 x0 x1 x3 x).trans
      (attnBlk_at x0 x1 x3 1 2 (by decide) (by decide) inb_S2x4x512x256_S1x1x512x256_1_2_0_0 x).symm
  · intro x
    exact (Payloads.attn0_2 x0 x1 x3 x).trans
      (attnBlk_at x0 x1 x3 0 2 (by decide) (by decide) inb_S2x4x512x256_S1x1x512x256_0_2_0_0 x).symm
  · intro x
    exact (Payloads.attn1_1 x0 x1 x3 x).trans
      (attnBlk_at x0 x1 x3 1 1 (by decide) (by decide) inb_S2x4x512x256_S1x1x512x256_1_1_0_0 x).symm
  · intro x
    exact (Payloads.attn0_1 x0 x1 x3 x).trans
      (attnBlk_at x0 x1 x3 0 1 (by decide) (by decide) inb_S2x4x512x256_S1x1x512x256_0_1_0_0 x).symm
  · intro x
    exact (Payloads.attn1_0 x0 x1 x3 x).trans
      (attnBlk_at x0 x1 x3 1 0 (by decide) (by decide) inb_S2x4x512x256_S1x1x512x256_1_0_0_0 x).symm
  · intro x
    exact (Payloads.attn0_0 x0 x1 x3 x).trans
      (attnBlk_at x0 x1 x3 0 0 (by decide) (by decide) inb_S2x4x512x256_S1x1x512x256_0_0_0_0 x).symm

theorem attn_B (c : Dev nD) (i : grid0.Coords) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg6 : Memref sig .tc .vmem S2x4x512x64 .f32) (harg6 : arg6.IsWhole) (arg7 : Memref sig .tc .vmem S2x4x512x256 .f32) (harg7 : arg7.IsWhole) (arg8 : Memref sig .tc .vmem S2x4x512x64 .f32) (harg8 : arg8.IsWhole) (hc0 : ¬cond0_0 i) (hc1 : ¬cond0_1 i) (x0 : Vec Ideal S2x4x512x64 .f32) (x1 : Vec Ideal S2x4x256x64 .f32) (x2 : Vec Ideal S2x4x256x64 .f32) (x3 : Vec Ideal S1x512x256 .i32) (xs0 : Vec Ideal S2x4x512x64 .f32) :
    out0_B_5 (F := Ideal) c i arg2 harg2 arg3 harg3 arg4 harg4 arg5 harg5 arg6 harg6 arg7 harg7 arg8 harg8 hc0 hc1 x0 x1 x2 x3 xs0 = attnBlk x0 x1 x3 := by
  unfold out0_B_5
  rw [View.read_writes_eq_canon _ _ _ (cover0_B_5 c i arg2 harg2 arg3 harg3 arg4 harg4 arg5 harg5 arg6 harg6 arg7 harg7 arg8 harg8 hc0 hc1 x0 x1 x2 x3 xs0)]
  funext y
  refine View.canon_apply_of_pieces (attnBlk x0 x1 x3) _ ?_ y (cover0_B_5 c i arg2 harg2 arg3 harg3 arg4 harg4 arg5 harg5 arg6 harg6 arg7 harg7 arg8 harg8 hc0 hc1 x0 x1 x2 x3 xs0 y)
  unfold kernelRun0_B
  dsimp only
  sl_unfold_words
  simp only [View.readAt_eq_ld, harg2.read_unread, harg3.read_unread, harg4.read_unread, harg5.read_unread, harg8.read_unread, View.ld_unit_zero (S := S2x4x512x64) hz4, View.ld_unit_zero (S := S2x4x256x64) hz4, View.ld_unit_zero (S := S1x512x256) hz3]
  intro p hp
  simp only [List.mem_cons, List.mem_nil_iff, or_false] at hp
  rcases hp with rfl | rfl | rfl | rfl | rfl | rfl | rfl | rfl
  · intro x
    exact (Payloads.attn1_3 x0 x1 x3 x).trans
      (attnBlk_at x0 x1 x3 1 3 (by decide) (by decide) inb_S2x4x512x256_S1x1x512x256_1_3_0_0 x).symm
  · intro x
    exact (Payloads.attn0_3 x0 x1 x3 x).trans
      (attnBlk_at x0 x1 x3 0 3 (by decide) (by decide) inb_S2x4x512x256_S1x1x512x256_0_3_0_0 x).symm
  · intro x
    exact (Payloads.attn1_2 x0 x1 x3 x).trans
      (attnBlk_at x0 x1 x3 1 2 (by decide) (by decide) inb_S2x4x512x256_S1x1x512x256_1_2_0_0 x).symm
  · intro x
    exact (Payloads.attn0_2 x0 x1 x3 x).trans
      (attnBlk_at x0 x1 x3 0 2 (by decide) (by decide) inb_S2x4x512x256_S1x1x512x256_0_2_0_0 x).symm
  · intro x
    exact (Payloads.attn1_1 x0 x1 x3 x).trans
      (attnBlk_at x0 x1 x3 1 1 (by decide) (by decide) inb_S2x4x512x256_S1x1x512x256_1_1_0_0 x).symm
  · intro x
    exact (Payloads.attn0_1 x0 x1 x3 x).trans
      (attnBlk_at x0 x1 x3 0 1 (by decide) (by decide) inb_S2x4x512x256_S1x1x512x256_0_1_0_0 x).symm
  · intro x
    exact (Payloads.attn1_0 x0 x1 x3 x).trans
      (attnBlk_at x0 x1 x3 1 0 (by decide) (by decide) inb_S2x4x512x256_S1x1x512x256_1_0_0_0 x).symm
  · intro x
    exact (Payloads.attn0_0 x0 x1 x3 x).trans
      (attnBlk_at x0 x1 x3 0 0 (by decide) (by decide) inb_S2x4x512x256_S1x1x512x256_0_0_0_0 x).symm

theorem attn_C (c : Dev nD) (i : grid0.Coords) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg6 : Memref sig .tc .vmem S2x4x512x64 .f32) (harg6 : arg6.IsWhole) (arg7 : Memref sig .tc .vmem S2x4x512x256 .f32) (harg7 : arg7.IsWhole) (arg8 : Memref sig .tc .vmem S2x4x512x64 .f32) (harg8 : arg8.IsWhole) (hc0 : ¬cond0_0 i) (hc1 : cond0_1 i) (x0 : Vec Ideal S2x4x512x64 .f32) (x1 : Vec Ideal S2x4x256x64 .f32) (x2 : Vec Ideal S2x4x256x64 .f32) (x3 : Vec Ideal S1x512x256 .i32) (xs0 : Vec Ideal S2x4x512x64 .f32) :
    out0_C_5 (F := Ideal) c i arg2 harg2 arg3 harg3 arg4 harg4 arg5 harg5 arg6 harg6 arg7 harg7 arg8 harg8 hc0 hc1 x0 x1 x2 x3 xs0 = attnBlk x0 x1 x3 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  funext y
  refine View.canon_apply_of_pieces (attnBlk x0 x1 x3) _ ?_ y (cover0_C_5 c i arg2 harg2 arg3 harg3 arg4 harg4 arg5 harg5 arg6 harg6 arg7 harg7 arg8 harg8 hc0 hc1 x0 x1 x2 x3 xs0 y)
  unfold kernelRun0_C
  dsimp only
  sl_unfold_words
  simp only [View.readAt_eq_ld, harg2.read_unread, harg3.read_unread, harg4.read_unread, harg5.read_unread, harg8.read_unread, View.ld_unit_zero (S := S2x4x512x64) hz4, View.ld_unit_zero (S := S2x4x256x64) hz4, View.ld_unit_zero (S := S1x512x256) hz3]
  intro p hp
  simp only [List.mem_cons, List.mem_nil_iff, or_false] at hp
  rcases hp with rfl | rfl | rfl | rfl | rfl | rfl | rfl | rfl
  · intro x
    exact (Payloads.attn1_3 x0 x1 x3 x).trans
      (attnBlk_at x0 x1 x3 1 3 (by decide) (by decide) inb_S2x4x512x256_S1x1x512x256_1_3_0_0 x).symm
  · intro x
    exact (Payloads.attn0_3 x0 x1 x3 x).trans
      (attnBlk_at x0 x1 x3 0 3 (by decide) (by decide) inb_S2x4x512x256_S1x1x512x256_0_3_0_0 x).symm
  · intro x
    exact (Payloads.attn1_2 x0 x1 x3 x).trans
      (attnBlk_at x0 x1 x3 1 2 (by decide) (by decide) inb_S2x4x512x256_S1x1x512x256_1_2_0_0 x).symm
  · intro x
    exact (Payloads.attn0_2 x0 x1 x3 x).trans
      (attnBlk_at x0 x1 x3 0 2 (by decide) (by decide) inb_S2x4x512x256_S1x1x512x256_0_2_0_0 x).symm
  · intro x
    exact (Payloads.attn1_1 x0 x1 x3 x).trans
      (attnBlk_at x0 x1 x3 1 1 (by decide) (by decide) inb_S2x4x512x256_S1x1x512x256_1_1_0_0 x).symm
  · intro x
    exact (Payloads.attn0_1 x0 x1 x3 x).trans
      (attnBlk_at x0 x1 x3 0 1 (by decide) (by decide) inb_S2x4x512x256_S1x1x512x256_0_1_0_0 x).symm
  · intro x
    exact (Payloads.attn1_0 x0 x1 x3 x).trans
      (attnBlk_at x0 x1 x3 1 0 (by decide) (by decide) inb_S2x4x512x256_S1x1x512x256_1_0_0_0 x).symm
  · intro x
    exact (Payloads.attn0_0 x0 x1 x3 x).trans
      (attnBlk_at x0 x1 x3 0 0 (by decide) (by decide) inb_S2x4x512x256_S1x1x512x256_0_0_0_0 x).symm

theorem acc_A (c : Dev nD) (i : grid0.Coords) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg6 : Memref sig .tc .vmem S2x4x512x64 .f32) (harg6 : arg6.IsWhole) (arg7 : Memref sig .tc .vmem S2x4x512x256 .f32) (harg7 : arg7.IsWhole) (arg8 : Memref sig .tc .vmem S2x4x512x64 .f32) (harg8 : arg8.IsWhole) (hc0 : cond0_0 i) (hc1 : ¬cond0_1 i) (x0 : Vec Ideal S2x4x512x64 .f32) (x1 : Vec Ideal S2x4x256x64 .f32) (x2 : Vec Ideal S2x4x256x64 .f32) (x3 : Vec Ideal S1x512x256 .i32) :
    sout0_A_0 (F := Ideal) c i arg2 harg2 arg3 harg3 arg4 harg4 arg5 harg5 arg6 harg6 arg7 harg7 arg8 harg8 hc0 hc1 x0 x1 x2 x3 = outBlk x0 x1 x2 x3 :=
  ZeroedSum.acc_A c i arg2 harg2 arg3 harg3 arg4 harg4 arg5 harg5 arg6 harg6 arg7 harg7 arg8 harg8 hc0 hc1 x0 x1 x2 x3

theorem acc_B (c : Dev nD) (i : grid0.Coords) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg6 : Memref sig .tc .vmem S2x4x512x64 .f32) (harg6 : arg6.IsWhole) (arg7 : Memref sig .tc .vmem S2x4x512x256 .f32) (harg7 : arg7.IsWhole) (arg8 : Memref sig .tc .vmem S2x4x512x64 .f32) (harg8 : arg8.IsWhole) (hc0 : ¬cond0_0 i) (hc1 : ¬cond0_1 i) (x0 : Vec Ideal S2x4x512x64 .f32) (x1 : Vec Ideal S2x4x256x64 .f32) (x2 : Vec Ideal S2x4x256x64 .f32) (x3 : Vec Ideal S1x512x256 .i32) (xs0 : Vec Ideal S2x4x512x64 .f32) :
    sout0_B_0 (F := Ideal) c i arg2 harg2 arg3 harg3 arg4 harg4 arg5 harg5 arg6 harg6 arg7 harg7 arg8 harg8 hc0 hc1 x0 x1 x2 x3 xs0 = fun y => xs0 y + outBlk x0 x1 x2 x3 y := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  funext y
  refine View.canon_apply_of_pieces (fun y => xs0 y + outBlk x0 x1 x2 x3 y) _ ?_ y (scover0_B_0 c i arg2 harg2 arg3 harg3 arg4 harg4 arg5 harg5 arg6 harg6 arg7 harg7 arg8 harg8 hc0 hc1 x0 x1 x2 x3 xs0 y)
  unfold kernelRun0_B
  dsimp only
  sl_unfold_words
  simp only [View.readAt_eq_ld, harg2.read_unread, harg3.read_unread, harg4.read_unread, harg5.read_unread, harg8.read_unread, View.ld_unit_zero (S := S2x4x512x64) hz4, View.ld_unit_zero (S := S2x4x256x64) hz4, View.ld_unit_zero (S := S1x512x256) hz3]
  intro p hp
  simp only [List.mem_cons, List.mem_nil_iff, or_false] at hp
  rcases hp with rfl | rfl | rfl | rfl | rfl | rfl | rfl | rfl
  · intro x
    exact (Payloads.acc1_3 x0 x1 x2 x3 (View.ld xs0 (Rect.unit (s := S2x4x512x64) ![1, 3, 0, 0] ![1, 1, 512, 64] inb_S2x4x512x64_S1x1x512x64_1_3_0_0)) x).trans
      (congrArg (fun v => xs0 ((Rect.unit (s := S2x4x512x64) ![1, 3, 0, 0] ![1, 1, 512, 64] inb_S2x4x512x64_S1x1x512x64_1_3_0_0).emb x) + v)
        (outBlk_at x0 x1 x2 x3 1 3 (by decide) (by decide) inb_S2x4x512x64_S1x1x512x64_1_3_0_0 x).symm)
  · intro x
    exact (Payloads.acc0_3 x0 x1 x2 x3 (View.ld xs0 (Rect.unit (s := S2x4x512x64) ![0, 3, 0, 0] ![1, 1, 512, 64] inb_S2x4x512x64_S1x1x512x64_0_3_0_0)) x).trans
      (congrArg (fun v => xs0 ((Rect.unit (s := S2x4x512x64) ![0, 3, 0, 0] ![1, 1, 512, 64] inb_S2x4x512x64_S1x1x512x64_0_3_0_0).emb x) + v)
        (outBlk_at x0 x1 x2 x3 0 3 (by decide) (by decide) inb_S2x4x512x64_S1x1x512x64_0_3_0_0 x).symm)
  · intro x
    exact (Payloads.acc1_2 x0 x1 x2 x3 (View.ld xs0 (Rect.unit (s := S2x4x512x64) ![1, 2, 0, 0] ![1, 1, 512, 64] inb_S2x4x512x64_S1x1x512x64_1_2_0_0)) x).trans
      (congrArg (fun v => xs0 ((Rect.unit (s := S2x4x512x64) ![1, 2, 0, 0] ![1, 1, 512, 64] inb_S2x4x512x64_S1x1x512x64_1_2_0_0).emb x) + v)
        (outBlk_at x0 x1 x2 x3 1 2 (by decide) (by decide) inb_S2x4x512x64_S1x1x512x64_1_2_0_0 x).symm)
  · intro x
    exact (Payloads.acc0_2 x0 x1 x2 x3 (View.ld xs0 (Rect.unit (s := S2x4x512x64) ![0, 2, 0, 0] ![1, 1, 512, 64] inb_S2x4x512x64_S1x1x512x64_0_2_0_0)) x).trans
      (congrArg (fun v => xs0 ((Rect.unit (s := S2x4x512x64) ![0, 2, 0, 0] ![1, 1, 512, 64] inb_S2x4x512x64_S1x1x512x64_0_2_0_0).emb x) + v)
        (outBlk_at x0 x1 x2 x3 0 2 (by decide) (by decide) inb_S2x4x512x64_S1x1x512x64_0_2_0_0 x).symm)
  · intro x
    exact (Payloads.acc1_1 x0 x1 x2 x3 (View.ld xs0 (Rect.unit (s := S2x4x512x64) ![1, 1, 0, 0] ![1, 1, 512, 64] inb_S2x4x512x64_S1x1x512x64_1_1_0_0)) x).trans
      (congrArg (fun v => xs0 ((Rect.unit (s := S2x4x512x64) ![1, 1, 0, 0] ![1, 1, 512, 64] inb_S2x4x512x64_S1x1x512x64_1_1_0_0).emb x) + v)
        (outBlk_at x0 x1 x2 x3 1 1 (by decide) (by decide) inb_S2x4x512x64_S1x1x512x64_1_1_0_0 x).symm)
  · intro x
    exact (Payloads.acc0_1 x0 x1 x2 x3 (View.ld xs0 (Rect.unit (s := S2x4x512x64) ![0, 1, 0, 0] ![1, 1, 512, 64] inb_S2x4x512x64_S1x1x512x64_0_1_0_0)) x).trans
      (congrArg (fun v => xs0 ((Rect.unit (s := S2x4x512x64) ![0, 1, 0, 0] ![1, 1, 512, 64] inb_S2x4x512x64_S1x1x512x64_0_1_0_0).emb x) + v)
        (outBlk_at x0 x1 x2 x3 0 1 (by decide) (by decide) inb_S2x4x512x64_S1x1x512x64_0_1_0_0 x).symm)
  · intro x
    exact (Payloads.acc1_0 x0 x1 x2 x3 (View.ld xs0 (Rect.unit (s := S2x4x512x64) ![1, 0, 0, 0] ![1, 1, 512, 64] inb_S2x4x512x64_S1x1x512x64_1_0_0_0)) x).trans
      (congrArg (fun v => xs0 ((Rect.unit (s := S2x4x512x64) ![1, 0, 0, 0] ![1, 1, 512, 64] inb_S2x4x512x64_S1x1x512x64_1_0_0_0).emb x) + v)
        (outBlk_at x0 x1 x2 x3 1 0 (by decide) (by decide) inb_S2x4x512x64_S1x1x512x64_1_0_0_0 x).symm)
  · intro x
    exact (Payloads.acc0_0 x0 x1 x2 x3 (View.ld xs0 (Rect.unit (s := S2x4x512x64) ![0, 0, 0, 0] ![1, 1, 512, 64] inb_S2x4x512x64_S1x1x512x64_0_0_0_0)) x).trans
      (congrArg (fun v => xs0 ((Rect.unit (s := S2x4x512x64) ![0, 0, 0, 0] ![1, 1, 512, 64] inb_S2x4x512x64_S1x1x512x64_0_0_0_0).emb x) + v)
        (outBlk_at x0 x1 x2 x3 0 0 (by decide) (by decide) inb_S2x4x512x64_S1x1x512x64_0_0_0_0 x).symm)

theorem acc_C (c : Dev nD) (i : grid0.Coords) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg6 : Memref sig .tc .vmem S2x4x512x64 .f32) (harg6 : arg6.IsWhole) (arg7 : Memref sig .tc .vmem S2x4x512x256 .f32) (harg7 : arg7.IsWhole) (arg8 : Memref sig .tc .vmem S2x4x512x64 .f32) (harg8 : arg8.IsWhole) (hc0 : ¬cond0_0 i) (hc1 : cond0_1 i) (x0 : Vec Ideal S2x4x512x64 .f32) (x1 : Vec Ideal S2x4x256x64 .f32) (x2 : Vec Ideal S2x4x256x64 .f32) (x3 : Vec Ideal S1x512x256 .i32) (xs0 : Vec Ideal S2x4x512x64 .f32) :
    sout0_C_0 (F := Ideal) c i arg2 harg2 arg3 harg3 arg4 harg4 arg5 harg5 arg6 harg6 arg7 harg7 arg8 harg8 hc0 hc1 x0 x1 x2 x3 xs0 = fun y => xs0 y + outBlk x0 x1 x2 x3 y := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  funext y
  refine View.canon_apply_of_pieces (fun y => xs0 y + outBlk x0 x1 x2 x3 y) _ ?_ y (scover0_C_0 c i arg2 harg2 arg3 harg3 arg4 harg4 arg5 harg5 arg6 harg6 arg7 harg7 arg8 harg8 hc0 hc1 x0 x1 x2 x3 xs0 y)
  unfold kernelRun0_C
  dsimp only
  sl_unfold_words
  simp only [View.readAt_eq_ld, harg2.read_unread, harg3.read_unread, harg4.read_unread, harg5.read_unread, harg8.read_unread, View.ld_unit_zero (S := S2x4x512x64) hz4, View.ld_unit_zero (S := S2x4x256x64) hz4, View.ld_unit_zero (S := S1x512x256) hz3]
  intro p hp
  simp only [List.mem_cons, List.mem_nil_iff, or_false] at hp
  rcases hp with rfl | rfl | rfl | rfl | rfl | rfl | rfl | rfl
  · intro x
    exact (Payloads.acc1_3 x0 x1 x2 x3 (View.ld xs0 (Rect.unit (s := S2x4x512x64) ![1, 3, 0, 0] ![1, 1, 512, 64] inb_S2x4x512x64_S1x1x512x64_1_3_0_0)) x).trans
      (congrArg (fun v => xs0 ((Rect.unit (s := S2x4x512x64) ![1, 3, 0, 0] ![1, 1, 512, 64] inb_S2x4x512x64_S1x1x512x64_1_3_0_0).emb x) + v)
        (outBlk_at x0 x1 x2 x3 1 3 (by decide) (by decide) inb_S2x4x512x64_S1x1x512x64_1_3_0_0 x).symm)
  · intro x
    exact (Payloads.acc0_3 x0 x1 x2 x3 (View.ld xs0 (Rect.unit (s := S2x4x512x64) ![0, 3, 0, 0] ![1, 1, 512, 64] inb_S2x4x512x64_S1x1x512x64_0_3_0_0)) x).trans
      (congrArg (fun v => xs0 ((Rect.unit (s := S2x4x512x64) ![0, 3, 0, 0] ![1, 1, 512, 64] inb_S2x4x512x64_S1x1x512x64_0_3_0_0).emb x) + v)
        (outBlk_at x0 x1 x2 x3 0 3 (by decide) (by decide) inb_S2x4x512x64_S1x1x512x64_0_3_0_0 x).symm)
  · intro x
    exact (Payloads.acc1_2 x0 x1 x2 x3 (View.ld xs0 (Rect.unit (s := S2x4x512x64) ![1, 2, 0, 0] ![1, 1, 512, 64] inb_S2x4x512x64_S1x1x512x64_1_2_0_0)) x).trans
      (congrArg (fun v => xs0 ((Rect.unit (s := S2x4x512x64) ![1, 2, 0, 0] ![1, 1, 512, 64] inb_S2x4x512x64_S1x1x512x64_1_2_0_0).emb x) + v)
        (outBlk_at x0 x1 x2 x3 1 2 (by decide) (by decide) inb_S2x4x512x64_S1x1x512x64_1_2_0_0 x).symm)
  · intro x
    exact (Payloads.acc0_2 x0 x1 x2 x3 (View.ld xs0 (Rect.unit (s := S2x4x512x64) ![0, 2, 0, 0] ![1, 1, 512, 64] inb_S2x4x512x64_S1x1x512x64_0_2_0_0)) x).trans
      (congrArg (fun v => xs0 ((Rect.unit (s := S2x4x512x64) ![0, 2, 0, 0] ![1, 1, 512, 64] inb_S2x4x512x64_S1x1x512x64_0_2_0_0).emb x) + v)
        (outBlk_at x0 x1 x2 x3 0 2 (by decide) (by decide) inb_S2x4x512x64_S1x1x512x64_0_2_0_0 x).symm)
  · intro x
    exact (Payloads.acc1_1 x0 x1 x2 x3 (View.ld xs0 (Rect.unit (s := S2x4x512x64) ![1, 1, 0, 0] ![1, 1, 512, 64] inb_S2x4x512x64_S1x1x512x64_1_1_0_0)) x).trans
      (congrArg (fun v => xs0 ((Rect.unit (s := S2x4x512x64) ![1, 1, 0, 0] ![1, 1, 512, 64] inb_S2x4x512x64_S1x1x512x64_1_1_0_0).emb x) + v)
        (outBlk_at x0 x1 x2 x3 1 1 (by decide) (by decide) inb_S2x4x512x64_S1x1x512x64_1_1_0_0 x).symm)
  · intro x
    exact (Payloads.acc0_1 x0 x1 x2 x3 (View.ld xs0 (Rect.unit (s := S2x4x512x64) ![0, 1, 0, 0] ![1, 1, 512, 64] inb_S2x4x512x64_S1x1x512x64_0_1_0_0)) x).trans
      (congrArg (fun v => xs0 ((Rect.unit (s := S2x4x512x64) ![0, 1, 0, 0] ![1, 1, 512, 64] inb_S2x4x512x64_S1x1x512x64_0_1_0_0).emb x) + v)
        (outBlk_at x0 x1 x2 x3 0 1 (by decide) (by decide) inb_S2x4x512x64_S1x1x512x64_0_1_0_0 x).symm)
  · intro x
    exact (Payloads.acc1_0 x0 x1 x2 x3 (View.ld xs0 (Rect.unit (s := S2x4x512x64) ![1, 0, 0, 0] ![1, 1, 512, 64] inb_S2x4x512x64_S1x1x512x64_1_0_0_0)) x).trans
      (congrArg (fun v => xs0 ((Rect.unit (s := S2x4x512x64) ![1, 0, 0, 0] ![1, 1, 512, 64] inb_S2x4x512x64_S1x1x512x64_1_0_0_0).emb x) + v)
        (outBlk_at x0 x1 x2 x3 1 0 (by decide) (by decide) inb_S2x4x512x64_S1x1x512x64_1_0_0_0 x).symm)
  · intro x
    exact (Payloads.acc0_0 x0 x1 x2 x3 (View.ld xs0 (Rect.unit (s := S2x4x512x64) ![0, 0, 0, 0] ![1, 1, 512, 64] inb_S2x4x512x64_S1x1x512x64_0_0_0_0)) x).trans
      (congrArg (fun v => xs0 ((Rect.unit (s := S2x4x512x64) ![0, 0, 0, 0] ![1, 1, 512, 64] inb_S2x4x512x64_S1x1x512x64_0_0_0_0).emb x) + v)
        (outBlk_at x0 x1 x2 x3 0 0 (by decide) (by decide) inb_S2x4x512x64_S1x1x512x64_0_0_0_0 x).symm)

theorem out_C (c : Dev nD) (i : grid0.Coords) (arg2 : Memref sig .tc .vmem S2x4x512x64 .f32) (harg2 : arg2.IsWhole) (arg3 : Memref sig .tc .vmem S2x4x256x64 .f32) (harg3 : arg3.IsWhole) (arg4 : Memref sig .tc .vmem S2x4x256x64 .f32) (harg4 : arg4.IsWhole) (arg5 : Memref sig .tc .vmem S1x512x256 .i32) (harg5 : arg5.IsWhole) (arg6 : Memref sig .tc .vmem S2x4x512x64 .f32) (harg6 : arg6.IsWhole) (arg7 : Memref sig .tc .vmem S2x4x512x256 .f32) (harg7 : arg7.IsWhole) (arg8 : Memref sig .tc .vmem S2x4x512x64 .f32) (harg8 : arg8.IsWhole) (hc0 : ¬cond0_0 i) (hc1 : cond0_1 i) (x0 : Vec Ideal S2x4x512x64 .f32) (x1 : Vec Ideal S2x4x256x64 .f32) (x2 : Vec Ideal S2x4x256x64 .f32) (x3 : Vec Ideal S1x512x256 .i32) (xs0 : Vec Ideal S2x4x512x64 .f32) :
    out0_C_4 (F := Ideal) c i arg2 harg2 arg3 harg3 arg4 harg4 arg5 harg5 arg6 harg6 arg7 harg7 arg8 harg8 hc0 hc1 x0 x1 x2 x3 xs0 = fun y => xs0 y + outBlk x0 x1 x2 x3 y :=
  LastTile.out_C c i arg2 harg2 arg3 harg3 arg4 harg4 arg5 harg5 arg6 harg6 arg7 harg7 arg8 harg8 hc0 hc1 x0 x1 x2 x3 xs0

end Cert.KernelIdeal.PieceFacts

end
-- ==== Proof.InputBlocks.lean ====
/-
  Where the staged input blocks sit in the argument arrays.

  The grid has 8 × 16 points; point t has query-block coordinate t / 16 and key-block coordinate t % 16. The q window
  stages 512 query rows at a time (block index t / 16 along the row axis), the k and v windows 256 key rows at a time
  (block index t % 16), and the mask window a 512 × 256 tile (block indices t / 16 and t % 16). An element of a block
  therefore sits in its array, on each axis, at block index × block extent + its coordinate inside the block.
-/
import proofs.«177084_j29996051595373_1_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-! ## The grid has 128 points, and the two row offsets stay inside the 4096 rows -/

theorem point_lt (t : Fin cfg0.N) : t.val < 128 := lt_of_lt_of_eq t.isLt (show cfg0.N = 128 from N_0)

/-- Row r of query block t / 16 is a row of the array. -/
theorem qrow_lt (t : Fin cfg0.N) (r : Fin 512) : 512 * (t.val / 16) + r.val < 4096 := by
  have h := point_lt t; have hr := r.isLt; omega

/-- Row r of key block t % 16 is a row of the array. -/
theorem krow_lt (t : Fin cfg0.N) (r : Fin 256) : 256 * (t.val % 16) + r.val < 4096 := by
  have hr := r.isLt; omega

/-! ## The printed index maps in closed form, decided once over the 128 points -/

/-- The q window's block index: (0, 0, t / 16, 0). -/
theorem idx0 : ∀ t : Fin cfg0.N, win0_0.index t 0 = 0 ∧ win0_0.index t 1 = 0 ∧ win0_0.index t 2 = t.val / 16 ∧ win0_0.index t 3 = 0 :=
  (by decide +kernel : ∀ t : Fin grid0.N, _)

/-- The k window's block index: (0, 0, t % 16, 0). -/
theorem idx1 : ∀ t : Fin cfg0.N, win0_1.index t 0 = 0 ∧ win0_1.index t 1 = 0 ∧ win0_1.index t 2 = t.val % 16 ∧ win0_1.index t 3 = 0 :=
  (by decide +kernel : ∀ t : Fin grid0.N, _)

/-- The v window's block index: (0, 0, t % 16, 0). -/
theorem idx2 : ∀ t : Fin cfg0.N, win0_2.index t 0 = 0 ∧ win0_2.index t 1 = 0 ∧ win0_2.index t 2 = t.val % 16 ∧ win0_2.index t 3 = 0 :=
  (by decide +kernel : ∀ t : Fin grid0.N, _)

/-- The mask window's block index: (0, t / 16, t % 16). -/
theorem idx3 : ∀ t : Fin cfg0.N, win0_3.index t 0 = 0 ∧ win0_3.index t 1 = t.val / 16 ∧ win0_3.index t 2 = t.val % 16 :=
  (by decide +kernel : ∀ t : Fin grid0.N, _)

/-! ## What each staged block reads -/

/-- The q block at point t reads q at query row 512 · (t / 16) + its own row. -/
theorem iblk0_apply (c : Dev nD) (t : Fin cfg0.N) (y : S2x4x512x64.Idx) :
    (iblk m c 0 t : Vec F S2x4x512x64 .f32) y
      = m ((c : Thread nD τ).loc main_arg0) (ix4 (n0 := 2) (n1 := 4) (n2 := 4096) (n3 := 64) (y 0) (y 1) ⟨512 * (t.val / 16) + (y 2).val, qrow_lt t (y 2)⟩ (y 3)) := by
  obtain ⟨e0, e1, e2, e3⟩ := idx0 t
  unfold iblk
  rw [View.read_apply]
  show V m c main_arg0 _ = _
  unfold V
  congr 1
  funext a
  apply Fin.ext
  match a with
  | ⟨0, _⟩ => show win0_0.index t 0 * 2 + 1 * (y 0).val = (y 0).val; rw [e0]; omega
  | ⟨1, _⟩ => show win0_0.index t 1 * 4 + 1 * (y 1).val = (y 1).val; rw [e1]; omega
  | ⟨2, _⟩ => show win0_0.index t 2 * 512 + 1 * (y 2).val = 512 * (t.val / 16) + (y 2).val; rw [e2]; omega
  | ⟨3, _⟩ => show win0_0.index t 3 * 64 + 1 * (y 3).val = (y 3).val; rw [e3]; omega

/-- The k block at point t reads k at key row 256 · (t % 16) + its own row. -/
theorem iblk1_apply (c : Dev nD) (t : Fin cfg0.N) (y : S2x4x256x64.Idx) :
    (iblk m c 1 t : Vec F S2x4x256x64 .f32) y
      = m ((c : Thread nD τ).loc main_arg1) (ix4 (n0 := 2) (n1 := 4) (n2 := 4096) (n3 := 64) (y 0) (y 1) ⟨256 * (t.val % 16) + (y 2).val, krow_lt t (y 2)⟩ (y 3)) := by
  obtain ⟨e0, e1, e2, e3⟩ := idx1 t
  unfold iblk
  rw [View.read_apply]
  show V m c main_arg1 _ = _
  unfold V
  congr 1
  funext a
  apply Fin.ext
  match a with
  | ⟨0, _⟩ => show win0_1.index t 0 * 2 + 1 * (y 0).val = (y 0).val; rw [e0]; omega
  | ⟨1, _⟩ => show win0_1.index t 1 * 4 + 1 * (y 1).val = (y 1).val; rw [e1]; omega
  | ⟨2, _⟩ => show win0_1.index t 2 * 256 + 1 * (y 2).val = 256 * (t.val % 16) + (y 2).val; rw [e2]; omega
  | ⟨3, _⟩ => show win0_1.index t 3 * 64 + 1 * (y 3).val = (y 3).val; rw [e3]; omega

/-- The v block at point t reads v at key row 256 · (t % 16) + its own row. -/
theorem iblk2_apply (c : Dev nD) (t : Fin cfg0.N) (y : S2x4x256x64.Idx) :
    (iblk m c 2 t : Vec F S2x4x256x64 .f32) y
      = m ((c : Thread nD τ).loc main_arg2) (ix4 (n0 := 2) (n1 := 4) (n2 := 4096) (n3 := 64) (y 0) (y 1) ⟨256 * (t.val % 16) + (y 2).val, krow_lt t (y 2)⟩ (y 3)) := by
  obtain ⟨e0, e1, e2, e3⟩ := idx2 t
  unfold iblk
  rw [View.read_apply]
  show V m c main_arg2 _ = _
  unfold V
  congr 1
  funext a
  apply Fin.ext
  match a with
  | ⟨0, _⟩ => show win0_2.index t 0 * 2 + 1 * (y 0).val = (y 0).val; rw [e0]; omega
  | ⟨1, _⟩ => show win0_2.index t 1 * 4 + 1 * (y 1).val = (y 1).val; rw [e1]; omega
  | ⟨2, _⟩ => show win0_2.index t 2 * 256 + 1 * (y 2).val = 256 * (t.val % 16) + (y 2).val; rw [e2]; omega
  | ⟨3, _⟩ => show win0_2.index t 3 * 64 + 1 * (y 3).val = (y 3).val; rw [e3]; omega

/-- The mask tile at point t reads the mask at query row 512 · (t / 16) + its row and key row 256 · (t % 16) + its column. -/
theorem iblk3_apply (c : Dev nD) (t : Fin cfg0.N) (y : S1x512x256.Idx) :
    (iblk m c 3 t : Vec F S1x512x256 .i32) y
      = m ((c : Thread nD τ).loc main_arg3) (ix3 (n0 := 1) (n1 := 4096) (n2 := 4096) (0 : Fin 1) ⟨512 * (t.val / 16) + (y 1).val, qrow_lt t (y 1)⟩ ⟨256 * (t.val % 16) + (y 2).val, krow_lt t (y 2)⟩) := by
  obtain ⟨e0, e1, e2⟩ := idx3 t
  have h0 : (y 0).val < 1 := (y 0).isLt
  unfold iblk
  rw [View.read_apply]
  show V m c main_arg3 _ = _
  unfold V
  congr 1
  funext a
  apply Fin.ext
  match a with
  | ⟨0, _⟩ => show win0_3.index t 0 * 1 + 1 * (y 0).val = 0; rw [e0]; omega
  | ⟨1, _⟩ => show win0_3.index t 1 * 512 + 1 * (y 1).val = 512 * (t.val / 16) + (y 1).val; rw [e1]; omega
  | ⟨2, _⟩ => show win0_3.index t 2 * 256 + 1 * (y 2).val = 256 * (t.val % 16) + (y 2).val; rw [e2]; omega

end Cert.KernelIdeal.Blocks

end
-- ==== Proof.OutputBlocks.lean ====
/-
  Where the written-back output blocks sit in the result arrays, and the result arrays as whole functions.

  Point t of the 8 × 16 grid has query-block coordinate t / 16 and key-block coordinate t % 16. The probability
  window writes a 512 × 256 tile back at every point, at block indices (t / 16, t % 16) of the last two axes; the 128
  tiles are exactly the 8 × 16 tiles of the 4096 × 4096 plane. The output window holds 512 query rows, block index
  t / 16, and is written back only at the last key block of each query block (t % 16 = 15); those 8 points' blocks are
  exactly the 8 row bands of the 4096 rows. So an array that every written-back block agrees with is the whole result.
-/
import proofs.«177084_j29996051595373_1_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-! ## The grid has 128 points, and the block offsets stay inside the 4096 rows and columns -/

theorem opoint_lt (t : Fin cfg0.N) : t.val < 128 := lt_of_lt_of_eq t.isLt (show cfg0.N = 128 from N_0)

/-- Row r of query block t / 16 is a row of the array. -/
theorem orow_lt (t : Fin cfg0.N) (r : Fin 512) : 512 * (t.val / 16) + r.val < 4096 := by
  have h := opoint_lt t; have hr := r.isLt; omega

/-- Column s of key block t % 16 is a column of the probability plane. -/
theorem ocol_lt (t : Fin cfg0.N) (s : Fin 256) : 256 * (t.val % 16) + s.val < 4096 := by
  have hs := s.isLt; omega

/-! ## The printed index maps in closed form, decided once over the 128 points -/

/-- The output window's block index: (0, 0, t / 16, 0). -/
theorem idx4 : ∀ t : Fin cfg0.N, win0_4.index t 0 = 0 ∧ win0_4.index t 1 = 0 ∧ win0_4.index t 2 = t.val / 16 ∧ win0_4.index t 3 = 0 :=
  (by decide +kernel : ∀ t : Fin grid0.N, _)

/-- The probability window's block index: (0, 0, t / 16, t % 16). -/
theorem idx5 : ∀ t : Fin cfg0.N, win0_5.index t 0 = 0 ∧ win0_5.index t 1 = 0 ∧ win0_5.index t 2 = t.val / 16 ∧ win0_5.index t 3 = t.val % 16 :=
  (by decide +kernel : ∀ t : Fin grid0.N, _)

/-! ## A whole array read through a block -/

/-- A probability array read through the tile of point t: query row 512 · (t / 16) + row, key column 256 · (t % 16) + column. -/
theorem read_blk5 (G5 : S2x4x4096x4096.Idx → Elt F .f32) (t : Fin cfg0.N) (y : S2x4x512x256.Idx) :
    (((cfg0.win 5).blk t).view.read (Elt F) G5 : Vec F S2x4x512x256 .f32) y
      = G5 (ix4 (n0 := 2) (n1 := 4) (n2 := 4096) (n3 := 4096) (y 0) (y 1) ⟨512 * (t.val / 16) + (y 2).val, orow_lt t (y 2)⟩ ⟨256 * (t.val % 16) + (y 3).val, ocol_lt t (y 3)⟩) := by
  obtain ⟨e0, e1, e2, e3⟩ := idx5 t
  rw [View.read_apply]
  show G5 _ = _
  congr 1
  funext a
  apply Fin.ext
  match a with
  | ⟨0, _⟩ => show win0_5.index t 0 * 2 + 1 * (y 0).val = (y 0).val; rw [e0]; omega
  | ⟨1, _⟩ => show win0_5.index t 1 * 4 + 1 * (y 1).val = (y 1).val; rw [e1]; omega
  | ⟨2, _⟩ => show win0_5.index t 2 * 512 + 1 * (y 2).val = 512 * (t.val / 16) + (y 2).val; rw [e2]; omega
  | ⟨3, _⟩ => show win0_5.index t 3 * 256 + 1 * (y 3).val = 256 * (t.val % 16) + (y 3).val; rw [e3]; omega

/-- An output array read through the block of point t: query row 512 · (t / 16) + row. -/
theorem read_blk4 (G4 : S2x4x4096x64.Idx → Elt F .f32) (t : Fin cfg0.N) (y : S2x4x512x64.Idx) :
    (((cfg0.win 4).blk t).view.read (Elt F) G4 : Vec F S2x4x512x64 .f32) y
      = G4 (ix4 (n0 := 2) (n1 := 4) (n2 := 4096) (n3 := 64) (y 0) (y 1) ⟨512 * (t.val / 16) + (y 2).val, orow_lt t (y 2)⟩ (y 3)) := by
  obtain ⟨e0, e1, e2, e3⟩ := idx4 t
  rw [View.read_apply]
  show G4 _ = _
  congr 1
  funext a
  apply Fin.ext
  match a with
  | ⟨0, _⟩ => show win0_4.index t 0 * 2 + 1 * (y 0).val = (y 0).val; rw [e0]; omega
  | ⟨1, _⟩ => show win0_4.index t 1 * 4 + 1 * (y 1).val = (y 1).val; rw [e1]; omega
  | ⟨2, _⟩ => show win0_4.index t 2 * 512 + 1 * (y 2).val = 512 * (t.val / 16) + (y 2).val; rw [e2]; omega
  | ⟨3, _⟩ => show win0_4.index t 3 * 64 + 1 * (y 3).val = (y 3).val; rw [e3]; omega

/-! ## Membership in a block, axis by axis -/

/-- An index of the probability array is in the tile of point t iff each coordinate is in the tile's range. -/
theorem mem_blk5 (t : Fin cfg0.N) (i : S2x4x4096x4096.Idx) :
    i ∈ ((cfg0.win 5).blk t).view.set ↔ ∀ a : Fin 4, win0_5.index t a * S2x4x512x256.size a ≤ (i a).val ∧ (i a).val < win0_5.index t a * S2x4x512x256.size a + S2x4x512x256.size a := by
  show i ∈ ((View.whole main_v0_1).slice (win0_5.rect t)).set ↔ _
  rw [View.set_slice_whole, Rect.mem_set_unit]
  exact Iff.rfl

/-- An index of the output array is in the block of point t iff each coordinate is in the block's range. -/
theorem mem_blk4 (t : Fin cfg0.N) (i : S2x4x4096x64.Idx) :
    i ∈ ((cfg0.win 4).blk t).view.set ↔ ∀ a : Fin 4, win0_4.index t a * S2x4x512x64.size a ≤ (i a).val ∧ (i a).val < win0_4.index t a * S2x4x512x64.size a + S2x4x512x64.size a := by
  show i ∈ ((View.whole main_v0_0).slice (win0_4.rect t)).set ↔ _
  rw [View.set_slice_whole, Rect.mem_set_unit]
  exact Iff.rfl

/-! ## The blocks cover the arrays -/

/-- Every index of the probability array is in the tile of the point 16 · (row / 512) + column / 256, which writes back. -/
theorem cover5 (i : S2x4x4096x4096.Idx) : ∃ t : Fin cfg0.N, (cfg0.win 5).flush t = true ∧ i ∈ ((cfg0.win 5).blk t).view.set := by
  have h0 : (i 0).val < 2 := (i 0).isLt
  have h1 : (i 1).val < 4 := (i 1).isLt
  have h2 : (i 2).val < 4096 := (i 2).isLt
  have h3 : (i 3).val < 4096 := (i 3).isLt
  have hN : cfg0.N = 128 := N_0
  let t : Fin cfg0.N := ⟨16 * ((i 2).val / 512) + (i 3).val / 256, by omega⟩
  have ht : t.val = 16 * ((i 2).val / 512) + (i 3).val / 256 := rfl
  obtain ⟨e0, e1, e2, e3⟩ := idx5 t
  refine ⟨t, flush0_5 t, ?_⟩
  rw [mem_blk5]
  intro a
  match a with
  | ⟨0, _⟩ => show win0_5.index t 0 * 2 ≤ (i 0).val ∧ (i 0).val < win0_5.index t 0 * 2 + 2; rw [e0]; omega
  | ⟨1, _⟩ => show win0_5.index t 1 * 4 ≤ (i 1).val ∧ (i 1).val < win0_5.index t 1 * 4 + 4; rw [e1]; omega
  | ⟨2, _⟩ => show win0_5.index t 2 * 512 ≤ (i 2).val ∧ (i 2).val < win0_5.index t 2 * 512 + 512; rw [e2, ht]; omega
  | ⟨3, _⟩ => show win0_5.index t 3 * 256 ≤ (i 3).val ∧ (i 3).val < win0_5.index t 3 * 256 + 256; rw [e3, ht]; omega

/-- Every index of the output array is in the block of the point 16 · (row / 512) + 15, which writes back. -/
theorem cover4 (i : S2x4x4096x64.Idx) : ∃ t : Fin cfg0.N, (cfg0.win 4).flush t = true ∧ i ∈ ((cfg0.win 4).blk t).view.set := by
  have h0 : (i 0).val < 2 := (i 0).isLt
  have h1 : (i 1).val < 4 := (i 1).isLt
  have h2 : (i 2).val < 4096 := (i 2).isLt
  have h3 : (i 3).val < 64 := (i 3).isLt
  have hN : cfg0.N = 128 := N_0
  let t : Fin cfg0.N := ⟨16 * ((i 2).val / 512) + 15, by omega⟩
  have ht : t.val = 16 * ((i 2).val / 512) + 15 := rfl
  obtain ⟨e0, e1, e2, e3⟩ := idx4 t
  refine ⟨t, (flush0_4 t).mpr (by rw [ht]; omega), ?_⟩
  rw [mem_blk4]
  intro a
  match a with
  | ⟨0, _⟩ => show win0_4.index t 0 * 2 ≤ (i 0).val ∧ (i 0).val < win0_4.index t 0 * 2 + 2; rw [e0]; omega
  | ⟨1, _⟩ => show win0_4.index t 1 * 4 ≤ (i 1).val ∧ (i 1).val < win0_4.index t 1 * 4 + 4; rw [e1]; omega
  | ⟨2, _⟩ => show win0_4.index t 2 * 512 ≤ (i 2).val ∧ (i 2).val < win0_4.index t 2 * 512 + 512; rw [e2, ht]; omega
  | ⟨3, _⟩ => show win0_4.index t 3 * 64 ≤ (i 3).val ∧ (i 3).val < win0_4.index t 3 * 64 + 64; rw [e3]; omega

/-! ## The result arrays -/

/-- If every point writes back its tile of G5, the probability array ends as G5. -/
theorem attn_array (c : Dev nD) (G5 : S2x4x4096x4096.Idx → Elt F .f32)
    (hfl : ∀ t : Fin cfg0.N, (dats m 0 c).flushed 5 t = ((cfg0.win 5).blk t).view.read (Elt F) G5) :
    (dats m 0 c).arrAt 5 cfg0.N = G5 :=
  (dats m 0 c).arrAt_eq_of_cover 5 G5 (fun t _ => hfl t) cover5

/-- If every point that writes back writes its block of G4, the output array ends as G4. -/
theorem out_array (c : Dev nD) (G4 : S2x4x4096x64.Idx → Elt F .f32)
    (hfl : ∀ t : Fin cfg0.N, (cfg0.win 4).flush t = true → (dats m 0 c).flushed 4 t = ((cfg0.win 4).blk t).view.read (Elt F) G4) :
    (dats m 0 c).arrAt 4 cfg0.N = G4 :=
  (dats m 0 c).arrAt_eq_of_cover 4 G4 hfl cover4

end Cert.KernelIdeal.Blocks

end
-- ==== Proof.LibTileSum.lean ====
import Mathlib.Algebra.BigOperators.Fin
import Mathlib.Algebra.BigOperators.Intervals

/-!
# Sums over consecutive indices, grouped into tiles of equal width

A sum over `K * W` consecutive natural indices equals the sum, over the `K` tiles, of the
sums over the `W` indices of each tile; tile `k` holds the indices `W * k + u`, `u < W`.
-/

namespace Cert.TileSum

/-- A sum over the first `K * W` naturals is the sum, tile by tile, of the sums over each
tile `{W * k + u | u < W}` of width `W` (both sides written over `Finset.range`). -/
theorem sum_range_tiles {M : Type*} [AddCommMonoid M] (K W : ℕ) (g : ℕ → M) :
    ∑ i ∈ Finset.range (K * W), g i
      = ∑ k ∈ Finset.range K, ∑ u ∈ Finset.range W, g (W * k + u) := by
  induction K with
  | zero => simp
  | succ K ih =>
    rw [Nat.succ_mul, Finset.sum_range_add, ih, Finset.sum_range_succ, Nat.mul_comm K W]

/-- A sum over `K * W` consecutive indices is the sum, tile by tile, of the sums over each
tile of width `W`: index `t < K * W` is `W * k + u` for a unique tile `k < K` and offset
`u < W`. -/
theorem sum_tiles {M : Type*} [AddCommMonoid M] (K W : ℕ) (g : ℕ → M) :
    ∑ t : Fin (K * W), g t.val
      = ∑ k ∈ Finset.range K, ∑ u : Fin W, g (W * k + u.val) := by
  rw [Fin.sum_univ_eq_sum_range (fun i => g i) (K * W), sum_range_tiles]
  refine Finset.sum_congr rfl fun k _ => ?_
  exact (Fin.sum_univ_eq_sum_range (fun u => g (W * k + u)) W).symm

/-- The tiled form of a sum of a function on `Fin N` with `N = K * W`: the summand at tile
`k` and offset `u` is `f` at the index `W * k + u` (which is always below `N`; the
`else` branch is never taken and is there only to make the expression total). -/
theorem sum_fin_tiles {M : Type*} [AddCommMonoid M] (K W N : ℕ) (hN : N = K * W)
    (f : Fin N → M) :
    ∑ t : Fin N, f t
      = ∑ k ∈ Finset.range K, ∑ u : Fin W,
          (if h : W * k + u.val < N then f ⟨W * k + u.val, h⟩ else 0) := by
  subst hN
  have h1 : ∑ t : Fin (K * W), f t
      = ∑ t : Fin (K * W), (fun n : ℕ => if h : n < K * W then f ⟨n, h⟩ else 0) t.val :=
    Finset.sum_congr rfl fun t _ => by simp [t.isLt]
  rw [h1, sum_tiles K W (fun n : ℕ => if h : n < K * W then f ⟨n, h⟩ else 0)]

end Cert.TileSum
-- ==== Proof.BlockGlobal.lean ====
/-
  One grid point's tile of probabilities and share of the output are the attention's own, read where the point's
  blocks sit in the arrays.

  Point t holds query rows 512 · (t / 16) + s (s < 512) and key rows 256 · (t % 16) + u (u < 256). Its tile of
  probabilities is the attention's probabilities at those rows, and its share of the output sum is the attention's
  sum restricted to its 256 key rows.
-/
import proofs.«177084_j29996051595373_1_alg».proof.Proof.AttnSpec
import proofs.«177084_j29996051595373_1_alg».proof.Proof.BlockSpec
import proofs.«177084_j29996051595373_1_alg».proof.Proof.InputBlocks

noncomputable section

namespace Cert.KernelIdeal.BlockGlobal

open Idealize.ShloMosaic Idealize.ShloMosaic.TcCoe Idealize.SL.Sem Idealize.ShloMosaic.ValueIdx
open Cert.KernelIdeal Cert.KernelIdeal.Gen Cert.KernelIdeal.BlockSpec Cert.KernelIdeal.Blocks

variable (m : (ℓ : Loc nD τ sig) → Buf (Elt Ideal) ℓ) (c : Dev nD)

set_option quotPrecheck false

local notation "qA" => m ((c : Thread nD τ).loc main_arg0)
local notation "kA" => m ((c : Thread nD τ).loc main_arg1)
local notation "vA" => m ((c : Thread nD τ).loc main_arg2)
local notation "maskA" => m ((c : Thread nD τ).loc main_arg3)

/-! ## The blocks at an index given by coordinates -/

theorem iblk0_ix (t : Fin cfg0.N) (b : Fin 2) (h : Fin 4) (s : Fin 512) (d : Fin 64) :
    (iblk m c 0 t : Vec Ideal S2x4x512x64 .f32) (ix4 b h s d)
      = qA (ix4 b h ⟨512 * (t.val / 16) + s.val, qrow_lt t s⟩ d) :=
  iblk0_apply m c t (ix4 b h s d)

theorem iblk1_ix (t : Fin cfg0.N) (b : Fin 2) (h : Fin 4) (u : Fin 256) (d : Fin 64) :
    (iblk m c 1 t : Vec Ideal S2x4x256x64 .f32) (ix4 b h u d)
      = kA (ix4 b h ⟨256 * (t.val % 16) + u.val, krow_lt t u⟩ d) :=
  iblk1_apply m c t (ix4 b h u d)

theorem iblk2_ix (t : Fin cfg0.N) (b : Fin 2) (h : Fin 4) (u : Fin 256) (d : Fin 64) :
    (iblk m c 2 t : Vec Ideal S2x4x256x64 .f32) (ix4 b h u d)
      = vA (ix4 b h ⟨256 * (t.val % 16) + u.val, krow_lt t u⟩ d) :=
  iblk2_apply m c t (ix4 b h u d)

theorem iblk3_ix (t : Fin cfg0.N) (s : Fin 512) (u : Fin 256) :
    (iblk m c 3 t : Vec Ideal S1x512x256 .i32) (ix3 (0 : Fin 1) s u)
      = maskA (ix3 (0 : Fin 1) ⟨512 * (t.val / 16) + s.val, qrow_lt t s⟩ ⟨256 * (t.val % 16) + u.val, krow_lt t u⟩) :=
  iblk3_apply m c t (ix3 (0 : Fin 1) s u)

/-! ## The point's tile of probabilities and share of the output -/

/-- The point's probabilities are the attention's at the point's query and key rows. -/
theorem ab_iblk (t : Fin cfg0.N) (b : Fin 2) (h : Fin 4) (s : Fin 512) (u : Fin 256) :
    ab (iblk m c 0 t) (iblk m c 1 t) (iblk m c 3 t) b h s u
      = Cert.AttnSpec.attn qA kA maskA b h ⟨512 * (t.val / 16) + s.val, qrow_lt t s⟩ ⟨256 * (t.val % 16) + u.val, krow_lt t u⟩ := by
  unfold ab pb zb Cert.AttnSpec.attn Cert.AttnSpec.p0 Cert.AttnSpec.z Cert.AttnSpec.qk Cert.AttnSpec.masked
  simp only [iblk0_ix, iblk1_ix, iblk3_ix]

/-- The point's share of the output is the attention's sum over the point's 256 key rows. -/
theorem mb_iblk (t : Fin cfg0.N) (b : Fin 2) (h : Fin 4) (s : Fin 512) (d : Fin 64) :
    mb (iblk m c 0 t) (iblk m c 1 t) (iblk m c 2 t) (iblk m c 3 t) b h s d
      = ∑ u : Fin 256, Cert.AttnSpec.attn qA kA maskA b h ⟨512 * (t.val / 16) + s.val, qrow_lt t s⟩ ⟨256 * (t.val % 16) + u.val, krow_lt t u⟩
          * vA (ix4 b h ⟨256 * (t.val % 16) + u.val, krow_lt t u⟩ d) := by
  unfold mb
  simp only [ab_iblk, iblk2_ix]

end Cert.KernelIdeal.BlockGlobal

end
-- ==== Proof.Flushed.lean ====
/-
  What every grid point writes back, as blocks of the attention's two result arrays.

  Probabilities: at every point the block written back is the point's tile of probabilities, which is the tile of the
  attention's probabilities at the point's query and key rows.

  Output: within one query tile (points 16 q … 16 q + 15) the running sum starts at the first point's share and adds
  each later point's share, so after point 16 q + j it is the sum of the shares of points 16 q … 16 q + j. The last point
  writes back what the point before left plus its own share: the sum of all 16 shares. Each share is the attention's
  sum over the point's 256 key rows, and the 16 key tiles are exactly the 4096 key rows, so the block written back is
  the attention's output at the query tile's rows.
-/
import proofs.«177084_j29996051595373_1_alg».proof.Proof.Gen.KernelIdeal.Value
import proofs.«177084_j29996051595373_1_alg».proof.Proof.AttnSpec
import proofs.«177084_j29996051595373_1_alg».proof.Proof.BlockSpec
import proofs.«177084_j29996051595373_1_alg».proof.Proof.PieceFacts
import proofs.«177084_j29996051595373_1_alg».proof.Proof.InputBlocks
import proofs.«177084_j29996051595373_1_alg».proof.Proof.OutputBlocks
import proofs.«177084_j29996051595373_1_alg».proof.Proof.BlockGlobal
import proofs.«177084_j29996051595373_1_alg».proof.Proof.LibTileSum
import Idealize.ShloMosaic.Lib.Pipeline.Value

set_option maxRecDepth 16384

noncomputable section

namespace Cert.KernelIdeal.Flushed

open Idealize.ShloMosaic Idealize.ShloMosaic.TcCoe Idealize.SL.Sem Idealize.ShloMosaic.ValueIdx
open Cert.KernelIdeal Cert.KernelIdeal.Gen Cert.KernelIdeal.Value Cert.KernelIdeal.BlockSpec Cert.KernelIdeal.Blocks
open Cert.KernelIdeal.BlockGlobal

variable (m : (ℓ : Loc nD τ sig) → Buf (Elt Ideal) ℓ) (c : Dev nD)

set_option quotPrecheck false

local notation "qA" => m ((c : Thread nD τ).loc main_arg0)
local notation "kA" => m ((c : Thread nD τ).loc main_arg1)
local notation "vA" => m ((c : Thread nD τ).loc main_arg2)
local notation "maskA" => m ((c : Thread nD τ).loc main_arg3)

/-! ## The probabilities -/

/-- The point's tile of probabilities is the attention's probabilities read through the point's block. -/
theorem attnBlk_read (t : Fin cfg0.N) :
    (cfg0.win 5).cut (grid0.coords t) (attnBlk (iblk m c 0 t) (iblk m c 1 t) (iblk m c 3 t))
      = ((cfg0.win 5).blk t).view.read (Elt Ideal) (Cert.AttnSpec.attnG qA kA maskA) := by
  funext y
  rw [read_blk5]
  exact ab_iblk m c t (y 0) (y 1) (y 2) (y 3)

/-- Every point writes back its block of the attention's probabilities. -/
theorem flushed5_eq (t : Fin cfg0.N) :
    (dats m 0 c).flushed 5 t = ((cfg0.win 5).blk t).view.read (Elt Ideal) (Cert.AttnSpec.attnG qA kA maskA) := by
  by_cases h0 : t.val % 16 = 0
  · have h1 : ¬t.val % 16 = 15 := by omega
    rw [flushed5_A m c t h0 h1, PieceFacts.attn_A]
    exact attnBlk_read m c t
  · by_cases h1 : t.val % 16 = 15
    · rw [flushed5_C m c t h0 h1, PieceFacts.attn_C]
      exact attnBlk_read m c t
    · rw [flushed5_B m c t h0 h1, PieceFacts.attn_B]
      exact attnBlk_read m c t

/-! ## The running sum -/

/-- Point n's share of the output sum, as a function of every natural n (zero past the grid, never used there). -/
def share (n : ℕ) : S2x4x512x64.Idx → EReal := fun i =>
  if h : n < cfg0.N then outBlk (iblk m c 0 ⟨n, h⟩) (iblk m c 1 ⟨n, h⟩) (iblk m c 2 ⟨n, h⟩) (iblk m c 3 ⟨n, h⟩) i else 0

/-- At the first key tile the running sum is left at the point's share. -/
theorem scratch_first (b : ℕ) (hb0 : b % 16 = 0) (h : b < cfg0.N) (i : S2x4x512x64.Idx) :
    scAt0_0 m c b h (VS0_0.read (Elt Ideal) VS0_0.junk) i = 0 + share m c b i := by
  have h1 : ¬b % 16 = 15 := by omega
  unfold scAt0_0 share
  rw [dif_pos hb0, dif_neg h1, dif_pos h, PieceFacts.acc_A, zero_add]

/-- At every other key tile the point's share is added to the running sum. -/
theorem scratch_step (n : ℕ) (h : n < cfg0.N) (hn0 : ¬n % 16 = 0) (acc : S2x4x512x64.Idx → EReal) (i : S2x4x512x64.Idx) :
    scAt0_0 m c n h acc i = acc i + share m c n i := by
  unfold scAt0_0 share
  rw [dif_neg hn0, dif_pos h]
  by_cases h1 : n % 16 = 15
  · rw [dif_pos h1, PieceFacts.acc_C]
  · rw [dif_neg h1, PieceFacts.acc_B]

/-- After point n the running sum is the sum of the shares of the points of n's query tile up to n. -/
theorem scratch_eq (n : ℕ) (hn : n < cfg0.N) (i : S2x4x512x64.Idx) :
    (outsAt0 m c n hn).2.2 i = 0 + ∑ s ∈ Finset.range (n % 16 + 1), share m c (16 * (n / 16) + s) i := by
  have hN : cfg0.N = 128 := N_0
  refine (congrFun (soutsAt0_0_eq m c ⟨n, hn⟩) i).trans ?_
  exact Pipeline.accAt_add_apply (fun n h => scAt0_0 m c n h (VS0_0.read (Elt Ideal) VS0_0.junk)) (scAt0_0 m c)
    (fun _ => 0) (share m c) (16 * (n / 16)) 15
    (fun h i => scratch_first m c _ (by omega) h i)
    (fun k h acc i hlo hhi => scratch_step m c k h (by omega) acc i)
    (n % 16) (by omega) _ i

/-! ## The output -/

/-- The attention's summand at query row r and key row t': the probability times the value row's entry. -/
def term (y : S2x4x512x64.Idx) (r t' : Fin 4096) : EReal :=
  Cert.AttnSpec.attn qA kA maskA (y 0) (y 1) r t' * vA (ix4 (y 0) (y 1) t' (y 3))

/-- The share of point 16 q + s is the attention's sum over key tile s, at the rows of query tile q. -/
theorem share_tile (q s : ℕ) (hq : q < 8) (hs : s < 16) (y : S2x4x512x64.Idx) (hr : 512 * q + (y 2).val < 4096) :
    share m c (16 * q + s) y
      = ∑ u : Fin 256, (if h : 256 * s + u.val < 4096 then term m c y ⟨512 * q + (y 2).val, hr⟩ ⟨256 * s + u.val, h⟩ else 0) := by
  have hN : cfg0.N = 128 := N_0
  have hn : 16 * q + s < cfg0.N := by omega
  have e1 : (16 * q + s) / 16 = q := by omega
  have e2 : (16 * q + s) % 16 = s := by omega
  unfold share
  rw [dif_pos hn]
  unfold outBlk
  refine (mb_iblk m c ⟨16 * q + s, hn⟩ (y 0) (y 1) (y 2) (y 3)).trans ?_
  refine Finset.sum_congr rfl fun u _ => ?_
  have hu : u.val < 256 := u.isLt
  rw [dif_pos (by omega)]
  unfold term
  simp only [e1, e2]

/-- The last point of a query tile writes back its block of the attention's output. -/
theorem flushed4_eq (t : Fin cfg0.N) (hf : (cfg0.win 4).flush t = true) :
    (dats m 0 c).flushed 4 t = ((cfg0.win 4).blk t).view.read (Elt Ideal) (Cert.AttnSpec.outG qA kA vA maskA) := by
  have hN : cfg0.N = 128 := N_0
  have ht : t.val < cfg0.N := t.isLt
  have h1 : t.val % 16 = 15 := (flush0_4 t).mp hf
  have h0 : ¬t.val % 16 = 0 := by omega
  rw [flushed4_C m c t h0 h1, PieceFacts.out_C]
  funext y
  rw [read_blk4]
  show (outsAt0 m c (t.val - 1) _).2.2 y + outBlk (iblk m c 0 t) (iblk m c 1 t) (iblk m c 2 t) (iblk m c 3 t) y = _
  rw [scratch_eq]
  have e1 : (t.val - 1) % 16 + 1 = 15 := by omega
  have e2 : (t.val - 1) / 16 = t.val / 16 := by omega
  have e3 : outBlk (iblk m c 0 t) (iblk m c 1 t) (iblk m c 2 t) (iblk m c 3 t) y = share m c t.val y := by
    unfold share
    rw [dif_pos t.isLt]
  have e4 : t.val = 16 * (t.val / 16) + 15 := by omega
  have e5 : share m c t.val y = share m c (16 * (t.val / 16) + 15) y := congrArg (fun n => share m c n y) e4
  rw [e1, e2, e3, e5, add_assoc, ← Finset.sum_range_succ (fun s => share m c (16 * (t.val / 16) + s) y) 15, zero_add]
  show _ = ∑ t' : Fin 4096, term m c y ⟨512 * (t.val / 16) + (y 2).val, orow_lt t (y 2)⟩ t'
  rw [Cert.TileSum.sum_fin_tiles 16 256 4096 rfl]
  refine Finset.sum_congr rfl fun s hs => ?_
  have hs' : s < 16 := Finset.mem_range.mp hs
  exact share_tile m c (t.val / 16) s (by omega) hs' y _

end Cert.KernelIdeal.Flushed

end
-- ==== Proof.KernelValue.lean ====
/-
  What the kernel's two result arrays hold after the run: the probabilities and the output of the two-way softmax
  attention, each as one function of the argument arrays.
-/
import proofs.«177084_j29996051595373_1_alg».proof.Proof.Gen.KernelIdeal.Value
import proofs.«177084_j29996051595373_1_alg».proof.Proof.AttnSpec
import proofs.«177084_j29996051595373_1_alg».proof.Proof.BlockSpec
import proofs.«177084_j29996051595373_1_alg».proof.Proof.PieceFacts
import proofs.«177084_j29996051595373_1_alg».proof.Proof.InputBlocks
import proofs.«177084_j29996051595373_1_alg».proof.Proof.OutputBlocks
import proofs.«177084_j29996051595373_1_alg».proof.Proof.LibTileSum
import proofs.«177084_j29996051595373_1_alg».proof.Proof.BlockGlobal
import proofs.«177084_j29996051595373_1_alg».proof.Proof.Flushed
import Idealize.ShloMosaic.Lib.Pipeline.Value

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.Value

variable (m : (ℓ : Loc nD τ sig) → Buf (Elt Ideal) ℓ) (ρ : Dev nD → PrngReg)

/-- The probabilities' array after the run: every point writes back its tile of the attention's probabilities, and
    the 128 tiles cover the array. -/
theorem attn_final (c : Dev nD) : (dats m 0 c).arrAt 5 cfg0.N
    = Cert.AttnSpec.attnG (m ((c : Thread nD τ).loc main_arg0)) (m ((c : Thread nD τ).loc main_arg1)) (m ((c : Thread nD τ).loc main_arg3)) :=
  Cert.KernelIdeal.Blocks.attn_array m c _ (Cert.KernelIdeal.Flushed.flushed5_eq m c)

/-- The output array after the run: the last point of each query tile writes back its block of the attention's
    output, and those 8 blocks cover the array. -/
theorem out_final (c : Dev nD) : (dats m 0 c).arrAt 4 cfg0.N
    = Cert.AttnSpec.outG (m ((c : Thread nD τ).loc main_arg0)) (m ((c : Thread nD τ).loc main_arg1)) (m ((c : Thread nD τ).loc main_arg2)) (m ((c : Thread nD τ).loc main_arg3)) :=
  Cert.KernelIdeal.Blocks.out_array m c _ (Cert.KernelIdeal.Flushed.flushed4_eq m c)

/-- After the run the first result is the attention's output and the second its probabilities, as functions of the
    argument arrays, and the arguments are unchanged. -/
theorem run : θ_run defs (onTc (τ := τ) (main (F := Ideal))) ⟨m, fun _ => 0, ρ⟩ fun r => ∀ c : Dev nD,
      r.2.mem ((c : Thread nD τ).loc main_v0_0) = Cert.AttnSpec.outG (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = Cert.AttnSpec.attnG (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out_final m c), (h c).2.1.trans (attn_final m c), (h c).2.2⟩)
    (run_blocks m ρ)

end Cert.KernelIdeal.KernelValue

end
-- ==== Proof.Claims.lean ====
/-
  The five claims, assembled.

  The two kernels' frames and the reference's are their runs with the results forgotten. The idealization rewrote
  nothing, so it preserves the kernel trivially. For the algebraic claim both programs end, from memories agreeing
  on the arguments, at ONE pair of arrays: the probability-weighted sum of value rows and the two-way softmax over
  the batch axis, as functions of the argument arrays. The kernel's run ends there by its value theorem; the
  reference's run ends at its last stages, which are those functions when q and k are real — and they are, by
  the precondition, transported along the agreement of the memories.
-/
import proofs.«177084_j29996051595373_1_alg».proof.Defs
import proofs.«177084_j29996051595373_1_alg».proof.Proof.Gen.Kernel.Frame
import proofs.«177084_j29996051595373_1_alg».proof.Proof.Gen.KernelIdeal.Frame
import proofs.«177084_j29996051595373_1_alg».proof.Proof.Gen.ReferenceIdeal.Run
import proofs.«177084_j29996051595373_1_alg».proof.Proof.Gen.ReferenceIdeal.Read
import proofs.«177084_j29996051595373_1_alg».proof.Proof.Gen.Pre_finite_inputs
import proofs.«177084_j29996051595373_1_alg».proof.Proof.RefAttn
import proofs.«177084_j29996051595373_1_alg».proof.Proof.FiniteInputs
import proofs.«177084_j29996051595373_1_alg».proof.Proof.KernelValue

noncomputable section

open Idealize.ShloMosaic Idealize.ShloMosaic.TcCoe Idealize.SL.Sem

namespace Cert.Proof.Claims

/-- The kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the attention's output and its probabilities, as functions of the argument arrays. -/
theorem algebraic : Cert.algebraic_KernelIdeal_ReferenceIdeal := by
  intro m ρ m' ρ' hpre hagree
  refine ⟨fun c => Cert.AttnSpec.outG (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.AttnSpec.attnG (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨hq, hk, _⟩ := Cert.FiniteInputs.finite_of_pre m hpre c
    rw [Cert.ReferenceIdeal.Read.val_main_v21_eq, (hagree c).1, (hagree c).2.1, (hagree c).2.2.1, (hagree c).2.2.2]
    exact Cert.RefAttn.out_eq _ _ _ _ hq hk
  · obtain ⟨hq, hk, _⟩ := Cert.FiniteInputs.finite_of_pre m hpre c
    rw [Cert.ReferenceIdeal.Read.val_main_v20_eq, (hagree c).1, (hagree c).2.1, (hagree c).2.2.2]
    exact Cert.RefAttn.attn_eq _ _ _ hq hk

end Cert.Proof.Claims

end
-- ==== Proof.lean ====
/-
  Attention with a two-way softmax over the batch axis: the kernel against its reference.

  For a batch of two, the scaled and masked scores z 0 and z 1 of a (head, query row, key row) triple are turned
  into probabilities logistic (z 0 − z 1) and 1 − logistic (z 0 − z 1), and the output is the probability-weighted
  sum of value rows. The five claims and what each rests on:
    · the kernel, its idealization and the reference each run and leave their arguments unchanged: their runs
      with the results forgotten;
    · the idealization preserves the kernel: it rewrote no operation;
    · at the ideal instance the idealized kernel and the reference, from memories agreeing on the arguments, end
      with equal results: both end at the specification's output and probabilities as functions of the argument
      arrays. The kernel computes the closed form block by block and accumulates the output over key tiles; the
      reference computes exp(z − M) / (exp(z 0 − M) + exp(z 1 − M)) with M = max (z 0) (z 1), which is the closed
      form because the scores are real numbers when q and k are finite, as the precondition says.
-/
import proofs.«177084_j29996051595373_1_alg».proof.Defs
import proofs.«177084_j29996051595373_1_alg».proof.Proof.Gen.Kernel
import proofs.«177084_j29996051595373_1_alg».proof.Proof.Gen.Kernel.Skeleton
import proofs.«177084_j29996051595373_1_alg».proof.Proof.Gen.Kernel.Launch
import proofs.«177084_j29996051595373_1_alg».proof.Proof.Gen.Kernel.Points
import proofs.«177084_j29996051595373_1_alg».proof.Proof.Gen.Kernel.Frame
import proofs.«177084_j29996051595373_1_alg».proof.Proof.Gen.KernelIdeal
import proofs.«177084_j29996051595373_1_alg».proof.Proof.Gen.KernelIdeal.Skeleton
import proofs.«177084_j29996051595373_1_alg».proof.Proof.Gen.KernelIdeal.Launch
import proofs.«177084_j29996051595373_1_alg».proof.Proof.Gen.KernelIdeal.Points
import proofs.«177084_j29996051595373_1_alg».proof.Proof.Gen.KernelIdeal.Frame
import proofs.«177084_j29996051595373_1_alg».proof.Proof.Gen.ReferenceIdeal
import proofs.«177084_j29996051595373_1_alg».proof.Proof.Gen.Pre_finite_inputs
import proofs.«177084_j29996051595373_1_alg».proof.Proof.Gen.KernelIdeal.Value
import proofs.«177084_j29996051595373_1_alg».proof.Proof.Gen.ReferenceIdeal.Run
import proofs.«177084_j29996051595373_1_alg».proof.Proof.Gen.ReferenceIdeal.Read
import proofs.«177084_j29996051595373_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic⟩

end Cert.Proof

end
